-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S1024x784 : Shape := ⟨2, ![1024, 784]⟩
abbrev S1024 : Shape := ⟨1, ![1024]⟩
abbrev S10x1024 : Shape := ⟨2, ![10, 1024]⟩
abbrev S10 : Shape := ⟨1, ![10]⟩
abbrev S1 : Shape := ⟨1, ![1]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S1024x784 : S_.BroadcastsInDim S1024x784 (![] : Fin 0 → Fin S1024x784.rank)
  reducesTo_S1024x784_S_d0_1 : S1024x784.ReducesTo [0, 1] S_
  bcast_S_S1024 : S_.BroadcastsInDim S1024 (![] : Fin 0 → Fin S1024.rank)
  reducesTo_S1024_S_d0 : S1024.ReducesTo [0] S_
  bcast_S_S10x1024 : S_.BroadcastsInDim S10x1024 (![] : Fin 0 → Fin S10x1024.rank)
  reducesTo_S10x1024_S_d0_1 : S10x1024.ReducesTo [0, 1] S_
  bcast_S_S10 : S_.BroadcastsInDim S10 (![] : Fin 0 → Fin S10.rank)
  reducesTo_S10_S_d0 : S10.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_arg8 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S10x1024 .f32) (main_arg5 : FVec F S10 .f32) (main_arg6 : FVec F S10 .f32) (main_arg7 : FVec F S1 .f32) (main_arg8 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S10x1024 .f32 := Host.absf main_arg4
  let main_cst_6 : FVec F S_ .f32 := constant S_ .f32 0x7F800000#32
  let main_v20 : FVec F S10x1024 .f32 := broadcastInDim S10x1024 ![] bcast_S_S10x1024 main_cst_6
  let main_v21 : IVec S10x1024 1 := cmpf .olt main_v19 main_v20
  let main_c_7 : IVec S_ 1 := constantI S_ 1 1#1
  let main_v22 : IVec S_ 1 := (fun x v => Host.reduce IntOp.andi x v reducesTo_S10x1024_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_v33

def fn {F : FTy → Type} [FloatOps F] (main_arg0 : FVec F S16384x784 .f32) (main_arg1 : FVec F S1024x784 .f32) (main_arg2 : FVec F S1024 .f32) (main_arg3 : FVec F S1024 .f32) (main_arg4 : FVec F S10x1024 .f32) (main_arg5 : FVec F S10 .f32) (main_arg6 : FVec F S10 .f32) (main_arg7 : FVec F S1 .f32) (main_arg8 : FVec F S1 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S1024x784 .f32 := Host.absf main_arg1
  let main_cst_0 : FVec F S_ .f32 := constant S_ .f32 0x7F800000#32
  let main_v5 : FVec F S1024x784 .f32 := broadcastInDim S1024x784 ![] bcast_S_S1024x784 main_cst_0
  let main_v6 : IVec S1024x784 1 := cmpf .olt main_v4 main_v5
  let main_c_1 : IVec S_ 1 := constantI S_ 1 1#1
  let main_v7 : IVec S_ 1 := (fun x v => Host.reduce IntOp.andi x v reducesTo_S1024x784_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S16384x784 : Shape := ⟨2, ![16384, 784]⟩
abbrev S1024x784 : Shape := ⟨2, ![1024, 784]⟩
abbrev S1024 : Shape := ⟨1, ![1024]⟩
abbrev S10x1024 : Shape := ⟨2, ![10, 1024]⟩
abbrev S10 : Shape := ⟨1, ![10]⟩
abbrev S1 : Shape := ⟨1, ![1]⟩
abbrev S784x1024 : Shape := ⟨2, ![784, 1024]⟩
abbrev S1024x10 : Shape := ⟨2, ![1024, 10]⟩
abbrev S16384x1024 : Shape := ⟨2, ![16384, 1024]⟩
abbrev S1x1024 : Shape := ⟨2, ![1, 1024]⟩
abbrev S1024x1024 : Shape := ⟨2, ![1024, 1024]⟩
abbrev S_ : Shape := ⟨0, ![]⟩
abbrev S16384x10 : Shape := ⟨2, ![16384, 10]⟩
abbrev S1x10 : Shape := ⟨2, ![1, 10]⟩
abbrev S1x1 : Shape := ⟨2, ![1, 1]⟩

abbrev nBuf : Space → Nat
  | .hbm => 54
  | .vmem => 22
  | .smem => 0
  | _ => 0

abbrev bufTy : (tb : Table) → Fin (tcTables nBuf tb) → BufTy
  | .hbm, ⟨0, _⟩ => ⟨S16384x784, .f32⟩
  | .hbm, ⟨1, _⟩ => ⟨S1024x784, .f32⟩
  | .hbm, ⟨2, _⟩ => ⟨S1024, .f32⟩
  | .hbm, ⟨3, _⟩ => ⟨S1024, .f32⟩
  | .hbm, ⟨4, _⟩ => ⟨S10x1024, .f32⟩
  | .hbm, ⟨5, _⟩ => ⟨S10, .f32⟩
  | .hbm, ⟨6, _⟩ => ⟨S10, .f32⟩
  | .hbm, ⟨7, _⟩ => ⟨S1, .f32⟩
  | .hbm, ⟨8, _⟩ => ⟨S1, .f32⟩
  | .hbm, ⟨9, _⟩ => ⟨S784x1024, .f32⟩
  | .hbm, ⟨10, _⟩ => ⟨S1024x10, .f32⟩
  | .hbm, ⟨11, _⟩ => ⟨S16384x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S16384x10, .f32⟩
  | .hbm, ⟨32, _⟩ => ⟨S1x10, .f32⟩
  | .hbm, ⟨33, _⟩ => ⟨S1x10, .f32⟩
  | .hbm, ⟨34, _⟩ => ⟨S_, .f32⟩
  | .hbm, ⟨35, _⟩ => ⟨S1x10, .f32⟩
  | .hbm, ⟨36, _⟩ => ⟨S1x10, .f32⟩
  | .hbm, ⟨37, _⟩ => ⟨S_, .f32⟩
  | .hbm, ⟨38, _⟩ => ⟨S1x10, .f32⟩
  | .hbm, ⟨39, _⟩ => ⟨S1x10, .f32⟩
  | .hbm, ⟨40, _⟩ => ⟨S1x10, .f32⟩
  | .hbm, ⟨41, _⟩ => ⟨S1x10, .f32⟩
  | .hbm, ⟨42, _⟩ => ⟨S1x10, .f32⟩
  | .hbm, ⟨43, _⟩ => ⟨S_, .f32⟩
  | .hbm, ⟨44, _⟩ => ⟨S1x10, .f32⟩
  | .hbm, ⟨45, _⟩ => ⟨S1x10, .f32⟩
  | .hbm, ⟨46, _⟩ => ⟨S1x10, .f32⟩
  | .hbm, ⟨47, _⟩ => ⟨S1x10, .f32⟩
  | .hbm, ⟨48, _⟩ => ⟨S1x10, .f32⟩
  | .hbm, ⟨49, _⟩ => ⟨S1x10, .f32⟩
  | .hbm, ⟨50, _⟩ => ⟨S1x10, .f32⟩
  | .hbm, ⟨51, _⟩ => ⟨S1x1, .f32⟩
  | .hbm, ⟨52, _⟩ => ⟨S1x1, .f32⟩
  | .hbm, ⟨53, _⟩ => ⟨S16384x10, .f32⟩
  | .local _ .vmem, ⟨0, _⟩ => ⟨S1024x784, .f32⟩
  | .local _ .vmem, ⟨1, _⟩ => ⟨S1024x784, .f32⟩
  | .local _ .vmem, ⟨2, _⟩ => ⟨S784x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1024x10, .f32⟩
  | .local _ .vmem, ⟨12, _⟩ => ⟨S1024x10, .f32⟩
  | .local _ .vmem, ⟨13, _⟩ => ⟨S1024x10, .f32⟩
  | .local _ .vmem, ⟨14, _⟩ => ⟨S1x10, .f32⟩
  | .local _ .vmem, ⟨15, _⟩ => ⟨S1x10, .f32⟩
  | .local _ .vmem, ⟨16, _⟩ => ⟨S16384x10, .f32⟩
  | .local _ .vmem, ⟨17, _⟩ => ⟨S1x10, .f32⟩
  | .local _ .vmem, ⟨18, _⟩ => ⟨S1x10, .f32⟩
  | .local _ .vmem, ⟨19, _⟩ => ⟨S1x1, .f32⟩
  | .local _ .vmem, ⟨20, _⟩ => ⟨S1x1, .f32⟩
  | .local _ .vmem, ⟨21, _⟩ => ⟨S16384x10, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x10 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S16384x10 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16384x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  transposes_S1024x784_S784x1024_1_0 : S1024x784.Transposes [1, 0] S784x1024
  transposes_S10x1024_S1024x10_1_0 : S10x1024.Transposes [1, 0] S1024x10
  inb_S1x1024_S1x1024_0_0 : ∀ a, (![0, 0] : Fin 2 → Nat) a + S1x1024.size a ≤ S1x1024.size a
  h_S1x1024 : 0 < S1x1024.numel
  inb_S1024x784_S1024x784_0_0 : ∀ a, (![0, 0] : Fin 2 → Nat) a + S1024x784.size a ≤ S1024x784.size a
  h_S1024x784 : 0 < S1024x784.numel
  bitsLt_bf16_f32 : FTy.bits .bf16 < FTy.bits .f32
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  inb_S1024x1024_S1024x1024_0_0 : ∀ a, (![0, 0] : Fin 2 → Nat) a + S1024x1024.size a ≤ S1024x1024.size a
  h_S1024x1024 : 0 < S1024x1024.numel
  shapeCasts_S1x1024_S1x1024 : S1x1024.ShapeCasts S1x1024
  reduces_S1024x1024_S1024 : S1024x1024.Reduces [0] S1024
  shapeCasts_S1024_S1x1024 : S1024.ShapeCasts S1x1024
  bcast_S_S1x1024 : S_.BroadcastsInDim S1x1024 (![] : Fin 0 → Fin S1x1024.rank)
  inb_S1x10_S1x10_0_0 : ∀ a, (![0, 0] : Fin 2 → Nat) a + S1x10.size a ≤ S1x10.size a
  h_S1x10 : 0 < S1x10.numel
  shapeCasts_S1024x1024_S1024x1024 : S1024x1024.ShapeCasts S1024x1024
  broadcasts_S1x1024_S1024x1024 : S1x1024.Broadcasts S1024x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  shapeCasts_S1x10_S1x10 : S1x10.ShapeCasts S1x10
  reduces_S1024x10_S10 : S1024x10.Reduces [0] S10
  shapeCasts_S10_S1x10 : S10.ShapeCasts S1x10
  bcast_S_S1x10 : S_.BroadcastsInDim S1x10 (![] : Fin 0 → Fin S1x10.rank)
  shapeCasts_S1_S1x1 : S1.ShapeCasts S1x1
  inb_S16384x10_S16384x10_0_0 : ∀ a, (![0, 0] : Fin 2 → Nat) a + S16384x10.size a ≤ S16384x10.size a
  h_S16384x10 : 0 < S16384x10.numel
  shapeCasts_S16384x10_S16384x10 : S16384x10.ShapeCasts S16384x10
  broadcasts_S1x10_S16384x10 : S1x10.Broadcasts S16384x10
  reduces_S16384x10_S10 : S16384x10.Reduces [0] S10
  reduces_S1x10_S1 : S1x10.Reduces [1] S1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16384x10 : S1x1.Broadcasts S16384x10
  dot_S1024x784_S784x1024_S1024x1024_1_0_0_1_n_n_wf : DotDims.WF S1024x784 S784x1024 S1024x1024 [1] [0] [0] [1] [] []
  dot_S1024x1024_S1024x10_S1024x10_1_0_0_1_n_n_wf : DotDims.WF S1024x1024 S1024x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S16384x784.size a
  hwx0_0 : ∀ i : grid0.Coords, EltTy.bits .f32 = 32 ∨ (Rect.block (s := S16384x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x1024.size a
  hwx0_1 : ∀ i : grid0.Coords, EltTy.bits .f32 = 32 ∨ (Rect.block (s := S784x1024) S784x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x10.size a ≤ S1024x10.size a
  hwx1_3 : ∀ i : grid1.Coords, EltTy.bits .f32 = 32 ∨ (Rect.block (s := S1024x10) S1024x10.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x10.size a ≤ S16384x10.size a
  hwx1_4 : ∀ i : grid1.Coords, EltTy.bits .f32 = 32 ∨ (Rect.block (s := S16384x10) S1024x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x10.size a ≤ S1x10.size a
  hwx1_5 : ∀ i : grid1.Coords, EltTy.bits .f32 = 32 ∨ (Rect.block (s := S1x10) S1x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10.size a ≤ S1x10.size a
  hwx1_6 : ∀ i : grid1.Coords, EltTy.bits .f32 = 32 ∨ (Rect.block (s := S1x10) S1x10.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16384x10.size a ≤ S16384x10.size a
  hwx2_0 : ∀ i : grid2.Coords, EltTy.bits .f32 = 32 ∨ (Rect.block (s := S16384x10) S16384x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10.size a ≤ S1x10.size a
  hwx2_1 : ∀ i : grid2.Coords, EltTy.bits .f32 = 32 ∨ (Rect.block (s := S1x10) S1x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16384x10.size a ≤ S16384x10.size a
  hwx2_5 : ∀ i : grid2.Coords, EltTy.bits .f32 = 32 ∨ (Rect.block (s := S16384x10) S16384x10.size (cc2_transform_5 i) (hinb2_5 i)).WholeWords (EltTy.packing .f32)

variable [Facts₀]

def dot_S1024x784_S784x1024_S1024x1024_1_0_0_1_n_n : DotDims S1024x784 S784x1024 S1024x1024 where
  lhsContracting := [1]
  rhsContracting := [0]
  lhsNonContracting := [0]
  rhsNonContracting := [1]
  lhsBatch := []
  rhsBatch := []
  wf := dot_S1024x784_S784x1024_S1024x1024_1_0_0_1_n_n_wf
def dot_S1024x1024_S1024x10_S1024x10_1_0_0_1_n_n : DotDims S1024x1024 S1024x10 S1024x10 where
  lhsContracting := [1]
  rhsContracting := [0]
  lhsNonContracting := [0]
  rhsNonContracting := [1]
  lhsBatch := []
  rhsBatch := []
  wf := dot_S1024x1024_S1024x10_S1024x10_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S784x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1024.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17_0) S1024x10.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17_1) S1x10.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17_2) S1x10.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v17_0) S16384x10.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S16384x10.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16384x784 : Shape := ⟨2, ![16384, 784]⟩
abbrev S1024x784 : Shape := ⟨2, ![1024, 784]⟩
abbrev S1024 : Shape := ⟨1, ![1024]⟩
abbrev S10x1024 : Shape := ⟨2, ![10, 1024]⟩
abbrev S10 : Shape := ⟨1, ![10]⟩
abbrev S1 : Shape := ⟨1, ![1]⟩
abbrev S_ : Shape := ⟨0, ![]⟩
abbrev S784x1024 : Shape := ⟨2, ![784, 1024]⟩
abbrev S16384x1024 : Shape := ⟨2, ![16384, 1024]⟩
abbrev S1x1024 : Shape := ⟨2, ![1, 1024]⟩
abbrev S1024x10 : Shape := ⟨2, ![1024, 10]⟩
abbrev S16384x10 : Shape := ⟨2, ![16384, 10]⟩
abbrev S1x10 : Shape := ⟨2, ![1, 10]⟩
abbrev S1x1 : Shape := ⟨2, ![1, 1]⟩

abbrev nBuf : Space → Nat
  | .hbm => 190
  | .vmem => 0
  | .smem => 0
  | _ => 0

abbrev hbmTy0_0 (i : Nat) : BufTy := match i % 128 with
  | 0 => ⟨S16384x784, .f32⟩
  | 1 => ⟨S1024x784, .f32⟩
  | 2 => ⟨S1024, .f32⟩
  | 3 => ⟨S1024, .f32⟩
  | 4 => ⟨S10x1024, .f32⟩
  | 5 => ⟨S10, .f32⟩
  | 6 => ⟨S10, .f32⟩
  | 7 => ⟨S1, .f32⟩
  | 8 => ⟨S1, .f32⟩
  | 9 => ⟨S_, .f32⟩
  | 10 => ⟨S16384x784, .f32⟩
  | 11 => ⟨S16384x784, .f32⟩
  | 12 => ⟨S_, .f32⟩
  | 13 => ⟨S16384x784, .f32⟩
  | 14 => ⟨S16384x784, .f32⟩
  | 15 => ⟨S16384x784, .f32⟩
  | 16 => ⟨S_, .f32⟩
  | 17 => ⟨S_, .f32⟩
  | 18 => ⟨S_, .f32⟩
  | 19 => ⟨S16384x784, .f32⟩
  | 20 => ⟨S16384x784, .f32⟩
  | 21 => ⟨S_, .f32⟩
  | 22 => ⟨S16384x784, .f32⟩
  | 23 => ⟨S16384x784, .f32⟩
  | 24 => ⟨S1024x784, .f32⟩
  | 25 => ⟨S_, .f32⟩
  | 26 => ⟨S_, .f32⟩
  | 27 => ⟨S_, .f32⟩
  | 28 => ⟨S1024x784, .f32⟩
  | 29 => ⟨S1024x784, .f32⟩
  | 30 => ⟨S_, .f32⟩
  | 31 => ⟨S1024x784, .f32⟩
  | 32 => ⟨S1024x784, .f32⟩
  | 33 => ⟨S784x1024, .f32⟩
  | 34 => ⟨S16384x1024, .f32⟩
  | 35 => ⟨S_, .f32⟩
  | 36 => ⟨S1024, .f32⟩
  | 37 => ⟨S_, .f32⟩
  | 38 => ⟨S1024, .f32⟩
  | 39 => ⟨S1024, .f32⟩
  | 40 => ⟨S_, .i32⟩
  | 41 => ⟨S_, .f32⟩
  | 42 => ⟨S1024, .f32⟩
  | 43 => ⟨S1x1024, .f32⟩
  | 44 => ⟨S_, .f32⟩
  | 45 => ⟨S1x1024, .f32⟩
  | 46 => ⟨S1x1024, .f32⟩
  | 47 => ⟨S16384x1024, .f32⟩
  | 48 => ⟨S16384x1024, .f32⟩
  | 49 => ⟨S16384x1024, .f32⟩
  | 50 => ⟨S_, .f32⟩
  | 51 => ⟨S_, .f32⟩
  | 52 => ⟨S_, .f32⟩
  | 53 => ⟨S_, .f32⟩
  | 54 => ⟨S1024, .f32⟩
  | 55 => ⟨S1024, .f32⟩
  | 56 => ⟨S1024, .f32⟩
  | 57 => ⟨S_, .f32⟩
  | 58 => ⟨S_, .i1⟩
  | 59 => ⟨S_, .f32⟩
  | 60 => ⟨S_, .f32⟩
  | 61 => ⟨S1024, .f32⟩
  | 62 => ⟨S1024, .f32⟩
  | 63 => ⟨S1x1024, .f32⟩
  | 64 => ⟨S16384x1024, .f32⟩
  | 65 => ⟨S16384x1024, .f32⟩
  | 66 => ⟨S_, .f32⟩
  | 67 => ⟨S1024, .f32⟩
  | 68 => ⟨S1024, .f32⟩
  | 69 => ⟨S1024, .f32⟩
  | 70 => ⟨S1x1024, .f32⟩
  | 71 => ⟨S16384x1024, .f32⟩
  | 72 => ⟨S16384x1024, .f32⟩
  | 73 => ⟨S1x1024, .f32⟩
  | 74 => ⟨S16384x1024, .f32⟩
  | 75 => ⟨S16384x1024, .f32⟩
  | 76 => ⟨S1x1024, .f32⟩
  | 77 => ⟨S16384x1024, .f32⟩
  | 78 => ⟨S16384x1024, .f32⟩
  | 79 => ⟨S16384x1024, .f32⟩
  | 80 => ⟨S_, .f32⟩
  | 81 => ⟨S_, .f32⟩
  | 82 => ⟨S_, .f32⟩
  | 83 => ⟨S16384x1024, .f32⟩
  | 84 => ⟨S16384x1024, .f32⟩
  | 85 => ⟨S_, .f32⟩
  | 86 => ⟨S16384x1024, .f32⟩
  | 87 => ⟨S16384x1024, .f32⟩
  | 88 => ⟨S10x1024, .f32⟩
  | 89 => ⟨S_, .f32⟩
  | 90 => ⟨S_, .f32⟩
  | 91 => ⟨S_, .f32⟩
  | 92 => ⟨S10x1024, .f32⟩
  | 93 => ⟨S10x1024, .f32⟩
  | 94 => ⟨S_, .f32⟩
  | 95 => ⟨S10x1024, .f32⟩
  | 96 => ⟨S10x1024, .f32⟩
  | 97 => ⟨S1024x10, .f32⟩
  | 98 => ⟨S16384x10, .f32⟩
  | 99 => ⟨S_, .f32⟩
  | 100 => ⟨S10, .f32⟩
  | 101 => ⟨S_, .f32⟩
  | 102 => ⟨S10, .f32⟩
  | 103 => ⟨S10, .f32⟩
  | 104 => ⟨S_, .i32⟩
  | 105 => ⟨S_, .f32⟩
  | 106 => ⟨S10, .f32⟩
  | 107 => ⟨S1x10, .f32⟩
  | 108 => ⟨S_, .f32⟩
  | 109 => ⟨S1x10, .f32⟩
  | 110 => ⟨S1x10, .f32⟩
  | 111 => ⟨S16384x10, .f32⟩
  | 112 => ⟨S16384x10, .f32⟩
  | 113 => ⟨S16384x10, .f32⟩
  | 114 => ⟨S_, .f32⟩
  | 115 => ⟨S_, .f32⟩
  | 116 => ⟨S_, .f32⟩
  | 117 => ⟨S_, .f32⟩
  | 118 => ⟨S10, .f32⟩
  | 119 => ⟨S10, .f32⟩
  | 120 => ⟨S10, .f32⟩
  | 121 => ⟨S_, .f32⟩
  | 122 => ⟨S_, .i1⟩
  | 123 => ⟨S_, .f32⟩
  | 124 => ⟨S_, .f32⟩
  | 125 => ⟨S10, .f32⟩
  | 126 => ⟨S10, .f32⟩
  | 127 => ⟨S1x10, .f32⟩
  | _ => ⟨S16384x784, .f32⟩

abbrev hbmTy0_1 (i : Nat) : BufTy := match i % 128 with
  | 0 => ⟨S16384x10, .f32⟩
  | 1 => ⟨S16384x10, .f32⟩
  | 2 => ⟨S_, .f32⟩
  | 3 => ⟨S10, .f32⟩
  | 4 => ⟨S10, .f32⟩
  | 5 => ⟨S10, .f32⟩
  | 6 => ⟨S1x10, .f32⟩
  | 7 => ⟨S16384x10, .f32⟩
  | 8 => ⟨S16384x10, .f32⟩
  | 9 => ⟨S1x10, .f32⟩
  | 10 => ⟨S16384x10, .f32⟩
  | 11 => ⟨S16384x10, .f32⟩
  | 12 => ⟨S1x10, .f32⟩
  | 13 => ⟨S16384x10, .f32⟩
  | 14 => ⟨S16384x10, .f32⟩
  | 15 => ⟨S16384x10, .f32⟩
  | 16 => ⟨S_, .f32⟩
  | 17 => ⟨S_, .f32⟩
  | 18 => ⟨S_, .f32⟩
  | 19 => ⟨S16384x10, .f32⟩
  | 20 => ⟨S16384x10, .f32⟩
  | 21 => ⟨S_, .f32⟩
  | 22 => ⟨S16384x10, .f32⟩
  | 23 => ⟨S16384x10, .f32⟩
  | 24 => ⟨S_, .f32⟩
  | 25 => ⟨S_, .f32⟩
  | 26 => ⟨S_, .f32⟩
  | 27 => ⟨S_, .f32⟩
  | 28 => ⟨S_, .i32⟩
  | 29 => ⟨S_, .f32⟩
  | 30 => ⟨S_, .f32⟩
  | 31 => ⟨S1x1, .f32⟩
  | 32 => ⟨S_, .f32⟩
  | 33 => ⟨S1x1, .f32⟩
  | 34 => ⟨S1x1, .f32⟩
  | 35 => ⟨S16384x10, .f32⟩
  | 36 => ⟨S16384x10, .f32⟩
  | 37 => ⟨S16384x10, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S16384x10, .f32⟩
  | 50 => ⟨S16384x10, .f32⟩
  | 51 => ⟨S_, .f32⟩
  | 52 => ⟨S_, .f32⟩
  | 53 => ⟨S_, .f32⟩
  | 54 => ⟨S16384x10, .f32⟩
  | 55 => ⟨S16384x10, .f32⟩
  | 56 => ⟨S1x1, .f32⟩
  | 57 => ⟨S16384x10, .f32⟩
  | 58 => ⟨S16384x10, .f32⟩
  | 59 => ⟨S1x1, .f32⟩
  | 60 => ⟨S16384x10, .f32⟩
  | 61 => ⟨S16384x10, .f32⟩
  | _ => ⟨S16384x784, .f32⟩

abbrev hbmTy (i : Nat) : BufTy := match i / 128 with
  | 0 => hbmTy0_0 i
  | 1 => hbmTy0_1 i
  | _ => ⟨S16384x784, .f32⟩

abbrev bufTy : (tb : Table) → Fin (tcTables nBuf tb) → BufTy
  | .hbm, ⟨i, _⟩ => hbmTy i
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_v6 : Ref sig .tc := ⟨.hbm, 24, rfl⟩
abbrev main_cst_3 : Ref sig .tc := ⟨.hbm, 25, rfl⟩
abbrev main_cst_4 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_5 : Ref sig .tc := ⟨.hbm, 35, rfl⟩
abbrev main_v10 : Ref sig .tc := ⟨.hbm, 36, rfl⟩
abbrev main_cst_6 : Ref sig .tc := ⟨.hbm, 37, rfl⟩
abbrev main_v11 : Ref sig .tc := ⟨.hbm, 38, rfl⟩
abbrev main_v12 : Ref sig .tc := ⟨.hbm, 39, rfl⟩
abbrev main_c : Ref sig .tc := ⟨.hbm, 40, rfl⟩
abbrev main_call4_cst : Ref sig .tc := ⟨.hbm, 41, rfl⟩
abbrev main_call4_v0 : Ref sig .tc := ⟨.hbm, 42, rfl⟩
abbrev main_call4_v1 : Ref sig .tc := ⟨.hbm, 43, rfl⟩
abbrev main_call4_cst_0 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_v7 : Ref sig .tc := ⟨.hbm, 50, rfl⟩
abbrev main_call4_cst_1 : Ref sig .tc := ⟨.hbm, 51, rfl⟩
abbrev main_call4_v8 : Ref sig .tc := ⟨.hbm, 52, rfl⟩
abbrev main_call4_cst_2 : Ref sig .tc := ⟨.hbm, 53, rfl⟩
abbrev main_call4_v9 : Ref sig .tc := ⟨.hbm, 54, rfl⟩
abbrev main_call4_v10 : Ref sig .tc := ⟨.hbm, 55, rfl⟩
abbrev main_call4_v11 : Ref sig .tc := ⟨.hbm, 56, rfl⟩
abbrev main_call4_cst_3 : Ref sig .tc := ⟨.hbm, 57, rfl⟩
abbrev main_call4_v12 : Ref sig .tc := ⟨.hbm, 58, rfl⟩
abbrev main_call4_cst_4 : Ref sig .tc := ⟨.hbm, 59, rfl⟩
abbrev main_call4_call0_v0 : Ref sig .tc := ⟨.hbm, 60, rfl⟩
abbrev main_call4_call0_v1 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_cst_7 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_cst_8 : Ref sig .tc := ⟨.hbm, 80, rfl⟩
abbrev main_cst_9 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_v30 : Ref sig .tc := ⟨.hbm, 87, rfl⟩
abbrev main_v31 : Ref sig .tc := ⟨.hbm, 88, rfl⟩
abbrev main_cst_10 : Ref sig .tc := ⟨.hbm, 89, rfl⟩
abbrev main_cst_11 : Ref sig .tc := ⟨.hbm, 90, rfl⟩
abbrev main_call8_v0 : Ref sig .tc := ⟨.hbm, 91, rfl⟩
abbrev main_call8_v1 : Ref sig .tc := ⟨.hbm, 92, rfl⟩
abbrev main_call8_v2 : Ref sig .tc := ⟨.hbm, 93, rfl⟩
abbrev main_call8_v3 : Ref sig .tc := ⟨.hbm, 94, rfl⟩
abbrev main_call8_v4 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_cst_12 : Ref sig .tc := ⟨.hbm, 99, rfl⟩
abbrev main_v35 : Ref sig .tc := ⟨.hbm, 100, rfl⟩
abbrev main_cst_13 : Ref sig .tc := ⟨.hbm, 101, rfl⟩
abbrev main_v36 : Ref sig .tc := ⟨.hbm, 102, rfl⟩
abbrev main_v37 : Ref sig .tc := ⟨.hbm, 103, rfl⟩
abbrev main_c_14 : Ref sig .tc := ⟨.hbm, 104, rfl⟩
abbrev main_call9_cst : Ref sig .tc := ⟨.hbm, 105, rfl⟩
abbrev main_call9_v0 : Ref sig .tc := ⟨.hbm, 106, rfl⟩
abbrev main_call9_v1 : Ref sig .tc := ⟨.hbm, 107, rfl⟩
abbrev main_call9_cst_0 : Ref sig .tc := ⟨.hbm, 108, rfl⟩
abbrev main_call9_v2 : Ref sig .tc := ⟨.hbm, 109, rfl⟩
abbrev main_call9_v3 : Ref sig .tc := ⟨.hbm, 110, rfl⟩
abbrev main_call9_v4 : Ref sig .tc := ⟨.hbm, 111, rfl⟩
abbrev main_call9_v5 : Ref sig .tc := ⟨.hbm, 112, rfl⟩
abbrev main_call9_v6 : Ref sig .tc := ⟨.hbm, 113, rfl⟩
abbrev main_call9_v7 : Ref sig .tc := ⟨.hbm, 114, rfl⟩
abbrev main_call9_cst_1 : Ref sig .tc := ⟨.hbm, 115, rfl⟩
abbrev main_call9_v8 : Ref sig .tc := ⟨.hbm, 116, rfl⟩
abbrev main_call9_cst_2 : Ref sig .tc := ⟨.hbm, 117, rfl⟩
abbrev main_call9_v9 : Ref sig .tc := ⟨.hbm, 118, rfl⟩
abbrev main_call9_v10 : Ref sig .tc := ⟨.hbm, 119, rfl⟩
abbrev main_call9_v11 : Ref sig .tc := ⟨.hbm, 120, rfl⟩
abbrev main_call9_cst_3 : Ref sig .tc := ⟨.hbm, 121, rfl⟩
abbrev main_call9_v12 : Ref sig .tc := ⟨.hbm, 122, rfl⟩
abbrev main_call9_cst_4 : Ref sig .tc := ⟨.hbm, 123, rfl⟩
abbrev main_call9_call0_v0 : Ref sig .tc := ⟨.hbm, 124, rfl⟩
abbrev main_call9_call0_v1 : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_cst_15 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_cst_16 : Ref sig .tc := ⟨.hbm, 144, rfl⟩
abbrev main_cst_17 : Ref sig .tc := ⟨.hbm, 145, rfl⟩
abbrev main_call11_v0 : Ref sig .tc := ⟨.hbm, 146, rfl⟩
abbrev main_call11_v1 : Ref sig .tc := ⟨.hbm, 147, rfl⟩
abbrev main_call11_v2 : Ref sig .tc := ⟨.hbm, 148, rfl⟩
abbrev main_call11_v3 : Ref sig .tc := ⟨.hbm, 149, rfl⟩
abbrev main_call11_v4 : Ref sig .tc := ⟨.hbm, 150, rfl⟩
abbrev main_v55 : Ref sig .tc := ⟨.hbm, 151, rfl⟩
abbrev main_cst_18 : Ref sig .tc := ⟨.hbm, 152, rfl⟩
abbrev main_v56 : Ref sig .tc := ⟨.hbm, 153, rfl⟩
abbrev main_cst_19 : Ref sig .tc := ⟨.hbm, 154, rfl⟩
abbrev main_v57 : Ref sig .tc := ⟨.hbm, 155, rfl⟩
abbrev main_c_20 : Ref sig .tc := ⟨.hbm, 156, rfl⟩
abbrev main_call12_cst : Ref sig .tc := ⟨.hbm, 157, rfl⟩
abbrev main_call12_v0 : Ref sig .tc := ⟨.hbm, 158, rfl⟩
abbrev main_call12_v1 : Ref sig .tc := ⟨.hbm, 159, rfl⟩
abbrev main_call12_cst_0 : Ref sig .tc := ⟨.hbm, 160, rfl⟩
abbrev main_call12_v2 : Ref sig .tc := ⟨.hbm, 161, rfl⟩
abbrev main_call12_v3 : Ref sig .tc := ⟨.hbm, 162, rfl⟩
abbrev main_call12_v4 : Ref sig .tc := ⟨.hbm, 163, rfl⟩
abbrev main_call12_v5 : Ref sig .tc := ⟨.hbm, 164, rfl⟩
abbrev main_call12_v6 : Ref sig .tc := ⟨.hbm, 165, rfl⟩
abbrev main_call12_v7 : Ref sig .tc := ⟨.hbm, 166, rfl⟩
abbrev main_call12_cst_1 : Ref sig .tc := ⟨.hbm, 167, rfl⟩
abbrev main_call12_v8 : Ref sig .tc := ⟨.hbm, 168, rfl⟩
abbrev main_call12_cst_2 : Ref sig .tc := ⟨.hbm, 169, rfl⟩
abbrev main_call12_v9 : Ref sig .tc := ⟨.hbm, 170, rfl⟩
abbrev main_call12_v10 : Ref sig .tc := ⟨.hbm, 171, rfl⟩
abbrev main_call12_cst_3 : Ref sig .tc := ⟨.hbm, 172, rfl⟩
abbrev main_call12_v11 : Ref sig .tc := ⟨.hbm, 173, rfl⟩
abbrev main_call12_cst_4 : Ref sig .tc := ⟨.hbm, 174, rfl⟩
abbrev main_call12_call0_v0 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_cst_21 : Ref sig .tc := ⟨.hbm, 179, rfl⟩
abbrev main_v61 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev main_v67 : Ref sig .tc := ⟨.hbm, 186, rfl⟩
abbrev main_v68 : Ref sig .tc := ⟨.hbm, 187, rfl⟩
abbrev main_v69 : Ref sig .tc := ⟨.hbm, 188, rfl⟩
abbrev main_v70 : Ref sig .tc := ⟨.hbm, 189, rfl⟩

abbrev nD : Nat := 1
abbrev τ : Topo := Topo.v7x

variable {F : FTy → Type} [FloatOps F]

class Facts₀ : Prop where
  bcast_S_S16384x784 : S_.BroadcastsInDim S16384x784 (![] : Fin 0 → Fin S16384x784.rank)
  bcast_S_S1024x784 : S_.BroadcastsInDim S1024x784 (![] : Fin 0 → Fin S1024x784.rank)
  transposes_S1024x784_S784x1024_1_0 : S1024x784.Transposes [1, 0] S784x1024
  reducesTo_S16384x1024_S1024_d0 : S16384x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S10x1024 : S_.BroadcastsInDim S10x1024 (![] : Fin 0 → Fin S10x1024.rank)
  transposes_S10x1024_S1024x10_1_0 : S10x1024.Transposes [1, 0] S1024x10
  reducesTo_S16384x10_S10_d0 : S16384x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S_S1x10 : S_.BroadcastsInDim S1x10 (![] : Fin 0 → Fin S1x10.rank)
  bcast_S1x10_S16384x10_0_1 : S1x10.BroadcastsInDim S16384x10 (![0, 1] : Fin 2 → Fin S16384x10.rank)
  bcast_S_S16384x10 : S_.BroadcastsInDim S16384x10 (![] : Fin 0 → Fin S16384x10.rank)
  reducesTo_S16384x10_S_d0_1 : S16384x10.ReducesTo [0, 1] S_
  bcast_S_S1x1 : S_.BroadcastsInDim S1x1 (![] : Fin 0 → Fin S1x1.rank)
  bcast_S1x1_S16384x10_0_1 : S1x1.BroadcastsInDim S16384x10 (![0, 1] : Fin 2 → Fin S16384x10.rank)
  bcast_S1_S1x1_1 : S1.BroadcastsInDim S1x1 (![1] : Fin 1 → Fin S1x1.rank)
  dot_S16384x784_S784x1024_S16384x1024_1_0_0_1_n_n_wf : DotDims.WF S16384x784 S784x1024 S16384x1024 [1] [0] [0] [1] [] []
  dot_S16384x1024_S1024x10_S16384x10_1_0_0_1_n_n_wf : DotDims.WF S16384x1024 S1024x10 S16384x10 [1] [0] [0] [1] [] []

variable [Facts₀]

def dot_S16384x784_S784x1024_S16384x1024_1_0_0_1_n_n : DotDims S16384x784 S784x1024 S16384x1024 where
  lhsContracting := [1]
  rhsContracting := [0]
  lhsNonContracting := [0]
  rhsNonContracting := [1]
  lhsBatch := []
  rhsBatch := []
  wf := dot_S16384x784_S784x1024_S16384x1024_1_0_0_1_n_n_wf
def dot_S16384x1024_S1024x10_S16384x10_1_0_0_1_n_n : DotDims S16384x1024 S1024x10 S16384x10 where
  lhsContracting := [1]
  rhsContracting := [0]
  lhsNonContracting := [0]
  rhsNonContracting := [1]
  lhsBatch := []
  rhsBatch := []
  wf := dot_S16384x1024_S1024x10_S16384x10_1_0_0_1_n_n_wf

class Facts : Prop extends Facts₀ where

variable [Facts]
-- ==== Proof.KerRun.lean ====
/-
  The idealized kernel program's run with its result named.

  The program is three kernel launches among stretches of host operations. Every weakly fair execution from a memory
  with zero counters terminates without a fault; the buffers then hold the last boundary's contents: the launch memory
  folded through the first host stretch, the first launch's write-backs, the second stretch, the second launch's
  write-backs, the third stretch and the third launch's write-backs. Read at the result buffer this names the result
  array; read at an argument's buffer the fold walks back to the launch memory, since nothing writes an argument.
-/
import proofs.«150640_j7971459301379_1_alg».proof.Proof.Gen.KernelIdeal.Frame

set_option maxRecDepth 16384

noncomputable section

namespace Cert.KerSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_val : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KerSide

end
-- ==== Proof.Spec.lean ====
/-
  The mathematics of the two programs, stated once on the extended reals and free of either program's text.

  The network is: a ternary quantiser `tern x = min 1 (max (-1) (round-half-even x))`; a product of quantised
  activations with quantised weights; a batch normalisation over the 16384 rows of the batch followed by the
  quantiser, twice; and a normalisation over the whole 16384 x 10 tensor with a scalar affine map.

  Each stage is written in the two arrangements the programs use. The kernel keeps, per feature, the sum and the
  sum of squares of the batch (taken in 16 blocks of 1024 rows), and normalises by `h * scale + shift` with
  `scale = gamma * rsqrt (E[h^2] - E[h]^2 + eps)` and `shift = beta - E[h] * scale`. The reference centres first:
  `(h - E[h]) * rsqrt (E[(h - E[h])^2] + eps) * gamma + beta`. For the whole-tensor stage the kernel takes the
  unbiased variance as `(sum t^2 - n * mean * mean) / (n - 1)` and multiplies by `rsqrt`, the reference as
  `sum (t - mean)^2 / (n - 1)` and divides by `sqrt`.
-/
import Idealize.ShloMosaic.PureOps.Ideal
import Idealize.ShloMosaic.PureOps.Ideal.Laws

noncomputable section

namespace Cert.Spec

open Idealize.ShloMosaic

/-! ## The float literals the two programs spell, as the extended reals their words denote -/

/-- the word of `0.0` -/
def c0 : EReal := Ideal.ofBits .f32 0x00000000#32
/-- the word of `1.0` -/
def c1 : EReal := Ideal.ofBits .f32 0x3F800000#32
/-- the word of `-1.0` -/
def cm1 : EReal := Ideal.ofBits .f32 0xBF800000#32
/-- the word of `2.0` -/
def c2 : EReal := Ideal.ofBits .f32 0x40000000#32
/-- the word of `16384.0`, the batch size -/
def cB : EReal := Ideal.ofBits .f32 0x46800000#32
/-- the word of `163840.0`, the number of entries of the 16384 x 10 tensor -/
def cT : EReal := Ideal.ofBits .f32 0x48200000#32
/-- the word of `163839.0`, one less -/
def cT1 : EReal := Ideal.ofBits .f32 0x481FFFC0#32
/-- the word the programs spell for the batch normalisation's `1e-5` -/
def eps1 : EReal := Ideal.ofBits .f32 0x3727C5AC#32
/-- the word the programs spell for the tensor normalisation's `1e-4` -/
def eps2 : EReal := Ideal.ofBits .f32 0x38D1B717#32
/-- the 32-bit integer `0` converted to a float (the reference's `ddof = 0`) -/
def i0 : EReal := (((0#32 : BitVec 32).toInt : ℝ) : EReal)
/-- the 32-bit integer `1` converted to a float (the reference's `ddof = 1`) -/
def i1 : EReal := (((1#32 : BitVec 32).toInt : ℝ) : EReal)

/-! ## The quantiser -/

/-- round to nearest, ties to even; the infinities are fixed -/
def rnd (x : EReal) : EReal := Ideal.liftRound Ideal.roundHalfEven x

/-- the ternary quantiser: round, then clamp to `[-1, 1]` -/
def tern (x : EReal) : EReal := min c1 (max cm1 (rnd x))

/-! ## The stages -/

section Stages

variable {nB nK nN : Nat}

/-- the product `a · wᵀ`: entry `(b, j)` is the sum over `k` of `a b k * w j k` -/
def mm (a : Fin nB → Fin nK → EReal) (w : Fin nN → Fin nK → EReal) (b : Fin nB) (j : Fin nN) : EReal :=
  ∑ k : Fin nK, a b k * w j k

/-- an affine map per feature followed by the quantiser -/
def qaff (h : Fin nB → Fin nN → EReal) (sc sh : Fin nN → EReal) (b : Fin nB) (j : Fin nN) : EReal :=
  tern (h b j * sc j + sh j)

end Stages

/-- row `r` of block `t` of the batch: row `1024 t + r` -/
def blk (t : Fin 16) (r : Fin 1024) : Fin 16384 := ⟨1024 * t.val + r.val, by omega⟩

/-- the kernel's sum over the batch: 16 blocks of 1024 rows -/
def sumK (f : Fin 16384 → EReal) : EReal := ∑ t : Fin 16, ∑ r : Fin 1024, f (blk t r)

section BatchNorm

variable {nN : Nat} (h : Fin 16384 → Fin nN → EReal) (g be : Fin nN → EReal)

/-! ### the kernel's arrangement -/
/-- per feature, the sum over the batch -/
def kS (j : Fin nN) : EReal := sumK fun b => h b j
/-- per feature, the sum of squares over the batch -/
def kQ (j : Fin nN) : EReal := sumK fun b => h b j * h b j
def kmean (j : Fin nN) : EReal := Ideal.div (kS h j) cB
def kvar (j : Fin nN) : EReal := Ideal.div (kQ h j) cB - kmean h j * kmean h j
def kscale (j : Fin nN) : EReal := g j * Ideal.rsqrt (kvar h j + eps1)
def kshift (j : Fin nN) : EReal := be j - kmean h j * kscale h g j
/-- batch normalisation then the quantiser, as the kernel arranges it -/
def kbn : Fin 16384 → Fin nN → EReal := qaff h (kscale h g) (kshift h g be)

/-! ### the reference's arrangement -/
def rmean (j : Fin nN) : EReal := Ideal.div (c0 + ∑ b : Fin 16384, h b j) cB
def rvar (j : Fin nN) : EReal :=
  Ideal.div (c0 + ∑ b : Fin 16384, (h b j - rmean h j) * (h b j - rmean h j)) (cB - i0)
/-- batch normalisation then the quantiser, as the reference arranges it -/
def rbn (b : Fin 16384) (j : Fin nN) : EReal :=
  tern ((h b j - rmean h j) * Ideal.rsqrt (rvar h j + eps1) * g j + be j)

end BatchNorm

section TensorNorm

variable (t : Fin 16384 → Fin 10 → EReal) (tw tb : EReal)

/-! ### the kernel's arrangement -/
def kcol (i : Fin 10) : EReal := ∑ b : Fin 16384, t b i
def kcolsq (i : Fin 10) : EReal := ∑ b : Fin 16384, t b i * t b i
def ktot : EReal := ∑ i : Fin 10, kcol t i
def ktotsq : EReal := ∑ i : Fin 10, kcolsq t i
def ktmean : EReal := Ideal.div (ktot t) cT
def ktvar : EReal := Ideal.div (ktotsq t - cT * ktmean t * ktmean t) cT1
def ktscale : EReal := tw * Ideal.rsqrt (ktvar t + eps2)
def ktshift : EReal := tb - ktmean t * ktscale t tw
/-- the whole-tensor normalisation, as the kernel arranges it -/
def ktn (b : Fin 16384) (i : Fin 10) : EReal := t b i * ktscale t tw + ktshift t tw tb

/-! ### the reference's arrangement -/
def rtmean : EReal := Ideal.div (c0 + ∑ b : Fin 16384, ∑ i : Fin 10, t b i) cT
def rtvar : EReal :=
  Ideal.div (c0 + ∑ b : Fin 16384, ∑ i : Fin 10, (t b i - rtmean t) * (t b i - rtmean t)) (cT - i1)
/-- the whole-tensor normalisation, as the reference arranges it -/
def rtn (b : Fin 16384) (i : Fin 10) : EReal :=
  Ideal.div (t b i - rtmean t) (Ideal.sqrt (rtvar t + eps2)) * tw + tb

end TensorNorm

/-! ## The two networks -/

section Net

variable (x : Fin 16384 → Fin 784 → EReal) (w1 : Fin 1024 → Fin 784 → EReal) (g1 b1 : Fin 1024 → EReal)
  (w2 : Fin 10 → Fin 1024 → EReal) (g2 b2 : Fin 10 → EReal) (tw tb : EReal)

/-- the quantised, rescaled input: `tern (2 x - 1)` -/
def xq (b : Fin 16384) (k : Fin 784) : EReal := tern (c2 * x b k - c1)
/-- the first layer's product -/
def h1 : Fin 16384 → Fin 1024 → EReal := mm (xq x) (fun j k => tern (w1 j k))

/-- the network as the kernel arranges it -/
def kerOut : Fin 16384 → Fin 10 → EReal :=
  ktn (kbn (mm (kbn (h1 x w1) g1 b1) (fun i j => tern (w2 i j))) g2 b2) tw tb

/-- the network as the reference arranges it -/
def refOut : Fin 16384 → Fin 10 → EReal :=
  rtn (rbn (mm (rbn (h1 x w1) g1 b1) (fun i j => tern (w2 i j))) g2 b2) tw tb

end Net

end Cert.Spec

end
-- ==== Proof.HostArith.lean ====
/-
  The host arithmetic between two kernel launches, as pure functions of arrays, and each read at an index.

  From the batch's per-feature sum `S` and sum of squares `Q` (rows of shape [1, n]) and the affine parameters
  `gamma`, `beta` (vectors of length n) the program forms, with N the word of the batch size and eps the word of the
  variance offset,
      scale = gamma * rsqrt (Q / N - (S / N) * (S / N) + eps)        shift = beta - (S / N) * scale,
  the vectors being cast to rows first. Read at column `j` these are the scalar expressions over the entries at `j`.
-/
import proofs.«150640_j7971459301379_1_alg».proof.Proof.Spec
import Idealize.ShloMosaic.Lib.ValueLayout
import Idealize.ShloMosaic.Lib.ValueIdx
import Idealize.ShloMosaic.Lib.Pipeline.Value

noncomputable section

namespace Cert.KerSide

open Idealize.ShloMosaic Idealize.ShloMosaic.ValueIdx

/-- the rank-0 shape of a scalar tensor -/
abbrev Sc : Shape := ⟨0, ![]⟩

/-- A scalar broadcast to any shape reads the scalar everywhere. -/
theorem bcast_scalar_apply {t : Shape} (h : Sc.BroadcastsInDim t ![]) (x : Sc.Idx → EReal) (j : t.Idx) :
    broadcastInDim t ![] h x j = x ix0 :=
  broadcastInDim_apply _ h x j ix0 fun a => a.elim0

section BN

variable {n : Nat} (hs : (⟨1, ![n]⟩ : Shape).ShapeCasts ⟨2, ![1, n]⟩)
  (hb : Sc.BroadcastsInDim (⟨2, ![1, n]⟩ : Shape) ![])

/-- the mean row: S / N -/
def bnMean (S : FVec Ideal ⟨2, ![1, n]⟩ .f32) : FVec Ideal ⟨2, ![1, n]⟩ .f32 :=
  Host.divf S (broadcastInDim ⟨2, ![1, n]⟩ ![] hb (constant (F := Ideal) Sc .f32 0x46800000#32))

/-- scale = gamma * rsqrt (Q / N - mean * mean + eps) -/
def bnScale (S Q : FVec Ideal ⟨2, ![1, n]⟩ .f32) (g : FVec Ideal ⟨1, ![n]⟩ .f32) : FVec Ideal ⟨2, ![1, n]⟩ .f32 :=
  mulf (shapeCast ⟨2, ![1, n]⟩ g hs)
    (Host.rsqrt (addf
      (subf (Host.divf Q (broadcastInDim ⟨2, ![1, n]⟩ ![] hb (constant (F := Ideal) Sc .f32 0x46800000#32)))
        (mulf (bnMean hb S) (bnMean hb S)))
      (broadcastInDim ⟨2, ![1, n]⟩ ![] hb (constant (F := Ideal) Sc .f32 0x3727C5AC#32))))

/-- shift = beta - mean * scale -/
def bnShift (S Q : FVec Ideal ⟨2, ![1, n]⟩ .f32) (g be : FVec Ideal ⟨1, ![n]⟩ .f32) : FVec Ideal ⟨2, ![1, n]⟩ .f32 :=
  subf (shapeCast ⟨2, ![1, n]⟩ be hs) (mulf (bnMean hb S) (bnScale hs hb S Q g))

theorem bnMean_apply (S : FVec Ideal ⟨2, ![1, n]⟩ .f32) (j : Fin n) :
    bnMean hb S (ix2 (0 : Fin 1) j) = Ideal.div (S (ix2 (0 : Fin 1) j)) Spec.cB := by
  unfold bnMean
  show Ideal.div _ _ = _
  rw [bcast_scalar_apply]
  rfl

theorem bnScale_apply (S Q : FVec Ideal ⟨2, ![1, n]⟩ .f32) (g : FVec Ideal ⟨1, ![n]⟩ .f32) (j : Fin n) :
    bnScale hs hb S Q g (ix2 (0 : Fin 1) j)
      = g (ix1 j) * Ideal.rsqrt (Ideal.div (Q (ix2 (0 : Fin 1) j)) Spec.cB
          - Ideal.div (S (ix2 (0 : Fin 1) j)) Spec.cB * Ideal.div (S (ix2 (0 : Fin 1) j)) Spec.cB + Spec.eps1) := by
  unfold bnScale
  rw [mulf_apply, shapeCast_a_1a_apply]
  show _ * Ideal.rsqrt _ = _
  rw [addf_apply, subf_apply, mulf_apply, bnMean_apply, bcast_scalar_apply]
  show _ * Ideal.rsqrt (Ideal.div _ _ - _ + _) = _
  rw [bcast_scalar_apply]
  rfl

theorem bnShift_apply (S Q : FVec Ideal ⟨2, ![1, n]⟩ .f32) (g be : FVec Ideal ⟨1, ![n]⟩ .f32) (j : Fin n) :
    bnShift hs hb S Q g be (ix2 (0 : Fin 1) j)
      = be (ix1 j) - Ideal.div (S (ix2 (0 : Fin 1) j)) Spec.cB * bnScale hs hb S Q g (ix2 (0 : Fin 1) j) := by
  unfold bnShift
  rw [subf_apply, shapeCast_a_1a_apply, mulf_apply, bnMean_apply]

end BN

/-- A one-entry vector cast to a 1 x 1 array reads its entry. -/
theorem cast_1_1x1_apply (x : FVec Ideal ⟨1, ![1]⟩ .f32) (h : (⟨1, ![1]⟩ : Shape).ShapeCasts ⟨2, ![1, 1]⟩) :
    shapeCast ⟨2, ![1, 1]⟩ x h (ix2 (0 : Fin 1) (0 : Fin 1)) = x (ix1 (0 : Fin 1)) :=
  shapeCast_a_1a_apply x h 0 0

end Cert.KerSide

end
-- ==== Proof.HostStretch.lean ====
/-
  What the buffers hold at the entry of each kernel launch, read off the fold of the host operations.

  Before the first launch the program transposes the two weight matrices. Between launches it turns the batch's sum and
  sum of squares into the scale and shift of the next stage (the arithmetic of the host-arithmetic module), and casts the
  vector parameters to rows; every other buffer passes through a stretch unchanged. A launch's output arrays end at what
  its write-backs leave, and any buffer that is not one of its arrays is as it was entered.
-/
import proofs.«150640_j7971459301379_1_alg».proof.Proof.Gen.KernelIdeal.Frame
import proofs.«150640_j7971459301379_1_alg».proof.Proof.HostArith
import Idealize.ShloMosaic.Lib.StableHlo.Run

set_option maxRecDepth 16384

noncomputable section

namespace Cert.KerSide

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The first launch's entry -/

theorem V1_arg0 : V1 m ρ c main_arg0 = m ((c : Thread nD τ).loc main_arg0) := by
  show StableHlo.after hostOps0 (W0 m ρ c) (Proc.devRef .tc main_arg0) = _
  after_results

theorem V1_v0_fun : (V1 m ρ c main_v0 : FVec Ideal S784x1024 .f32)
    = transpose S784x1024 [1, 0] (m ((c : Thread nD τ).loc main_arg1) : FVec Ideal S1024x784 .f32) Gen.transposes_S1024x784_S784x1024_1_0 := by
  show StableHlo.after hostOps0 (W0 m ρ c) (Proc.devRef .tc main_v0) = _
  after_results

theorem V1_v1_fun : (V1 m ρ c main_v1 : FVec Ideal S1024x10 .f32)
    = transpose S1024x10 [1, 0] (m ((c : Thread nD τ).loc main_arg4) : FVec Ideal S10x1024 .f32) Gen.transposes_S10x1024_S1024x10_1_0 := by
  show StableHlo.after hostOps0 (W0 m ρ c) (Proc.devRef .tc main_v1) = _
  after_results

theorem V1_arg (b : Ref sig .tc) (hb : b ≠ main_v0 ∧ b ≠ main_v1) :
    V1 m ρ c b = m ((c : Thread nD τ).loc b) := by
  show StableHlo.after hostOps0 (W0 m ρ c) (Proc.devRef .tc b) = _
  refine StableHlo.after_of_forall_not_mem (b := Proc.devRef .tc b) _ _ (List.forall_iff_forall_mem.mp ?_)
  simp only [hostOps0, List.Forall, StableHlo.unary_writes, Finset.mem_singleton]
  exact ⟨StableHlo.devRef_ne_of_ne hb.1, StableHlo.devRef_ne_of_ne hb.2⟩

/-! ## The second launch's entry -/

/-- An argument is not an array of the first launch's outputs and no host operation writes it. -/
theorem W2_arg (b : Ref sig .tc) (hb : ∀ w, Pipeline.arrRef spec0 w ≠ b) (hb' : b ≠ main_v0 ∧ b ≠ main_v1) :
    W2 m ρ c (Proc.devRef .tc b) = m ((c : Thread nD τ).loc b) :=
  (W2_of_ne m ρ c b hb).trans (V1_arg m ρ c b hb')

theorem V3_v2_0 : V3 m ρ c main_v2_0 = (dat0 (V1 m ρ) c).arrAt 2 cfg0.N := by
  show StableHlo.after hostOps1 (W2 m ρ c) (Proc.devRef .tc main_v2_0) = _
  after_results
  exact W2_arr m ρ c 2

theorem V3_v1 : V3 m ρ c main_v1 = V1 m ρ c main_v1 := by
  show StableHlo.after hostOps1 (W2 m ρ c) (Proc.devRef .tc main_v1) = _
  after_results
  exact W2_of_ne m ρ c main_v1 (by decide)

theorem V3_v13_fun : (V3 m ρ c main_v13 : FVec Ideal S1x1024 .f32)
    = bnScale Gen.shapeCasts_S1024_S1x1024 Gen.bcast_S_S1x1024 (W2 m ρ c (Proc.devRef .tc main_v2_1))
        (W2 m ρ c (Proc.devRef .tc main_v2_2)) (W2 m ρ c (Proc.devRef .tc main_arg2)) := by
  show StableHlo.after hostOps1 (W2 m ρ c) (Proc.devRef .tc main_v13) = _
  after_results
  rfl

theorem V3_v16_fun : (V3 m ρ c main_v16 : FVec Ideal S1x1024 .f32)
    = bnShift Gen.shapeCasts_S1024_S1x1024 Gen.bcast_S_S1x1024 (W2 m ρ c (Proc.devRef .tc main_v2_1))
        (W2 m ρ c (Proc.devRef .tc main_v2_2)) (W2 m ρ c (Proc.devRef .tc main_arg2)) (W2 m ρ c (Proc.devRef .tc main_arg3)) := by
  show StableHlo.after hostOps1 (W2 m ρ c) (Proc.devRef .tc main_v16) = _
  after_results
  rfl

/-- The second stretch read at a column: scale and shift of the first batch normalisation, over the sum and the sum of
    squares the first launch leaves and the launch memory's gamma and beta. -/
theorem V3_v13 (j : Fin 1024) :
    (V3 m ρ c main_v13 : FVec Ideal S1x1024 .f32) (ix2 (0 : Fin 1) j)
      = bnScale Gen.shapeCasts_S1024_S1x1024 Gen.bcast_S_S1x1024 ((dat0 (V1 m ρ) c).arrAt 3 cfg0.N)
          ((dat0 (V1 m ρ) c).arrAt 4 cfg0.N) (m ((c : Thread nD τ).loc main_arg2)) (ix2 (0 : Fin 1) j) := by
  rw [V3_v13_fun, W2_arr m ρ c 3, W2_arr m ρ c 4, W2_arg m ρ c main_arg2 (by decide) (by decide)]

theorem V3_v16 (j : Fin 1024) :
    (V3 m ρ c main_v16 : FVec Ideal S1x1024 .f32) (ix2 (0 : Fin 1) j)
      = bnShift Gen.shapeCasts_S1024_S1x1024 Gen.bcast_S_S1x1024 ((dat0 (V1 m ρ) c).arrAt 3 cfg0.N)
          ((dat0 (V1 m ρ) c).arrAt 4 cfg0.N) (m ((c : Thread nD τ).loc main_arg2)) (m ((c : Thread nD τ).loc main_arg3))
          (ix2 (0 : Fin 1) j) := by
  rw [V3_v16_fun, W2_arr m ρ c 3, W2_arr m ρ c 4, W2_arg m ρ c main_arg2 (by decide) (by decide),
    W2_arg m ρ c main_arg3 (by decide) (by decide)]

/-! ## The third launch's entry -/

/-- An argument passes through the second stretch and the second launch. -/
theorem W4_arg5 : W4 m ρ c (Proc.devRef .tc main_arg5) = m ((c : Thread nD τ).loc main_arg5) := by
  refine (W4_of_ne m ρ c main_arg5 (by decide)).trans ?_
  show StableHlo.after hostOps1 (W2 m ρ c) (Proc.devRef .tc main_arg5) = _
  after_results
  exact W2_arg m ρ c main_arg5 (by decide) (by decide)
theorem W4_arg6 : W4 m ρ c (Proc.devRef .tc main_arg6) = m ((c : Thread nD τ).loc main_arg6) := by
  refine (W4_of_ne m ρ c main_arg6 (by decide)).trans ?_
  show StableHlo.after hostOps1 (W2 m ρ c) (Proc.devRef .tc main_arg6) = _
  after_results
  exact W2_arg m ρ c main_arg6 (by decide) (by decide)
theorem W4_arg7 : W4 m ρ c (Proc.devRef .tc main_arg7) = m ((c : Thread nD τ).loc main_arg7) := by
  refine (W4_of_ne m ρ c main_arg7 (by decide)).trans ?_
  show StableHlo.after hostOps1 (W2 m ρ c) (Proc.devRef .tc main_arg7) = _
  after_results
  exact W2_arg m ρ c main_arg7 (by decide) (by decide)
theorem W4_arg8 : W4 m ρ c (Proc.devRef .tc main_arg8) = m ((c : Thread nD τ).loc main_arg8) := by
  refine (W4_of_ne m ρ c main_arg8 (by decide)).trans ?_
  show StableHlo.after hostOps1 (W2 m ρ c) (Proc.devRef .tc main_arg8) = _
  after_results
  exact W2_arg m ρ c main_arg8 (by decide) (by decide)

theorem V5_v17_0 : V5 m ρ c main_v17_0 = (dat1 (V3 m ρ) c).arrAt 4 cfg1.N := by
  show StableHlo.after hostOps2 (W4 m ρ c) (Proc.devRef .tc main_v17_0) = _
  after_results
  exact W4_arr m ρ c 4

theorem V5_v28_fun : (V5 m ρ c main_v28 : FVec Ideal S1x10 .f32)
    = bnScale Gen.shapeCasts_S10_S1x10 Gen.bcast_S_S1x10 (W4 m ρ c (Proc.devRef .tc main_v17_1))
        (W4 m ρ c (Proc.devRef .tc main_v17_2)) (W4 m ρ c (Proc.devRef .tc main_arg5)) := by
  show StableHlo.after hostOps2 (W4 m ρ c) (Proc.devRef .tc main_v28) = _
  after_results
  rfl

theorem V5_v31_fun : (V5 m ρ c main_v31 : FVec Ideal S1x10 .f32)
    = bnShift Gen.shapeCasts_S10_S1x10 Gen.bcast_S_S1x10 (W4 m ρ c (Proc.devRef .tc main_v17_1))
        (W4 m ρ c (Proc.devRef .tc main_v17_2)) (W4 m ρ c (Proc.devRef .tc main_arg5)) (W4 m ρ c (Proc.devRef .tc main_arg6)) := by
  show StableHlo.after hostOps2 (W4 m ρ c) (Proc.devRef .tc main_v31) = _
  after_results
  rfl

theorem V5_v28 (i : Fin 10) :
    (V5 m ρ c main_v28 : FVec Ideal S1x10 .f32) (ix2 (0 : Fin 1) i)
      = bnScale Gen.shapeCasts_S10_S1x10 Gen.bcast_S_S1x10 ((dat1 (V3 m ρ) c).arrAt 5 cfg1.N)
          ((dat1 (V3 m ρ) c).arrAt 6 cfg1.N) (m ((c : Thread nD τ).loc main_arg5)) (ix2 (0 : Fin 1) i) := by
  rw [V5_v28_fun, W4_arr m ρ c 5, W4_arr m ρ c 6, W4_arg5]

theorem V5_v31 (i : Fin 10) :
    (V5 m ρ c main_v31 : FVec Ideal S1x10 .f32) (ix2 (0 : Fin 1) i)
      = bnShift Gen.shapeCasts_S10_S1x10 Gen.bcast_S_S1x10 ((dat1 (V3 m ρ) c).arrAt 5 cfg1.N)
          ((dat1 (V3 m ρ) c).arrAt 6 cfg1.N) (m ((c : Thread nD τ).loc main_arg5)) (m ((c : Thread nD τ).loc main_arg6))
          (ix2 (0 : Fin 1) i) := by
  rw [V5_v31_fun, W4_arr m ρ c 5, W4_arr m ρ c 6, W4_arg5, W4_arg6]

/-- The two scalar parameters of the whole-tensor stage, cast to 1 x 1 arrays. -/
theorem V5_v32 : (V5 m ρ c main_v32 : FVec Ideal S1x1 .f32) (ix2 (0 : Fin 1) (0 : Fin 1))
    = (m ((c : Thread nD τ).loc main_arg7) : FVec Ideal S1 .f32) (ix1 (0 : Fin 1)) := by
  have e : (V5 m ρ c main_v32 : FVec Ideal S1x1 .f32)
      = shapeCast S1x1 (W4 m ρ c (Proc.devRef .tc main_arg7) : FVec Ideal S1 .f32) Gen.shapeCasts_S1_S1x1 := by
    show StableHlo.after hostOps2 (W4 m ρ c) (Proc.devRef .tc main_v32) = _
    after_results
    rfl
  rw [e, W4_arg7]; exact cast_1_1x1_apply _ _

theorem V5_v33 : (V5 m ρ c main_v33 : FVec Ideal S1x1 .f32) (ix2 (0 : Fin 1) (0 : Fin 1))
    = (m ((c : Thread nD τ).loc main_arg8) : FVec Ideal S1 .f32) (ix1 (0 : Fin 1)) := by
  have e : (V5 m ρ c main_v33 : FVec Ideal S1x1 .f32)
      = shapeCast S1x1 (W4 m ρ c (Proc.devRef .tc main_arg8) : FVec Ideal S1 .f32) Gen.shapeCasts_S1_S1x1 := by
    show StableHlo.after hostOps2 (W4 m ρ c) (Proc.devRef .tc main_v33) = _
    after_results
    rfl
  rw [e, W4_arg8]; exact cast_1_1x1_apply _ _

/-- The weight matrices as the launches find them: the launch memory's, transposed. -/
theorem V1_v0 (k : Fin 784) (j : Fin 1024) :
    (V1 m ρ c main_v0 : FVec Ideal S784x1024 .f32) (ix2 k j)
      = (m ((c : Thread nD τ).loc main_arg1) : FVec Ideal S1024x784 .f32) (ix2 j k) := by
  rw [V1_v0_fun]; exact transpose_ix2_apply _ _ k j

theorem V3_v1_apply (j : Fin 1024) (i : Fin 10) :
    (V3 m ρ c main_v1 : FVec Ideal S1024x10 .f32) (ix2 j i)
      = (m ((c : Thread nD τ).loc main_arg4) : FVec Ideal S10x1024 .f32) (ix2 i j) := by
  rw [V3_v1, V1_v1_fun]; exact transpose_ix2_apply _ _ j i

end Cert.KerSide

end
-- ==== Proof.Region0a.lean ====
/-
  One block of the first layer, entry by entry, on the extended reals.

  A block of 1024 batch rows `x0` (1024 x 784) and the transposed weights `x1` (784 x 1024) give
  `h = tern (2 x0 - 1) · tern x1`, a 1024 x 1024 block whose entry `(r, j)` is the sum over the 784 input
  features `k` of `tern (2 x0[r, k] - 1) * tern x1[k, j]`. The two running rows add to what they held the
  column sums of `h` and of `h * h`: entry `j` grows by the sum over the block's 1024 rows of `h[r, j]`,
  respectively of `h[r, j] * h[r, j]`. The rows the first block starts from are the zero word everywhere.
-/
import proofs.«150640_j7971459301379_1_alg».proof.Proof.Gen.KernelIdeal.Skeleton
import proofs.«150640_j7971459301379_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KerSide.R0

open Cert.KernelIdeal Cert.KernelIdeal.Gen Idealize.ShloMosaic Idealize.ShloMosaic.ValueIdx

/-! ## The product's operand indices -/

/-- At output entry `(r, j)` and contraction position `k` the left operand is read at `(r, k)`. -/
theorem lhs_at (r j : Fin 1024) (k : Fin 784) :
    dot_S1024x784_S784x1024_S1024x1024_1_0_0_1_n_n.lhsIdx (ix2 r j)
      ((contrEquiv1 dot_S1024x784_S784x1024_S1024x1024_1_0_0_1_n_n 784 rfl rfl).symm k) = ix2 r k := by
  have c2 := contrEquiv1_symm_val dot_S1024x784_S784x1024_S1024x1024_1_0_0_1_n_n 784 rfl rfl k
  funext ax; apply Fin.ext
  match ax with
  | ⟨0, _⟩ => simp [DotDims.lhsIdx, dot_S1024x784_S784x1024_S1024x1024_1_0_0_1_n_n]; rfl
  | ⟨1, _⟩ => simp [DotDims.lhsIdx, dot_S1024x784_S784x1024_S1024x1024_1_0_0_1_n_n]; exact c2

/-- … and the right operand at `(k, j)`. -/
theorem rhs_at (r j : Fin 1024) (k : Fin 784) :
    dot_S1024x784_S784x1024_S1024x1024_1_0_0_1_n_n.rhsIdx (ix2 r j)
      ((contrEquiv1 dot_S1024x784_S784x1024_S1024x1024_1_0_0_1_n_n 784 rfl rfl).symm k) = ix2 k j := by
  have c2 := contrEquiv1_symm_val dot_S1024x784_S784x1024_S1024x1024_1_0_0_1_n_n 784 rfl rfl k
  funext ax; apply Fin.ext
  match ax with
  | ⟨0, _⟩ => simp [DotDims.rhsIdx, dot_S1024x784_S784x1024_S1024x1024_1_0_0_1_n_n]; exact c2
  | ⟨1, _⟩ => simp [DotDims.rhsIdx, dot_S1024x784_S784x1024_S1024x1024_1_0_0_1_n_n]; rfl

/-! ## The block of the product -/

/-- Entry `(r, j)` of the block's product: the sum over the input features of the quantised, rescaled activation
    times the quantised weight. The accumulator the product starts from is zero, a change of float format is the
    identity on the extended reals, and a cast to the same shape moves nothing. -/
theorem pay4_apply (x0 : Vec Ideal S1024x784 .f32) (x1 : Vec Ideal S784x1024 .f32) (r j : Fin 1024) :
    k0_pay4 (F := Ideal) x0 x1 (ix2 r j)
      = ∑ k : Fin 784, Cert.Spec.tern (Cert.Spec.c2 * x0 (ix2 r k) - Cert.Spec.c1) * Cert.Spec.tern (x1 (ix2 k j)) := by
  unfold k0_pay4
  refine (Ideal.matmul_constant_zero_apply dot_S1024x784_S784x1024_S1024x1024_1_0_0_1_n_n none _ _ (ix2 r j)).trans ?_
  rw [← Equiv.sum_comp (contrEquiv1 dot_S1024x784_S784x1024_S1024x1024_1_0_0_1_n_n 784 rfl rfl).symm]
  refine Finset.sum_congr rfl fun k _ => ?_
  rw [lhs_at, rhs_at, shapeCast_self]
  rfl

/-! ## Column sums of a block -/

/-- The index the column reduction reads at column `j` and row `r`: entry `(r, j)`. -/
theorem lift_at (j r : Fin 1024) : reduces_S1024x1024_S1024.lift (ix1 j) r = ix2 r j := by
  funext ax; apply Fin.ext
  match ax with
  | ⟨0, _⟩ => rfl
  | ⟨1, _⟩ => rfl

/-- A 1024 x 1024 block summed along its rows and laid out as a 1 x 1024 row: entry `(0, j)` is the sum over the
    rows `r` of entry `(r, j)`. -/
theorem colsum_apply (src : FVec Ideal S1024x1024 .f32) (j : Fin 1024) :
    shapeCast S1x1024 (multiReduction (F := Ideal) .add [0] S1024 src 0x00000000#32 reduces_S1024x1024_S1024 (.inl rfl) rfl)
        shapeCasts_S1024_S1x1024 (ix2 (0 : Fin 1) j)
      = ∑ r : Fin 1024, src (ix2 r j) := by
  rw [shapeCast_a_1a_apply]
  refine (Ideal.multiReduction_add_single src 0x00000000#32 reduces_S1024x1024_S1024 (.inl rfl) rfl (ix1 j)).trans ?_
  refine Finset.sum_congr rfl fun r _ => ?_
  exact congrArg src (lift_at j r)

/-! ## What a block adds to the two running rows -/

/-- The running sum: what it held, plus the column sums of the block's product. -/
theorem pay5_apply (x0 : Vec Ideal S1024x784 .f32) (x1 : Vec Ideal S784x1024 .f32) (v24 : Vec Ideal S1x1024 .f32) (j : Fin 1024) :
    k0_pay5 (F := Ideal) x0 x1 v24 (ix2 (0 : Fin 1) j)
      = v24 (ix2 (0 : Fin 1) j) + ∑ r : Fin 1024, k0_pay4 (F := Ideal) x0 x1 (ix2 r j) := by
  unfold k0_pay5
  refine (addf_apply _ _ _).trans ?_
  rw [shapeCast_self, colsum_apply]

/-- The running sum of squares: what it held, plus the column sums of the block's product squared entry by entry. -/
theorem pay1_apply (x0 : Vec Ideal S1024x784 .f32) (x1 : Vec Ideal S784x1024 .f32) (v30 : Vec Ideal S1x1024 .f32) (j : Fin 1024) :
    k0_pay1 (F := Ideal) (k0_pay6 v30) (k0_pay7 x0 x1) (ix2 (0 : Fin 1) j)
      = v30 (ix2 (0 : Fin 1) j)
        + ∑ r : Fin 1024, k0_pay4 (F := Ideal) x0 x1 (ix2 r j) * k0_pay4 (F := Ideal) x0 x1 (ix2 r j) := by
  unfold k0_pay1 k0_pay6 k0_pay7
  refine (addf_apply _ _ _).trans ?_
  rw [shapeCast_self, colsum_apply]
  rfl

/-- The row the first block starts the running sum from: the zero word at every entry. -/
theorem pay2_apply (j : Fin 1024) : k0_pay2 (F := Ideal) (ix2 (0 : Fin 1) j) = Cert.Spec.c0 := rfl
/-- The row the first block starts the running sum of squares from: the zero word at every entry. -/
theorem pay3_apply (j : Fin 1024) : k0_pay3 (F := Ideal) (ix2 (0 : Fin 1) j) = Cert.Spec.c0 := rfl

end Cert.KerSide.R0

end
-- ==== Proof.Region0b.lean ====
/-
  What one grid point leaves in the three output blocks, as values of the point's two input blocks.

  The body's stores each cover their whole block, so what a block holds after the body is the value of its last
  store. The product block is stored once. Each running row is stored once at a later point (what it held plus
  the block's column sums) and twice at the first point (the zero row, then the zero row plus the block's column
  sums): the second store reads back the first.
-/
import proofs.«150640_j7971459301379_1_alg».proof.Proof.Gen.KernelIdeal.Frame
import Idealize.ShloMosaic.Lib.Pipeline.Value
import Idealize.ShloMosaic.Lib.Tactic

noncomputable section

namespace Cert.KerSide.R0

open Cert.KernelIdeal Cert.KernelIdeal.Gen Idealize.ShloMosaic
open Idealize.ShloMosaic.TcCoe Idealize.SL.Sem

variable {F : FTy → Type} [FloatOps F]

/-- Every load and store of the body starts at the block's origin. -/
theorem hz : (![0, 0] : Fin 2 → Nat) = fun _ => 0 := funext fun a => by fin_cases a <;> rfl

/-- At the first point the product's block is the product of the point's two input blocks. -/
theorem outA2 (c : Dev nD) (i : grid0.Coords) (arg1 : Memref sig .tc .vmem S1024x784 .f32) (harg1 : arg1.IsWhole) (arg2 : Memref sig .tc .vmem S784x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : cond0_0 i) (x0 : Vec F S1024x784 .f32) (x1 : Vec F S784x1024 .f32) :
    out0_A_2 c i arg1 harg1 arg2 harg2 arg3 harg3 arg4 harg4 arg5 harg5 hc0 x0 x1 = k0_pay4 x0 x1 := by
  unfold out0_A_2
  rw [View.read_writes_eq_canon _ _ _ (cover0_A_2 c i arg1 harg1 arg2 harg2 arg3 harg3 arg4 harg4 arg5 harg5 hc0 x0 x1)]
  unfold kernelRun0_A
  dsimp only
  try sl_unfold_words
  rw [View.canon_unit_zero hz]
  simp only [View.readAt_eq_ld, harg1.read_unread, harg2.read_unread, harg4.read_unread, harg5.read_unread, View.ld_unit_zero (S := S1024x784) hz, View.ld_unit_zero (S := S784x1024) hz, View.ld_unit_zero (S := S1x1024) hz]

/-- At a later point likewise: the product's block is the product of the point's two input blocks. -/
theorem outB2 (c : Dev nD) (i : grid0.Coords) (arg1 : Memref sig .tc .vmem S1024x784 .f32) (harg1 : arg1.IsWhole) (arg2 : Memref sig .tc .vmem S784x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (x0 : Vec F S1024x784 .f32) (x1 : Vec F S784x1024 .f32) (xo3 xo4 : Vec F S1x1024 .f32) :
    out0_B_2 c i arg1 harg1 arg2 harg2 arg3 harg3 arg4 harg4 arg5 harg5 hc0 x0 x1 xo3 xo4 = k0_pay4 x0 x1 := by
  unfold out0_B_2
  rw [View.read_writes_eq_canon _ _ _ (cover0_B_2 c i arg1 harg1 arg2 harg2 arg3 harg3 arg4 harg4 arg5 harg5 hc0 x0 x1 xo3 xo4)]
  unfold kernelRun0_B
  dsimp only
  try sl_unfold_words
  rw [View.canon_unit_zero hz]
  simp only [View.readAt_eq_ld, harg1.read_unread, harg2.read_unread, harg4.read_unread, harg5.read_unread, View.ld_unit_zero (S := S1024x784) hz, View.ld_unit_zero (S := S784x1024) hz, View.ld_unit_zero (S := S1x1024) hz]

/-- At the first point the running sum is reset to the zero row and then takes the block's column sums. -/
theorem outA3 (c : Dev nD) (i : grid0.Coords) (arg1 : Memref sig .tc .vmem S1024x784 .f32) (harg1 : arg1.IsWhole) (arg2 : Memref sig .tc .vmem S784x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : cond0_0 i) (x0 : Vec F S1024x784 .f32) (x1 : Vec F S784x1024 .f32) :
    out0_A_3 c i arg1 harg1 arg2 harg2 arg3 harg3 arg4 harg4 arg5 harg5 hc0 x0 x1 = k0_pay5 x0 x1 (k0_pay2 (F := F)) := by
  unfold out0_A_3
  rw [View.read_writes_eq_canon _ _ _ (cover0_A_3 c i arg1 harg1 arg2 harg2 arg3 harg3 arg4 harg4 arg5 harg5 hc0 x0 x1)]
  unfold kernelRun0_A
  dsimp only
  try sl_unfold_words
  rw [View.canon_cons_unit_zero (S := S1x1024) hz, View.readCov_unit_zero (S := S1x1024) _ hz]
  simp only [View.readAt_eq_ld, harg1.read_unread, harg2.read_unread, harg4.read_unread, harg5.read_unread, View.ld_unit_zero (S := S1024x784) hz, View.ld_unit_zero (S := S784x1024) hz, View.ld_unit_zero (S := S1x1024) hz]

/-- At a later point the running sum takes the block's column sums on top of what the point before left. -/
theorem outB3 (c : Dev nD) (i : grid0.Coords) (arg1 : Memref sig .tc .vmem S1024x784 .f32) (harg1 : arg1.IsWhole) (arg2 : Memref sig .tc .vmem S784x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (x0 : Vec F S1024x784 .f32) (x1 : Vec F S784x1024 .f32) (xo3 xo4 : Vec F S1x1024 .f32) :
    out0_B_3 c i arg1 harg1 arg2 harg2 arg3 harg3 arg4 harg4 arg5 harg5 hc0 x0 x1 xo3 xo4 = k0_pay5 x0 x1 xo3 := by
  unfold out0_B_3
  rw [View.read_writes_eq_canon _ _ _ (cover0_B_3 c i arg1 harg1 arg2 harg2 arg3 harg3 arg4 harg4 arg5 harg5 hc0 x0 x1 xo3 xo4)]
  unfold kernelRun0_B
  dsimp only
  try sl_unfold_words
  rw [View.canon_unit_zero hz]
  simp only [View.readAt_eq_ld, harg1.read_unread, harg2.read_unread, harg4.read_unread, harg5.read_unread, View.ld_unit_zero (S := S1024x784) hz, View.ld_unit_zero (S := S784x1024) hz, View.ld_unit_zero (S := S1x1024) hz]

/-- At the first point the running sum of squares is reset to the zero row and then takes the column sums of the
    block's squares. -/
theorem outA4 (c : Dev nD) (i : grid0.Coords) (arg1 : Memref sig .tc .vmem S1024x784 .f32) (harg1 : arg1.IsWhole) (arg2 : Memref sig .tc .vmem S784x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : cond0_0 i) (x0 : Vec F S1024x784 .f32) (x1 : Vec F S784x1024 .f32) :
    out0_A_4 c i arg1 harg1 arg2 harg2 arg3 harg3 arg4 harg4 arg5 harg5 hc0 x0 x1 = k0_pay1 (k0_pay6 (k0_pay3 (F := F))) (k0_pay7 x0 x1) := by
  unfold out0_A_4
  rw [View.read_writes_eq_canon _ _ _ (cover0_A_4 c i arg1 harg1 arg2 harg2 arg3 harg3 arg4 harg4 arg5 harg5 hc0 x0 x1)]
  unfold kernelRun0_A
  dsimp only
  try sl_unfold_words
  rw [View.canon_cons_unit_zero (S := S1x1024) hz, View.readCov_unit_zero (S := S1x1024) _ hz]
  simp only [View.readAt_eq_ld, harg1.read_unread, harg2.read_unread, harg4.read_unread, harg5.read_unread, View.ld_unit_zero (S := S1024x784) hz, View.ld_unit_zero (S := S784x1024) hz, View.ld_unit_zero (S := S1x1024) hz]

/-- At a later point the running sum of squares takes the column sums of the block's squares on top of what the
    point before left. -/
theorem outB4 (c : Dev nD) (i : grid0.Coords) (arg1 : Memref sig .tc .vmem S1024x784 .f32) (harg1 : arg1.IsWhole) (arg2 : Memref sig .tc .vmem S784x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : ¬cond0_0 i) (x0 : Vec F S1024x784 .f32) (x1 : Vec F S784x1024 .f32) (xo3 xo4 : Vec F S1x1024 .f32) :
    out0_B_4 c i arg1 harg1 arg2 harg2 arg3 harg3 arg4 harg4 arg5 harg5 hc0 x0 x1 xo3 xo4 = k0_pay1 (k0_pay6 xo4) (k0_pay7 x0 x1) := by
  unfold out0_B_4
  rw [View.read_writes_eq_canon _ _ _ (cover0_B_4 c i arg1 harg1 arg2 harg2 arg3 harg3 arg4 harg4 arg5 harg5 hc0 x0 x1 xo3 xo4)]
  unfold kernelRun0_B
  dsimp only
  try sl_unfold_words
  rw [View.canon_unit_zero hz]
  simp only [View.readAt_eq_ld, harg1.read_unread, harg2.read_unread, harg4.read_unread, harg5.read_unread, View.ld_unit_zero (S := S1024x784) hz, View.ld_unit_zero (S := S784x1024) hz, View.ld_unit_zero (S := S1x1024) hz]

end Cert.KerSide.R0

end
-- ==== Proof.Region0c.lean ====
/-
  The first region's three outputs after each grid point, in terms of the arrays the region finds.

  The region finds the batch `x` (16384 x 784) and the transposed first-layer weights (784 x 1024). Point `t` of
  its 16 points reads rows `1024 t … 1024 t + 1023` of `x` and the whole weight array, so the product block it
  stores is rows `1024 t …` of `H = tern (2 x - 1) · (tern w)ᵀ`. The two running rows are reset at point 0, so
  after point `n` they hold, per feature `j`, the sums over the first `n + 1` blocks of the block's column sum
  of `H`, respectively of `H * H`, added in the grid's order; the zero they start from is the additive zero of
  the extended reals, so it disappears. This is shown by induction on the point.
-/
import proofs.«150640_j7971459301379_1_alg».proof.Proof.Region0a
import proofs.«150640_j7971459301379_1_alg».proof.Proof.Region0b
import proofs.«150640_j7971459301379_1_alg».proof.Proof.Gen.KernelIdeal.Frame
import proofs.«150640_j7971459301379_1_alg».proof.Proof.Spec
import Idealize.ShloMosaic.Lib.ValueIdx
import Idealize.ShloMosaic.Lib.Pipeline.Value
import Idealize.ShloMosaic.PureOps.Ideal.Laws

noncomputable section

namespace Cert.KerSide.R0

open Cert.KernelIdeal Cert.KernelIdeal.Gen Idealize.ShloMosaic Idealize.ShloMosaic.ValueIdx
open Idealize.ShloMosaic.TcCoe Idealize.SL.Sem

variable (V : (c : Dev nD) → (b : Ref sig .tc) → Buf (Elt Ideal) ((c : Thread nD τ).loc b)) (c : Dev nD)

/-- the batch as the region finds it, entry `(b, k)` -/
def X (b : Fin 16384) (k : Fin 784) : EReal := (V c main_arg0 : S16384x784.Idx → EReal) (ix2 b k)
/-- the first layer's weights as the region finds them, stored transposed: weight `(j, k)` is entry `(k, j)` -/
def Wt (j : Fin 1024) (k : Fin 784) : EReal := (V c main_v0 : S784x1024.Idx → EReal) (ix2 k j)
/-- the first layer's product: quantised rescaled activations times quantised weights -/
def H : Fin 16384 → Fin 1024 → EReal :=
  Cert.Spec.mm (Cert.Spec.xq (X V c)) (fun j k => Cert.Spec.tern (Wt V c j k))

/-- a grid point as the number of the batch block it reads -/
def pt (t : Fin cfg0.N) : Fin 16 := ⟨t.val, lt_of_lt_of_eq t.isLt (show cfg0.N = 16 from N_0)⟩

/-- Where each window's block sits at a point, decided over the grid: the batch block and the product block move
    down with the point, the weights and the two running rows stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The batch block at point `t`: its row `r` is row `1024 t + r` of the batch. -/
theorem iblk_x (t : Fin cfg0.N) (r : Fin 1024) (k : Fin 784) :
    (iblk0 V c 0 t : Vec Ideal S1024x784 .f32) (ix2 r k) = X V c (Cert.Spec.blk (pt t) r) k := by
  obtain ⟨e0, e1, -⟩ := idx_facts t
  unfold iblk0 X
  rw [View.read_apply]
  show V c main_arg0 _ = V c main_arg0 _
  refine congrArg (V c main_arg0) ?_
  funext a; apply Fin.ext
  match a with
  | ⟨0, _⟩ => show win0_0.index t 0 * 1024 + 1 * r.val = 1024 * t.val + r.val; rw [e0]; omega
  | ⟨1, _⟩ => show win0_0.index t 1 * 784 + 1 * k.val = k.val; rw [e1]; omega

/-- The weight block at any point is the whole weight array. -/
theorem iblk_w (t : Fin cfg0.N) (k : Fin 784) (j : Fin 1024) :
    (iblk0 V c 1 t : Vec Ideal S784x1024 .f32) (ix2 k j) = Wt V c j k := by
  obtain ⟨-, -, e2, e3, -⟩ := idx_facts t
  unfold iblk0 Wt
  rw [View.read_apply]
  show V c main_v0 _ = V c main_v0 _
  refine congrArg (V c main_v0) ?_
  funext a; apply Fin.ext
  match a with
  | ⟨0, _⟩ => show win0_1.index t 0 * 784 + 1 * k.val = k.val; rw [e2]; omega
  | ⟨1, _⟩ => show win0_1.index t 1 * 1024 + 1 * j.val = j.val; rw [e3]; omega

/-- The product of a batch block and the weights is the corresponding block of rows of `H`. -/
theorem pay4_H (x0 : Vec Ideal S1024x784 .f32) (x1 : Vec Ideal S784x1024 .f32) (tt : Fin 16)
    (h0 : ∀ r k, x0 (ix2 r k) = X V c (Cert.Spec.blk tt r) k) (h1 : ∀ k j, x1 (ix2 k j) = Wt V c j k)
    (r j : Fin 1024) :
    k0_pay4 (F := Ideal) x0 x1 (ix2 r j) = H V c (Cert.Spec.blk tt r) j := by
  refine (pay4_apply x0 x1 r j).trans ?_
  show _ = ∑ k : Fin 784, Cert.Spec.xq (X V c) (Cert.Spec.blk tt r) k * Cert.Spec.tern (Wt V c j k)
  refine Finset.sum_congr rfl fun k _ => ?_
  rw [h0, h1]
  rfl

/-- block `t`'s contribution to column `j` of the running sum: the block's rows of column `j` added up -/
def bsum (t : ℕ) (j : Fin 1024) : EReal :=
  if h : t < 16 then ∑ r : Fin 1024, H V c (Cert.Spec.blk ⟨t, h⟩ r) j else 0
/-- … and of the running sum of squares -/
def bsq (t : ℕ) (j : Fin 1024) : EReal :=
  if h : t < 16 then ∑ r : Fin 1024, H V c (Cert.Spec.blk ⟨t, h⟩ r) j * H V c (Cert.Spec.blk ⟨t, h⟩ r) j else 0

/-- One point adds its block's contribution to the running sum … -/
theorem point_sum (x0 : Vec Ideal S1024x784 .f32) (x1 : Vec Ideal S784x1024 .f32) (prev : Vec Ideal S1x1024 .f32) (tt : Fin 16)
    (h0 : ∀ r k, x0 (ix2 r k) = X V c (Cert.Spec.blk tt r) k) (h1 : ∀ k j, x1 (ix2 k j) = Wt V c j k) (j : Fin 1024) :
    k0_pay5 (F := Ideal) x0 x1 prev (ix2 (0 : Fin 1) j) = prev (ix2 (0 : Fin 1) j) + bsum V c tt.val j := by
  refine (pay5_apply x0 x1 prev j).trans ?_
  unfold bsum
  rw [dif_pos tt.isLt]
  refine congrArg (prev (ix2 (0 : Fin 1) j) + ·) (Finset.sum_congr rfl fun r _ => ?_)
  exact pay4_H V c x0 x1 tt h0 h1 r j

/-- … and to the running sum of squares. -/
theorem point_sq (x0 : Vec Ideal S1024x784 .f32) (x1 : Vec Ideal S784x1024 .f32) (prev : Vec Ideal S1x1024 .f32) (tt : Fin 16)
    (h0 : ∀ r k, x0 (ix2 r k) = X V c (Cert.Spec.blk tt r) k) (h1 : ∀ k j, x1 (ix2 k j) = Wt V c j k) (j : Fin 1024) :
    k0_pay1 (F := Ideal) (k0_pay6 prev) (k0_pay7 x0 x1) (ix2 (0 : Fin 1) j) = prev (ix2 (0 : Fin 1) j) + bsq V c tt.val j := by
  refine (pay1_apply x0 x1 prev j).trans ?_
  unfold bsq
  rw [dif_pos tt.isLt]
  refine congrArg (prev (ix2 (0 : Fin 1) j) + ·) (Finset.sum_congr rfl fun r _ => ?_)
  rw [pay4_H V c x0 x1 tt h0 h1 r j]

/-- the product block after any point -/
theorem outs_prod (t : Fin cfg0.N) :
    (outsAt0 V c t.val t.isLt).1 = k0_pay4 (F := Ideal) (iblk0 V c 0 t) (iblk0 V c 1 t) := by
  by_cases h0 : t.val % 16 = 0
  · rw [outsAt0_A V c t h0]
    dsimp only
    exact outA2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)
  · rw [outsAt0_B V c t h0]
    dsimp only
    exact outB2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2

/-- At the first point the running rows are exactly the first block's contributions: the zero they are reset to
    adds nothing. -/
theorem step_A (t : Fin cfg0.N) (h0 : t.val % 16 = 0) (j : Fin 1024) :
    (outsAt0 V c t.val t.isLt).2.1 (ix2 (0 : Fin 1) j) = bsum V c t.val j
    ∧ (outsAt0 V c t.val t.isLt).2.2 (ix2 (0 : Fin 1) j) = bsq V c t.val j := by
  rw [outsAt0_A V c t h0]
  dsimp only
  rw [outA3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t), outA4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)]
  constructor
  · refine (point_sum V c (iblk0 V c 0 t) (iblk0 V c 1 t) (k0_pay2 (F := Ideal)) (pt t) (iblk_x V c t) (iblk_w V c t) j).trans ?_
    rw [pay2_apply, Cert.Spec.c0, Ideal.ofBits_zero_f32, zero_add]
    rfl
  · refine (point_sq V c (iblk0 V c 0 t) (iblk0 V c 1 t) (k0_pay3 (F := Ideal)) (pt t) (iblk_x V c t) (iblk_w V c t) j).trans ?_
    rw [pay3_apply, Cert.Spec.c0, Ideal.ofBits_zero_f32, zero_add]
    rfl

/-- At a later point they are what the point before left plus the point's block's contributions. -/
theorem step_B (t : Fin cfg0.N) (h0 : ¬t.val % 16 = 0) (j : Fin 1024) :
    (outsAt0 V c t.val t.isLt).2.1 (ix2 (0 : Fin 1) j) = (outsAt0 V c (t.val - 1) (Nat.lt_of_le_of_lt (Nat.sub_le _ _) t.isLt)).2.1 (ix2 (0 : Fin 1) j) + bsum V c t.val j
    ∧ (outsAt0 V c t.val t.isLt).2.2 (ix2 (0 : Fin 1) j) = (outsAt0 V c (t.val - 1) (Nat.lt_of_le_of_lt (Nat.sub_le _ _) t.isLt)).2.2 (ix2 (0 : Fin 1) j) + bsq V c t.val j := by
  rw [outsAt0_B V c t h0]
  dsimp only
  rw [outB3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, outB4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2]
  exact ⟨point_sum V c (iblk0 V c 0 t) (iblk0 V c 1 t) (outsAt0 V c (t.val - 1) (Nat.lt_of_le_of_lt (Nat.sub_le _ _) t.isLt)).2.1 (pt t) (iblk_x V c t) (iblk_w V c t) j,
    point_sq V c (iblk0 V c 0 t) (iblk0 V c 1 t) (outsAt0 V c (t.val - 1) (Nat.lt_of_le_of_lt (Nat.sub_le _ _) t.isLt)).2.2 (pt t) (iblk_x V c t) (iblk_w V c t) j⟩

/-- after point `n` the two running rows hold the first `n + 1` blocks' contributions, added in the grid's order -/
theorem acc_eq : ∀ (n : ℕ) (hn : n < cfg0.N) (j : Fin 1024),
    (outsAt0 V c n hn).2.1 (ix2 (0 : Fin 1) j) = ∑ t ∈ Finset.range (n + 1), bsum V c t j
    ∧ (outsAt0 V c n hn).2.2 (ix2 (0 : Fin 1) j) = ∑ t ∈ Finset.range (n + 1), bsq V c t j
  | 0, hn, j => by
    obtain ⟨e3, e4⟩ := step_A V c ⟨0, hn⟩ rfl j
    rw [Finset.sum_range_one, Finset.sum_range_one]
    exact ⟨e3, e4⟩
  | n + 1, hn, j => by
    have hN : cfg0.N = 16 := N_0
    have hB : ¬(⟨n + 1, hn⟩ : Fin cfg0.N).val % 16 = 0 := by dsimp only; omega
    obtain ⟨e3, e4⟩ := step_B V c ⟨n + 1, hn⟩ hB j
    obtain ⟨i3, i4⟩ := acc_eq n (Nat.lt_of_succ_lt hn) j
    rw [Finset.sum_range_succ _ (n + 1), Finset.sum_range_succ _ (n + 1), ← i3, ← i4]
    exact ⟨e3, e4⟩

end Cert.KerSide.R0

end
-- ==== Proof.Region0Out.lean ====
/-
  What the first kernel leaves in the array of the first layer's product.

  The first kernel visits 16 grid points; point `t` computes the product of rows `1024 t … 1024 t + 1023` of the
  quantised input with the quantised weights and writes that block back, whichever of its two control cases the point
  is in. The 16 blocks tile the 16384 rows (row `b` lies in block `b / 1024`), so the array ends holding the whole
  product, entry by entry.
-/
import proofs.«150640_j7971459301379_1_alg».proof.Proof.Region0c
import Idealize.ShloMosaic.Lib.Pipeline.Value
import Idealize.ShloMosaic.Lib.ValueIdx

noncomputable section

namespace Cert.KerSide.R0

open Cert.KernelIdeal Cert.KernelIdeal.Gen Idealize.ShloMosaic Idealize.ShloMosaic.ValueIdx
open Idealize.ShloMosaic.TcCoe Idealize.SL.Sem

variable (V : (c : Dev nD) → (b : Ref sig .tc) → Buf (Elt Ideal) ((c : Thread nD τ).loc b)) (c : Dev nD)

/-! ## The product array after the region -/

/-- The product array as one function of its index. -/
def G0 : S16384x1024.Idx → EReal := fun i => H V c (i 0) (i 1)

theorem G0_ix2 (b : Fin 16384) (j : Fin 1024) : G0 V c (ix2 b j) = H V c b j := rfl

/-- What point `t` writes back is rows `1024 t … 1024 t + 1023` of the product. -/
theorem flushed2 (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2, outs_prod]
  obtain ⟨-, -, -, -, e4, e5, -⟩ := idx_facts t
  funext y
  obtain ⟨r, j, rfl⟩ : ∃ (r : Fin 1024) (j : Fin 1024), y = ix2 r j := ⟨y 0, y 1, eq_ix2 y⟩
  rw [View.read_apply]
  have hemb : ((cfg0.win 2).blk t).view.emb (ix2 r j) = ix2 (Cert.Spec.blk (pt t) r) j := by
    funext a; apply Fin.ext
    match a with
    | ⟨0, _⟩ => show win0_2.index t (0 : Fin 2) * 1024 + 1 * r.val = 1024 * t.val + r.val; omega
    | ⟨1, _⟩ => show win0_2.index t (1 : Fin 2) * 1024 + 1 * j.val = j.val; omega
  rw [hemb, G0_ix2]
  exact pay4_H V c (iblk0 V c 0 t) (iblk0 V c 1 t) (pt t) (iblk_x V c t) (iblk_w V c t) r j

/-- Row `b` of the product lies in the block of point `b / 1024`. -/
theorem cover2 (i : S16384x1024.Idx) :
    ∃ t : Fin cfg0.N, (cfg0.win 2).flush t = true ∧ i ∈ ((cfg0.win 2).blk t).view.set := by
  have hN : cfg0.N = 16 := N_0
  have h0 : (i 0).val < 16384 := (i 0).isLt
  have h1 : (i 1).val < 1024 := (i 1).isLt
  let t : Fin cfg0.N := ⟨(i 0).val / 1024, by omega⟩
  have ht : t.val = (i 0).val / 1024 := rfl
  obtain ⟨-, -, -, -, e4, e5, -⟩ := idx_facts t
  refine ⟨t, flush0_2 t, ?_⟩
  show i ∈ ((View.whole main_v2_0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The product array after the region. -/
theorem arr2_eq : (dat0 (F := Ideal) V c).arrAt 2 cfg0.N = G0 V c :=
  (dat0 (F := Ideal) V c).arrAt_eq_of_cover 2 (G0 V c) (fun t _ => flushed2 V c t) (cover2)

/-- Entry `(b, j)` of the first layer's product after the region. -/
theorem arr2 (b : Fin 16384) (j : Fin 1024) :
    (dat0 (F := Ideal) V c).arrAt 2 cfg0.N (ix2 b j) = H V c b j := by
  rw [arr2_eq]; rfl

end Cert.KerSide.R0

end
-- ==== Proof.Region0Acc.lean ====
/-
  The two running rows as arrays after the region: per feature, the kernel's sum over the batch of `H` and of
  `H * H`.

  Each running row is one block that every point revisits and only the last point, point 15, writes back. What it
  writes is the row after point 15: the sum over all 16 blocks, in the grid's order, of the block's column sums —
  which is the kernel's sum over the batch, 16 blocks of 1024 rows. The one block written back is the whole 1 x 1024
  array, so the array ends holding that row.
-/
import proofs.«150640_j7971459301379_1_alg».proof.Proof.Region0c
import proofs.«150640_j7971459301379_1_alg».proof.Proof.Gen.KernelIdeal.Frame
import proofs.«150640_j7971459301379_1_alg».proof.Proof.Spec
import Idealize.ShloMosaic.Lib.ValueIdx
import Idealize.ShloMosaic.Lib.Pipeline.Value

noncomputable section

namespace Cert.KerSide.R0

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- what the running-sum array ends holding: per feature, the kernel's sum over the batch -/
def G3 : Buf (Elt Ideal) ((c : Thread nD τ).loc main_v2_1) :=
  fun (i : S1x1024.Idx) => Cert.Spec.kS (H V c) ⟨(i 1).val, idx2_lt1 i⟩

/-- The last point writes back the sum over all 16 blocks. -/
theorem flushed3 (t : Fin cfg0.N) (hf : (cfg0.win 3).flush t = true) :
    (dat0 (F := Ideal) V c).flushed 3 t = ((cfg0.win 3).blk t).view.read (Elt Ideal) (G3 V c) := by
  have hN : cfg0.N = 16 := N_0
  have h15 : t.val = 15 := by have := (flush0_3 t).mp hf; have := t.isLt; omega
  show (cfg0.win 3).cut (grid0.coords t) ((dat0 V c).after 3 t) = _
  rw [after0_3]
  obtain ⟨-, -, -, -, -, -, e6, e7, e8, e9⟩ := idx_facts t
  funext y
  obtain ⟨u, j, rfl⟩ : ∃ (u : Fin 1) (j : Fin 1024), y = ix2 u j := ⟨y 0, y 1, eq_ix2 y⟩
  obtain rfl : u = 0 := Subsingleton.elim _ _
  show (outsAt0 V c t.val t.isLt).2.1 (ix2 (0 : Fin 1) j) = G3 V c (((cfg0.win 3).blk t).view.emb (ix2 (0 : Fin 1) j))
  rw [(acc_eq V c t.val t.isLt j).1]
  have hs : Finset.range (t.val + 1) = Finset.range 16 := by rw [h15]
  rw [hs, Finset.sum_range]
  unfold G3 Cert.Spec.kS Cert.Spec.sumK
  refine Finset.sum_congr rfl fun tt _ => ?_
  unfold bsum
  rw [dif_pos tt.isLt]
  have hj : (⟨((((cfg0.win 3).blk t).view.emb (ix2 (0 : Fin 1) j)) 1).val, idx2_lt1 _⟩ : Fin 1024) = j := by
    apply Fin.ext
    show win0_3.index t 1 * 1024 + 1 * j.val = j.val
    rw [e7]; omega
  rw [hj]

/-- The last point's block is the whole row. -/
theorem cover3 (i : S1x1024.Idx) :
    ∃ t : Fin cfg0.N, (cfg0.win 3).flush t = true ∧ i ∈ ((cfg0.win 3).blk t).view.set := by
  have hN : cfg0.N = 16 := N_0
  have hi0 : (i 0).val < 1 := idx2_lt0 i
  have hi1 : (i 1).val < 1024 := idx2_lt1 i
  obtain ⟨t, ht⟩ : ∃ t : Fin cfg0.N, t.val = 15 := ⟨⟨15, by rw [hN]; decide⟩, rfl⟩
  obtain ⟨-, -, -, -, -, -, e6, e7, e8, e9⟩ := idx_facts t
  refine ⟨t, (flush0_3 t).mpr (by rw [ht]), ?_⟩
  show i ∈ ((View.whole main_v2_1).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [e6]; omega
  | ⟨1, _⟩ =>
    show win0_3.index t 1 * 1024 ≤ (i 1).val ∧ (i 1).val < win0_3.index t 1 * 1024 + 1024
    rw [e7]; omega

/-- The running-sum array after the region: the kernel's sum over the batch of `H`, per feature. -/
theorem arr3 (j : Fin 1024) :
    (dat0 (F := Ideal) V c).arrAt 3 cfg0.N (ix2 (0 : Fin 1) j) = Cert.Spec.kS (H V c) j := by
  rw [(dat0 (F := Ideal) V c).arrAt_eq_of_cover 3 (G3 V c) (flushed3 V c) (cover3)]
  rfl

/-- what the running-sum-of-squares array ends holding: per feature, the kernel's sum over the batch -/
def G4 : Buf (Elt Ideal) ((c : Thread nD τ).loc main_v2_2) :=
  fun (i : S1x1024.Idx) => Cert.Spec.kQ (H V c) ⟨(i 1).val, idx2_lt1 i⟩

/-- The last point writes back the sum over all 16 blocks. -/
theorem flushed4 (t : Fin cfg0.N) (hf : (cfg0.win 4).flush t = true) :
    (dat0 (F := Ideal) V c).flushed 4 t = ((cfg0.win 4).blk t).view.read (Elt Ideal) (G4 V c) := by
  have hN : cfg0.N = 16 := N_0
  have h15 : t.val = 15 := by have := (flush0_4 t).mp hf; have := t.isLt; omega
  show (cfg0.win 4).cut (grid0.coords t) ((dat0 V c).after 4 t) = _
  rw [after0_4]
  obtain ⟨-, -, -, -, -, -, e6, e7, e8, e9⟩ := idx_facts t
  funext y
  obtain ⟨u, j, rfl⟩ : ∃ (u : Fin 1) (j : Fin 1024), y = ix2 u j := ⟨y 0, y 1, eq_ix2 y⟩
  obtain rfl : u = 0 := Subsingleton.elim _ _
  show (outsAt0 V c t.val t.isLt).2.2 (ix2 (0 : Fin 1) j) = G4 V c (((cfg0.win 4).blk t).view.emb (ix2 (0 : Fin 1) j))
  rw [(acc_eq V c t.val t.isLt j).2]
  have hs : Finset.range (t.val + 1) = Finset.range 16 := by rw [h15]
  rw [hs, Finset.sum_range]
  unfold G4 Cert.Spec.kQ Cert.Spec.sumK
  refine Finset.sum_congr rfl fun tt _ => ?_
  unfold bsq
  rw [dif_pos tt.isLt]
  have hj : (⟨((((cfg0.win 4).blk t).view.emb (ix2 (0 : Fin 1) j)) 1).val, idx2_lt1 _⟩ : Fin 1024) = j := by
    apply Fin.ext
    show win0_4.index t 1 * 1024 + 1 * j.val = j.val
    rw [e9]; omega
  rw [hj]

/-- The last point's block is the whole row. -/
theorem cover4 (i : S1x1024.Idx) :
    ∃ t : Fin cfg0.N, (cfg0.win 4).flush t = true ∧ i ∈ ((cfg0.win 4).blk t).view.set := by
  have hN : cfg0.N = 16 := N_0
  have hi0 : (i 0).val < 1 := idx2_lt0 i
  have hi1 : (i 1).val < 1024 := idx2_lt1 i
  obtain ⟨t, ht⟩ : ∃ t : Fin cfg0.N, t.val = 15 := ⟨⟨15, by rw [hN]; decide⟩, rfl⟩
  obtain ⟨-, -, -, -, -, -, e6, e7, e8, e9⟩ := idx_facts t
  refine ⟨t, (flush0_4 t).mpr (by rw [ht]), ?_⟩
  show i ∈ ((View.whole main_v2_2).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [e8]; omega
  | ⟨1, _⟩ =>
    show win0_4.index t 1 * 1024 ≤ (i 1).val ∧ (i 1).val < win0_4.index t 1 * 1024 + 1024
    rw [e9]; omega

/-- The running-sum-of-squares array after the region: the kernel's sum over the batch of `H * H`, per feature. -/
theorem arr4 (j : Fin 1024) :
    (dat0 (F := Ideal) V c).arrAt 4 cfg0.N (ix2 (0 : Fin 1) j) = Cert.Spec.kQ (H V c) j := by
  rw [(dat0 (F := Ideal) V c).arrAt_eq_of_cover 4 (G4 V c) (flushed4 V c) (cover4)]
  rfl

end Cert.KerSide.R0

end
-- ==== Proof.Region0.lean ====
/-
  The first region's three output arrays after the region, over the arrays it finds: the product array is
  `H = tern (2 x - 1) · (tern w)ᵀ` entry by entry (`arr2`), and the two rows are the kernel's sums over the batch of
  `H` and of `H * H` per feature (`arr3`, `arr4`).
-/
import proofs.«150640_j7971459301379_1_alg».proof.Proof.Region0Out
import proofs.«150640_j7971459301379_1_alg».proof.Proof.Region0Acc
-- ==== Proof.Region1Defs.lean ====
/-
  The second layer's kernel as a function of the arrays it finds: the activations it reads, the per-feature scale
  and shift, the (transposed) weights, and the product of the quantised affine image of the activations with the
  quantised weights.
-/
import proofs.«150640_j7971459301379_1_alg».proof.Proof.Gen.KernelIdeal.Frame
import proofs.«150640_j7971459301379_1_alg».proof.Proof.Spec
import Idealize.ShloMosaic.Lib.ValueIdx

noncomputable section

namespace Cert.KerSide.R1

open Cert.KernelIdeal Cert.KernelIdeal.Gen Idealize.ShloMosaic Idealize.ShloMosaic.TcCoe Idealize.ShloMosaic.ValueIdx

variable (V : (c : Dev nD) → (b : Ref sig .tc) → Buf (Elt Ideal) ((c : Thread nD τ).loc b)) (c : Dev nD)

/-- the activations: 16384 rows of 1024 features -/
def Hin (b : Fin 16384) (j : Fin 1024) : EReal := (V c main_v2_0 : S16384x1024.Idx → EReal) (ix2 b j)
/-- the per-feature scale -/
def sc (j : Fin 1024) : EReal := (V c main_v13 : S1x1024.Idx → EReal) (ix2 (0 : Fin 1) j)
/-- the per-feature shift -/
def sh (j : Fin 1024) : EReal := (V c main_v16 : S1x1024.Idx → EReal) (ix2 (0 : Fin 1) j)
/-- the weights, read through the transposed array: output feature i, input feature j -/
def W2t (i : Fin 10) (j : Fin 1024) : EReal := (V c main_v1 : S1024x10.Idx → EReal) (ix2 j i)
/-- the second layer's product: quantised affine image of the activations times quantised weights -/
def H2 : Fin 16384 → Fin 10 → EReal :=
  Cert.Spec.mm (Cert.Spec.qaff (Hin V c) (sc V c) (sh V c)) (fun i j => Cert.Spec.tern (W2t V c i j))

end Cert.KerSide.R1
end
-- ==== Proof.Region1Blocks.lean ====
/-
  Where the blocks of the second layer's kernel sit in their arrays: at grid point t the activation window and the
  product window hold rows 1024 t .. 1024 t + 1023 of their arrays; the scale, the shift, the weights and the two
  running blocks are their whole arrays at every point.
-/
import proofs.«150640_j7971459301379_1_alg».proof.Proof.Gen.KernelIdeal.Frame
import Idealize.ShloMosaic.Lib.ValueIdx
import Idealize.ShloMosaic.Lib.Pipeline.Value

noncomputable section

namespace Cert.KerSide.R1

open Cert.KernelIdeal Cert.KernelIdeal.Gen Idealize.ShloMosaic Idealize.ShloMosaic.TcCoe Idealize.ShloMosaic.ValueIdx

variable {F : FTy → Type} [FloatOps F]
variable (V : (c : Dev nD) → (b : Ref sig .tc) → Buf (Elt F) ((c : Thread nD τ).loc b)) (c : Dev nD)

/-- The block index of each window at each point: the point itself on the batch axis of the two blocked windows,
    zero everywhere else. Decided over the sixteen points. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The activation block at point t, entry (r, k), is the activation array at row 1024 t + r. -/
theorem iblk0_apply (t : Fin cfg1.N) (r k : Fin 1024) (b : Fin 16384) (hb : b.val = 1024 * t.val + r.val) :
    (iblk1 V c 0 t : Vec F S1024x1024 .f32) (ix2 r k) = (V c main_v2_0 : S16384x1024.Idx → Elt F .f32) (ix2 b k) := by
  obtain ⟨e0, e1, -⟩ := idx_facts t
  unfold iblk1
  rw [View.read_apply]
  show V c main_v2_0 _ = V c main_v2_0 _
  congr 1
  funext a
  apply Fin.ext
  match a with
  | ⟨0, _⟩ => show win1_0.index t 0 * 1024 + 1 * r.val = b.val; rw [e0, hb]; omega
  | ⟨1, _⟩ => show win1_0.index t 1 * 1024 + 1 * k.val = k.val; rw [e1]; omega

/-- The scale block is the scale row. -/
theorem iblk1_apply (t : Fin cfg1.N) (u : Fin 1) (k : Fin 1024) :
    (iblk1 V c 1 t : Vec F S1x1024 .f32) (ix2 u k) = (V c main_v13 : S1x1024.Idx → Elt F .f32) (ix2 u k) := by
  obtain ⟨-, -, e0, e1, -⟩ := idx_facts t
  unfold iblk1
  rw [View.read_apply]
  show V c main_v13 _ = V c main_v13 _
  congr 1
  funext a
  apply Fin.ext
  match a with
  | ⟨0, _⟩ => show win1_1.index t 0 * 1 + 1 * u.val = u.val; rw [e0]; omega
  | ⟨1, _⟩ => show win1_1.index t 1 * 1024 + 1 * k.val = k.val; rw [e1]; omega

/-- The shift block is the shift row. -/
theorem iblk2_apply (t : Fin cfg1.N) (u : Fin 1) (k : Fin 1024) :
    (iblk1 V c 2 t : Vec F S1x1024 .f32) (ix2 u k) = (V c main_v16 : S1x1024.Idx → Elt F .f32) (ix2 u k) := by
  obtain ⟨-, -, -, -, e0, e1, -⟩ := idx_facts t
  unfold iblk1
  rw [View.read_apply]
  show V c main_v16 _ = V c main_v16 _
  congr 1
  funext a
  apply Fin.ext
  match a with
  | ⟨0, _⟩ => show win1_2.index t 0 * 1 + 1 * u.val = u.val; rw [e0]; omega
  | ⟨1, _⟩ => show win1_2.index t 1 * 1024 + 1 * k.val = k.val; rw [e1]; omega

/-- The weight block is the whole (transposed) weight array. -/
theorem iblk3_apply (t : Fin cfg1.N) (k : Fin 1024) (i : Fin 10) :
    (iblk1 V c 3 t : Vec F S1024x10 .f32) (ix2 k i) = (V c main_v1 : S1024x10.Idx → Elt F .f32) (ix2 k i) := by
  obtain ⟨-, -, -, -, -, -, e0, e1, -⟩ := idx_facts t
  unfold iblk1
  rw [View.read_apply]
  show V c main_v1 _ = V c main_v1 _
  congr 1
  funext a
  apply Fin.ext
  match a with
  | ⟨0, _⟩ => show win1_3.index t 0 * 1024 + 1 * k.val = k.val; rw [e0]; omega
  | ⟨1, _⟩ => show win1_3.index t 1 * 10 + 1 * i.val = i.val; rw [e1]; omega

end Cert.KerSide.R1
end
-- ==== Proof.Region1Pieces.lean ====
/-
  What each of the two control cases of the second layer's kernel leaves in its three output blocks, as the body's
  arithmetic applied to the blocks it loaded: the product block, the running column sums and the running column
  sums of squares. At the first grid point the two running blocks are first overwritten with zeros and read back;
  at every other point they are read as the point before left them.
-/
import proofs.«150640_j7971459301379_1_alg».proof.Proof.Gen.KernelIdeal.Frame
import Idealize.ShloMosaic.Lib.Pipeline.Value
import Idealize.ShloMosaic.Lib.Tactic

noncomputable section

namespace Cert.KerSide.R1

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## Away from the first point -/

/-- the product block is the quantised product of the loaded blocks -/
theorem out_B_4 (c : Dev nD) (i : grid1.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x10 .f32) (harg4 : arg4.IsWhole) (arg5 : Memref sig .tc .vmem S1024x10 .f32) (harg5 : arg5.IsWhole) (arg6 : Memref sig .tc .vmem S1x10 .f32) (harg6 : arg6.IsWhole) (arg7 : Memref sig .tc .vmem S1x10 .f32) (harg7 : arg7.IsWhole) (hc0 : ¬cond1_0 i) (x0 : Vec F S1024x1024 .f32) (x1 : Vec F S1x1024 .f32) (x2 : Vec F S1x1024 .f32) (x3 : Vec F S1024x10 .f32) (xo5 xo6 : Vec F S1x10 .f32) :
    out1_B_4 c i arg1 harg1 arg2 harg2 arg3 harg3 arg4 harg4 arg5 harg5 arg6 harg6 arg7 harg7 hc0 x0 x1 x2 x3 xo5 xo6 = k1_pay4 x0 x1 x2 x3 := by
  unfold out1_B_4
  rw [View.read_writes_eq_canon _ _ _ (cover1_B_4 c i arg1 harg1 arg2 harg2 arg3 harg3 arg4 harg4 arg5 harg5 arg6 harg6 arg7 harg7 hc0 x0 x1 x2 x3 xo5 xo6)]
  unfold kernelRun1_B
  dsimp only
  try sl_unfold_words
  rw [View.canon_unit_zero hz]
  simp only [View.readAt_eq_ld, harg1.read_unread, harg2.read_unread, harg3.read_unread, harg4.read_unread, harg6.read_unread, harg7.read_unread, View.ld_unit_zero (S := S1024x1024) hz, View.ld_unit_zero (S := S1x1024) hz, View.ld_unit_zero (S := S1024x10) hz, View.ld_unit_zero (S := S1x10) hz]

/-- the running column sums `xo5` gain the column sums of the product block -/
theorem out_B_5 (c : Dev nD) (i : grid1.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x10 .f32) (harg4 : arg4.IsWhole) (arg5 : Memref sig .tc .vmem S1024x10 .f32) (harg5 : arg5.IsWhole) (arg6 : Memref sig .tc .vmem S1x10 .f32) (harg6 : arg6.IsWhole) (arg7 : Memref sig .tc .vmem S1x10 .f32) (harg7 : arg7.IsWhole) (hc0 : ¬cond1_0 i) (x0 : Vec F S1024x1024 .f32) (x1 : Vec F S1x1024 .f32) (x2 : Vec F S1x1024 .f32) (x3 : Vec F S1024x10 .f32) (xo5 xo6 : Vec F S1x10 .f32) :
    out1_B_5 c i arg1 harg1 arg2 harg2 arg3 harg3 arg4 harg4 arg5 harg5 arg6 harg6 arg7 harg7 hc0 x0 x1 x2 x3 xo5 xo6 = k1_pay5 x0 x1 x2 x3 xo5 := by
  unfold out1_B_5
  rw [View.read_writes_eq_canon _ _ _ (cover1_B_5 c i arg1 harg1 arg2 harg2 arg3 harg3 arg4 harg4 arg5 harg5 arg6 harg6 arg7 harg7 hc0 x0 x1 x2 x3 xo5 xo6)]
  unfold kernelRun1_B
  dsimp only
  try sl_unfold_words
  rw [View.canon_unit_zero hz]
  simp only [View.readAt_eq_ld, harg1.read_unread, harg2.read_unread, harg3.read_unread, harg4.read_unread, harg6.read_unread, harg7.read_unread, View.ld_unit_zero (S := S1024x1024) hz, View.ld_unit_zero (S := S1x1024) hz, View.ld_unit_zero (S := S1024x10) hz, View.ld_unit_zero (S := S1x10) hz]

/-- the running column sums of squares `xo6` gain those of the product block -/
theorem out_B_6 (c : Dev nD) (i : grid1.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x10 .f32) (harg4 : arg4.IsWhole) (arg5 : Memref sig .tc .vmem S1024x10 .f32) (harg5 : arg5.IsWhole) (arg6 : Memref sig .tc .vmem S1x10 .f32) (harg6 : arg6.IsWhole) (arg7 : Memref sig .tc .vmem S1x10 .f32) (harg7 : arg7.IsWhole) (hc0 : ¬cond1_0 i) (x0 : Vec F S1024x1024 .f32) (x1 : Vec F S1x1024 .f32) (x2 : Vec F S1x1024 .f32) (x3 : Vec F S1024x10 .f32) (xo5 xo6 : Vec F S1x10 .f32) :
    out1_B_6 c i arg1 harg1 arg2 harg2 arg3 harg3 arg4 harg4 arg5 harg5 arg6 harg6 arg7 harg7 hc0 x0 x1 x2 x3 xo5 xo6 = k1_pay1 (k1_pay4 x0 x1 x2 x3) xo6 := by
  unfold out1_B_6
  rw [View.read_writes_eq_canon _ _ _ (cover1_B_6 c i arg1 harg1 arg2 harg2 arg3 harg3 arg4 harg4 arg5 harg5 arg6 harg6 arg7 harg7 hc0 x0 x1 x2 x3 xo5 xo6)]
  unfold kernelRun1_B
  dsimp only
  try sl_unfold_words
  rw [View.canon_unit_zero hz]
  simp only [View.readAt_eq_ld, harg1.read_unread, harg2.read_unread, harg3.read_unread, harg4.read_unread, harg6.read_unread, harg7.read_unread, View.ld_unit_zero (S := S1024x1024) hz, View.ld_unit_zero (S := S1x1024) hz, View.ld_unit_zero (S := S1024x10) hz, View.ld_unit_zero (S := S1x10) hz]

/-! ## At the first point -/

/-- the product block is the same product -/
theorem out_A_4 (c : Dev nD) (i : grid1.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x10 .f32) (harg4 : arg4.IsWhole) (arg5 : Memref sig .tc .vmem S1024x10 .f32) (harg5 : arg5.IsWhole) (arg6 : Memref sig .tc .vmem S1x10 .f32) (harg6 : arg6.IsWhole) (arg7 : Memref sig .tc .vmem S1x10 .f32) (harg7 : arg7.IsWhole) (hc0 : cond1_0 i) (x0 : Vec F S1024x1024 .f32) (x1 : Vec F S1x1024 .f32) (x2 : Vec F S1x1024 .f32) (x3 : Vec F S1024x10 .f32) :
    out1_A_4 c i arg1 harg1 arg2 harg2 arg3 harg3 arg4 harg4 arg5 harg5 arg6 harg6 arg7 harg7 hc0 x0 x1 x2 x3 = k1_pay4 x0 x1 x2 x3 := by
  unfold out1_A_4
  rw [View.read_writes_eq_canon _ _ _ (cover1_A_4 c i arg1 harg1 arg2 harg2 arg3 harg3 arg4 harg4 arg5 harg5 arg6 harg6 arg7 harg7 hc0 x0 x1 x2 x3)]
  unfold kernelRun1_A
  dsimp only
  try sl_unfold_words
  rw [View.canon_unit_zero hz]
  simp only [View.readAt_eq_ld, harg1.read_unread, harg2.read_unread, harg3.read_unread, harg4.read_unread, View.ld_unit_zero (S := S1024x1024) hz, View.ld_unit_zero (S := S1x1024) hz, View.ld_unit_zero (S := S1024x10) hz, View.ld_unit_zero (S := S1x10) hz]

/-- the column sums start from the zero block just stored -/
theorem out_A_5 (c : Dev nD) (i : grid1.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x10 .f32) (harg4 : arg4.IsWhole) (arg5 : Memref sig .tc .vmem S1024x10 .f32) (harg5 : arg5.IsWhole) (arg6 : Memref sig .tc .vmem S1x10 .f32) (harg6 : arg6.IsWhole) (arg7 : Memref sig .tc .vmem S1x10 .f32) (harg7 : arg7.IsWhole) (hc0 : cond1_0 i) (x0 : Vec F S1024x1024 .f32) (x1 : Vec F S1x1024 .f32) (x2 : Vec F S1x1024 .f32) (x3 : Vec F S1024x10 .f32) :
    out1_A_5 c i arg1 harg1 arg2 harg2 arg3 harg3 arg4 harg4 arg5 harg5 arg6 harg6 arg7 harg7 hc0 x0 x1 x2 x3 = k1_pay5 x0 x1 x2 x3 k1_pay2 := by
  unfold out1_A_5
  rw [View.read_writes_eq_canon _ _ _ (cover1_A_5 c i arg1 harg1 arg2 harg2 arg3 harg3 arg4 harg4 arg5 harg5 arg6 harg6 arg7 harg7 hc0 x0 x1 x2 x3)]
  unfold kernelRun1_A
  dsimp only
  try sl_unfold_words
  rw [View.canon_cons_unit_zero (S := S1x10) hz, View.readCov_unit_zero (S := S1x10) _ hz]
  simp only [View.readAt_eq_ld, harg1.read_unread, harg2.read_unread, harg3.read_unread, harg4.read_unread, View.ld_unit_zero (S := S1024x1024) hz, View.ld_unit_zero (S := S1x1024) hz, View.ld_unit_zero (S := S1024x10) hz, View.ld_unit_zero (S := S1x10) hz]

/-- the column sums of squares start from the zero block just stored -/
theorem out_A_6 (c : Dev nD) (i : grid1.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x10 .f32) (harg4 : arg4.IsWhole) (arg5 : Memref sig .tc .vmem S1024x10 .f32) (harg5 : arg5.IsWhole) (arg6 : Memref sig .tc .vmem S1x10 .f32) (harg6 : arg6.IsWhole) (arg7 : Memref sig .tc .vmem S1x10 .f32) (harg7 : arg7.IsWhole) (hc0 : cond1_0 i) (x0 : Vec F S1024x1024 .f32) (x1 : Vec F S1x1024 .f32) (x2 : Vec F S1x1024 .f32) (x3 : Vec F S1024x10 .f32) :
    out1_A_6 c i arg1 harg1 arg2 harg2 arg3 harg3 arg4 harg4 arg5 harg5 arg6 harg6 arg7 harg7 hc0 x0 x1 x2 x3 = k1_pay1 (k1_pay4 x0 x1 x2 x3) k1_pay3 := by
  unfold out1_A_6
  rw [View.read_writes_eq_canon _ _ _ (cover1_A_6 c i arg1 harg1 arg2 harg2 arg3 harg3 arg4 harg4 arg5 harg5 arg6 harg6 arg7 harg7 hc0 x0 x1 x2 x3)]
  unfold kernelRun1_A
  dsimp only
  try sl_unfold_words
  rw [View.canon_cons_unit_zero (S := S1x10) hz, View.readCov_unit_zero (S := S1x10) _ hz]
  simp only [View.readAt_eq_ld, harg1.read_unread, harg2.read_unread, harg3.read_unread, harg4.read_unread, View.ld_unit_zero (S := S1024x1024) hz, View.ld_unit_zero (S := S1x1024) hz, View.ld_unit_zero (S := S1024x10) hz, View.ld_unit_zero (S := S1x10) hz]

end Cert.KerSide.R1
end
-- ==== Proof.Region1Step.lean ====
/-
  The three output blocks of the second layer's kernel after each grid point, as the body's arithmetic of the
  blocks the point reads: after the first point the running blocks start from zero blocks; after every later
  point they continue from what the point before left.
-/
import proofs.«150640_j7971459301379_1_alg».proof.Proof.Region1Pieces

noncomputable section

namespace Cert.KerSide.R1

open Cert.KernelIdeal Cert.KernelIdeal.Gen Idealize.ShloMosaic Idealize.ShloMosaic.TcCoe Idealize.SL.Sem

variable {F : FTy → Type} [FloatOps F]
variable (V : (c : Dev nD) → (b : Ref sig .tc) → Buf (Elt F) ((c : Thread nD τ).loc b)) (c : Dev nD)

/-- One point of the grid: the product block of the four loaded blocks, and the two running blocks `a5`, `a6`
    advanced by it. -/
def step (x0 : Vec F S1024x1024 .f32) (x1 x2 : Vec F S1x1024 .f32) (x3 : Vec F S1024x10 .f32) (a5 a6 : Vec F S1x10 .f32) :
    Vec F S1024x10 .f32 × Vec F S1x10 .f32 × Vec F S1x10 .f32 :=
  (k1_pay4 x0 x1 x2 x3, k1_pay5 x0 x1 x2 x3 a5, k1_pay1 (k1_pay4 x0 x1 x2 x3) a6)

/-- After the first point: one step from the zero blocks. -/
theorem outsAt_zero (h : 0 < cfg1.N) :
    outsAt1 V c 0 h = step (iblk1 V c 0 (⟨0, h⟩ : Fin cfg1.N)) (iblk1 V c 1 (⟨0, h⟩ : Fin cfg1.N)) (iblk1 V c 2 (⟨0, h⟩ : Fin cfg1.N)) (iblk1 V c 3 (⟨0, h⟩ : Fin cfg1.N)) k1_pay2 k1_pay3 := by
  refine (outsAt1_A V c (⟨0, h⟩ : Fin cfg1.N) rfl).trans ?_
  unfold step
  exact congrArg₂ Prod.mk
    (out_A_4 c (grid1.coords (⟨0, h⟩ : Fin cfg1.N)) (ms1_0 (⟨0, h⟩ : Fin cfg1.N)) (hs1_0 (⟨0, h⟩ : Fin cfg1.N)) (ms1_1 (⟨0, h⟩ : Fin cfg1.N)) (hs1_1 (⟨0, h⟩ : Fin cfg1.N)) (ms1_2 (⟨0, h⟩ : Fin cfg1.N)) (hs1_2 (⟨0, h⟩ : Fin cfg1.N)) (ms1_3 (⟨0, h⟩ : Fin cfg1.N)) (hs1_3 (⟨0, h⟩ : Fin cfg1.N)) (ms1_4 (⟨0, h⟩ : Fin cfg1.N)) (hs1_4 (⟨0, h⟩ : Fin cfg1.N)) (ms1_5 (⟨0, h⟩ : Fin cfg1.N)) (hs1_5 (⟨0, h⟩ : Fin cfg1.N)) (ms1_6 (⟨0, h⟩ : Fin cfg1.N)) (hs1_6 (⟨0, h⟩ : Fin cfg1.N)) ((hcond1_0 (⟨0, h⟩ : Fin cfg1.N)).mpr rfl) (iblk1 V c 0 (⟨0, h⟩ : Fin cfg1.N)) (iblk1 V c 1 (⟨0, h⟩ : Fin cfg1.N)) (iblk1 V c 2 (⟨0, h⟩ : Fin cfg1.N)) (iblk1 V c 3 (⟨0, h⟩ : Fin cfg1.N)))
    (congrArg₂ Prod.mk
      (out_A_5 c (grid1.coords (⟨0, h⟩ : Fin cfg1.N)) (ms1_0 (⟨0, h⟩ : Fin cfg1.N)) (hs1_0 (⟨0, h⟩ : Fin cfg1.N)) (ms1_1 (⟨0, h⟩ : Fin cfg1.N)) (hs1_1 (⟨0, h⟩ : Fin cfg1.N)) (ms1_2 (⟨0, h⟩ : Fin cfg1.N)) (hs1_2 (⟨0, h⟩ : Fin cfg1.N)) (ms1_3 (⟨0, h⟩ : Fin cfg1.N)) (hs1_3 (⟨0, h⟩ : Fin cfg1.N)) (ms1_4 (⟨0, h⟩ : Fin cfg1.N)) (hs1_4 (⟨0, h⟩ : Fin cfg1.N)) (ms1_5 (⟨0, h⟩ : Fin cfg1.N)) (hs1_5 (⟨0, h⟩ : Fin cfg1.N)) (ms1_6 (⟨0, h⟩ : Fin cfg1.N)) (hs1_6 (⟨0, h⟩ : Fin cfg1.N)) ((hcond1_0 (⟨0, h⟩ : Fin cfg1.N)).mpr rfl) (iblk1 V c 0 (⟨0, h⟩ : Fin cfg1.N)) (iblk1 V c 1 (⟨0, h⟩ : Fin cfg1.N)) (iblk1 V c 2 (⟨0, h⟩ : Fin cfg1.N)) (iblk1 V c 3 (⟨0, h⟩ : Fin cfg1.N)))
      (out_A_6 c (grid1.coords (⟨0, h⟩ : Fin cfg1.N)) (ms1_0 (⟨0, h⟩ : Fin cfg1.N)) (hs1_0 (⟨0, h⟩ : Fin cfg1.N)) (ms1_1 (⟨0, h⟩ : Fin cfg1.N)) (hs1_1 (⟨0, h⟩ : Fin cfg1.N)) (ms1_2 (⟨0, h⟩ : Fin cfg1.N)) (hs1_2 (⟨0, h⟩ : Fin cfg1.N)) (ms1_3 (⟨0, h⟩ : Fin cfg1.N)) (hs1_3 (⟨0, h⟩ : Fin cfg1.N)) (ms1_4 (⟨0, h⟩ : Fin cfg1.N)) (hs1_4 (⟨0, h⟩ : Fin cfg1.N)) (ms1_5 (⟨0, h⟩ : Fin cfg1.N)) (hs1_5 (⟨0, h⟩ : Fin cfg1.N)) (ms1_6 (⟨0, h⟩ : Fin cfg1.N)) (hs1_6 (⟨0, h⟩ : Fin cfg1.N)) ((hcond1_0 (⟨0, h⟩ : Fin cfg1.N)).mpr rfl) (iblk1 V c 0 (⟨0, h⟩ : Fin cfg1.N)) (iblk1 V c 1 (⟨0, h⟩ : Fin cfg1.N)) (iblk1 V c 2 (⟨0, h⟩ : Fin cfg1.N)) (iblk1 V c 3 (⟨0, h⟩ : Fin cfg1.N))))

/-- After a later point: one step from what the point before left in the two running blocks. -/
theorem outsAt_succ (n : ℕ) (h : n + 1 < cfg1.N) :
    outsAt1 V c (n + 1) h = step (iblk1 V c 0 (⟨n + 1, h⟩ : Fin cfg1.N)) (iblk1 V c 1 (⟨n + 1, h⟩ : Fin cfg1.N)) (iblk1 V c 2 (⟨n + 1, h⟩ : Fin cfg1.N)) (iblk1 V c 3 (⟨n + 1, h⟩ : Fin cfg1.N)) (outsAt1 V c n (Nat.lt_of_succ_lt h)).2.1 (outsAt1 V c n (Nat.lt_of_succ_lt h)).2.2 := by
  have hN : cfg1.N = 16 := N_1
  have hB : ¬(⟨n + 1, h⟩ : Fin cfg1.N).val % 16 = 0 := by dsimp only; omega
  refine (outsAt1_B V c (⟨n + 1, h⟩ : Fin cfg1.N) hB).trans ?_
  unfold step
  exact congrArg₂ Prod.mk
    (out_B_4 c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N)) (fun hh => hB ((hcond1_0 (⟨n + 1, h⟩ : Fin cfg1.N)).mp hh)) (iblk1 V c 0 (⟨n + 1, h⟩ : Fin cfg1.N)) (iblk1 V c 1 (⟨n + 1, h⟩ : Fin cfg1.N)) (iblk1 V c 2 (⟨n + 1, h⟩ : Fin cfg1.N)) (iblk1 V c 3 (⟨n + 1, h⟩ : Fin cfg1.N)) (outsAt1 V c n (Nat.lt_of_succ_lt h)).2.1 (outsAt1 V c n (Nat.lt_of_succ_lt h)).2.2)
    (congrArg₂ Prod.mk
      (out_B_5 c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N)) (fun hh => hB ((hcond1_0 (⟨n + 1, h⟩ : Fin cfg1.N)).mp hh)) (iblk1 V c 0 (⟨n + 1, h⟩ : Fin cfg1.N)) (iblk1 V c 1 (⟨n + 1, h⟩ : Fin cfg1.N)) (iblk1 V c 2 (⟨n + 1, h⟩ : Fin cfg1.N)) (iblk1 V c 3 (⟨n + 1, h⟩ : Fin cfg1.N)) (outsAt1 V c n (Nat.lt_of_succ_lt h)).2.1 (outsAt1 V c n (Nat.lt_of_succ_lt h)).2.2)
      (out_B_6 c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N)) (fun hh => hB ((hcond1_0 (⟨n + 1, h⟩ : Fin cfg1.N)).mp hh)) (iblk1 V c 0 (⟨n + 1, h⟩ : Fin cfg1.N)) (iblk1 V c 1 (⟨n + 1, h⟩ : Fin cfg1.N)) (iblk1 V c 2 (⟨n + 1, h⟩ : Fin cfg1.N)) (iblk1 V c 3 (⟨n + 1, h⟩ : Fin cfg1.N)) (outsAt1 V c n (Nat.lt_of_succ_lt h)).2.1 (outsAt1 V c n (Nat.lt_of_succ_lt h)).2.2))

end Cert.KerSide.R1
end
-- ==== Proof.Region1Payload.lean ====
/-
  The arithmetic of the second layer's kernel body, read entry by entry on the extended reals.

  The product block: entry (r, i) is the sum over k of the quantised affine image of the loaded activations at
  (r, k) times the quantised weight at (k, i). The two running blocks: entry i gains the sum over the 1024 rows of
  the product block's column i, respectively of its squares. The zero blocks hold the word of 0.0.
-/
import proofs.«150640_j7971459301379_1_alg».proof.Proof.Gen.KernelIdeal.Skeleton
import proofs.«150640_j7971459301379_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KerSide.R1

open Cert.KernelIdeal Cert.KernelIdeal.Gen Idealize.ShloMosaic Idealize.ShloMosaic.ValueIdx

/-- the dimension numbers of the block product: rows by contraction times contraction by columns -/
abbrev D := dot_S1024x1024_S1024x10_S1024x10_1_0_0_1_n_n

/-! ## The operand indices of the block product -/

theorem lhs_0 (j : S1024x10.Idx) (q : D.contr.Idx) : (D.lhsIdx j q 0).val = (j 0).val := by
  unfold DotDims.lhsIdx
  rw [dif_neg (show ¬(0 : Fin S1024x1024.rank) ∈ D.lhsBatch by decide), dif_pos (show (0 : Fin S1024x1024.rank) ∈ D.lhsNonContracting by decide)]
  rfl
theorem lhs_1 (j : S1024x10.Idx) (q : D.contr.Idx) : (D.lhsIdx j q 1).val = (q ⟨0, by decide⟩).val :=
  D.lhsIdx_val_of_single rfl j q
theorem rhs_0 (j : S1024x10.Idx) (q : D.contr.Idx) : (D.rhsIdx j q 0).val = (q ⟨0, by decide⟩).val :=
  D.rhsIdx_val_of_single rfl j q
theorem rhs_1 (j : S1024x10.Idx) (q : D.contr.Idx) : (D.rhsIdx j q 1).val = (j 1).val := by
  unfold DotDims.rhsIdx
  rw [dif_neg (show ¬(1 : Fin S1024x10.rank) ∈ D.rhsBatch by decide), dif_pos (show (1 : Fin S1024x10.rank) ∈ D.rhsNonContracting by decide)]
  rfl

/-! ## The product block -/

/-- Entry (r, i) of the product block: the sum over k of quantised activation times quantised weight. -/
theorem pay4_apply (x0 : Vec Ideal S1024x1024 .f32) (x1 x2 : Vec Ideal S1x1024 .f32) (x3 : Vec Ideal S1024x10 .f32)
    (r : Fin 1024) (i : Fin 10) :
    k1_pay4 x0 x1 x2 x3 (ix2 r i)
      = ∑ k : Fin 1024, Cert.Spec.tern (x0 (ix2 r k) * x1 (ix2 (0 : Fin 1) k) + x2 (ix2 (0 : Fin 1) k))
          * Cert.Spec.tern (x3 (ix2 k i)) := by
  unfold k1_pay4
  refine (Ideal.matmul_constant_zero_apply D none _ _ (ix2 r i)).trans ?_
  refine (Equiv.sum_comp (contrEquiv1 D 1024 rfl rfl).symm _).symm.trans ?_
  refine Finset.sum_congr rfl fun k _ => ?_
  have hk := contrEquiv1_symm_val D 1024 rfl rfl k
  have el : D.lhsIdx (ix2 r i) ((contrEquiv1 D 1024 rfl rfl).symm k) = ix2 r k := funext fun a => Fin.ext (by
    match a with
    | ⟨0, _⟩ => exact lhs_0 _ _
    | ⟨1, _⟩ => exact (lhs_1 _ _).trans hk)
  have er : D.rhsIdx (ix2 r i) ((contrEquiv1 D 1024 rfl rfl).symm k) = ix2 k i := funext fun a => Fin.ext (by
    match a with
    | ⟨0, _⟩ => exact (rhs_0 _ _).trans hk
    | ⟨1, _⟩ => exact rhs_1 _ _)
  rw [el, er]
  refine congrArg₂ (· * ·) ?_ ?_
  · show Cert.Spec.tern (shapeCast S1024x1024 x0 shapeCasts_S1024x1024_S1024x1024 (ix2 r k)
        * broadcastTo S1024x1024 (shapeCast S1x1024 x1 shapeCasts_S1x1024_S1x1024) broadcasts_S1x1024_S1024x1024 (ix2 r k)
        + broadcastTo S1024x1024 (shapeCast S1x1024 x2 shapeCasts_S1x1024_S1x1024) broadcasts_S1x1024_S1024x1024 (ix2 r k)) = _
    rw [shapeCast_self, shapeCast_self, shapeCast_self, broadcastTo_1b_ab_apply, broadcastTo_1b_ab_apply]
  · show Cert.Spec.tern (shapeCast S1024x10 x3 shapeCasts_S1024x10_S1024x10 (ix2 k i)) = _
    rw [shapeCast_self]

/-! ## The column sums -/

/-- A sum over the rows of a 1024 x 10 block, recast as a 1 x 10 row: entry i is the sum of column i. -/
theorem colsum_apply (v : FVec Ideal S1024x10 .f32) (h : S1024x10.Reduces [0] S10) (hφ : FKind.Formats .f32)
    (hacc : (0x00000000#32 : BitVec 32) = FKind.add.neutral .f32 hφ) (h' : S10.ShapeCasts S1x10) (u : Fin 1) (i : Fin 10) :
    shapeCast S1x10 (multiReduction .add [0] S10 v 0x00000000#32 h hφ hacc) h' (ix2 u i) = ∑ r : Fin 1024, v (ix2 r i) := by
  rw [shapeCast_a_1a_apply]
  refine (Ideal.multiReduction_add_single v _ h hφ hacc (ix1 i)).trans ?_
  refine Finset.sum_congr rfl fun r _ => congrArg v ?_
  funext a
  match a with
  | ⟨0, _⟩ => rfl
  | ⟨1, _⟩ => rfl

/-- The running column sums after a point: what they held plus the product block's column sums. -/
theorem pay5_apply (x0 : Vec Ideal S1024x1024 .f32) (x1 x2 : Vec Ideal S1x1024 .f32) (x3 : Vec Ideal S1024x10 .f32)
    (a : Vec Ideal S1x10 .f32) (i : Fin 10) :
    k1_pay5 x0 x1 x2 x3 a (ix2 (0 : Fin 1) i)
      = a (ix2 (0 : Fin 1) i) + ∑ r : Fin 1024, k1_pay4 x0 x1 x2 x3 (ix2 r i) := by
  unfold k1_pay5
  refine (addf_apply _ _ _).trans (congrArg₂ (· + ·) ?_ ?_)
  · exact congrFun (shapeCast_self a _) _
  · exact colsum_apply (k1_pay4 x0 x1 x2 x3) _ _ _ _ 0 i

/-- The running column sums of squares after a point: what they held plus the product block's. -/
theorem pay1_apply (v : FVec Ideal S1024x10 .f32) (a : Vec Ideal S1x10 .f32) (i : Fin 10) :
    k1_pay1 v a (ix2 (0 : Fin 1) i) = a (ix2 (0 : Fin 1) i) + ∑ r : Fin 1024, v (ix2 r i) * v (ix2 r i) := by
  unfold k1_pay1
  refine (addf_apply _ _ _).trans (congrArg₂ (· + ·) ?_ ?_)
  · exact congrFun (shapeCast_self a _) _
  · exact colsum_apply (mulf v v) _ _ _ _ 0 i

/-! ## The zero blocks -/

theorem pay2_apply (j : S1x10.Idx) : k1_pay2 (F := Ideal) j = Cert.Spec.c0 := rfl
theorem pay3_apply (j : S1x10.Idx) : k1_pay3 (F := Ideal) j = Cert.Spec.c0 := rfl

end Cert.KerSide.R1
end
-- ==== Proof.Region1Out.lean ====
/-
  What the second kernel leaves in the array of the second layer's product.

  The second kernel visits 16 grid points; point `t` computes the product of the quantised affine image of rows
  `1024 t … 1024 t + 1023` of the activations with the quantised weights and writes that block back, whichever of its
  two control cases the point is in. The 16 blocks tile the 16384 rows (row `b` lies in block `b / 1024`), so the
  array ends holding the whole product, entry by entry.
-/
import proofs.«150640_j7971459301379_1_alg».proof.Proof.Region1Defs
import proofs.«150640_j7971459301379_1_alg».proof.Proof.Region1Blocks
import proofs.«150640_j7971459301379_1_alg».proof.Proof.Region1Step
import proofs.«150640_j7971459301379_1_alg».proof.Proof.Region1Payload
import Idealize.ShloMosaic.Lib.Pipeline.Value
import Idealize.ShloMosaic.Lib.ValueIdx

noncomputable section

namespace Cert.KerSide.R1

open Cert.KernelIdeal Cert.KernelIdeal.Gen Idealize.ShloMosaic Idealize.ShloMosaic.ValueIdx
open Idealize.ShloMosaic.TcCoe Idealize.SL.Sem

variable (V : (c : Dev nD) → (b : Ref sig .tc) → Buf (Elt Ideal) ((c : Thread nD τ).loc b)) (c : Dev nD)

/-- a grid point as a block number -/
def blkNo (t : Fin cfg1.N) : Fin 16 := ⟨t.val, lt_of_lt_of_eq t.isLt (show cfg1.N = 16 from N_1)⟩

/-- The product array as one function of its index. -/
def G1 : S16384x10.Idx → EReal := fun i => H2 V c (i 0) (i 1)

theorem G1_ix2 (b : Fin 16384) (i : Fin 10) : G1 V c (ix2 b i) = H2 V c b i := rfl

/-- The product block after point `t`, entry `(r, i)`: the product at row `1024 t + r`. In either control case
    the block is the body's product of the point's four input blocks; the activation block holds rows
    `1024 t … 1024 t + 1023` of the activations, the other three blocks are their whole arrays. -/
theorem prod_blk (t : Fin cfg1.N) (r : Fin 1024) (i : Fin 10) :
    ((outsAt1 V c t.val t.isLt).1 : Vec Ideal S1024x10 .f32) (ix2 r i) = H2 V c (Cert.Spec.blk (blkNo t) r) i := by
  have h1 : (outsAt1 V c t.val t.isLt).1
      = k1_pay4 (F := Ideal) (iblk1 V c 0 t) (iblk1 V c 1 t) (iblk1 V c 2 t) (iblk1 V c 3 t) := by
    obtain ⟨n, hn⟩ := t
    cases n with
    | zero => exact congrArg Prod.fst (outsAt_zero V c hn)
    | succ n => exact congrArg Prod.fst (outsAt_succ V c n hn)
  rw [h1]
  refine (pay4_apply (iblk1 V c 0 t) (iblk1 V c 1 t) (iblk1 V c 2 t) (iblk1 V c 3 t) r i).trans ?_
  show _ = ∑ k : Fin 1024, Cert.Spec.qaff (Hin V c) (sc V c) (sh V c) (Cert.Spec.blk (blkNo t) r) k
      * Cert.Spec.tern (W2t V c i k)
  refine Finset.sum_congr rfl fun k _ => ?_
  rw [iblk0_apply V c t r k (Cert.Spec.blk (blkNo t) r) rfl, iblk1_apply V c t 0 k, iblk2_apply V c t 0 k,
    iblk3_apply V c t k i]
  rfl

/-- What point `t` writes back is rows `1024 t … 1024 t + 1023` of the product. -/
theorem flushed4 (t : Fin cfg1.N) :
    (dat1 (F := Ideal) V c).flushed 4 t = ((cfg1.win 4).blk t).view.read (Elt Ideal) (G1 V c) := by
  show (cfg1.win 4).cut (grid1.coords t) ((dat1 (F := Ideal) V c).after 4 t) = _
  rw [after1_4]
  obtain ⟨-, -, -, -, -, -, -, -, e8, e9, -⟩ := idx_facts t
  funext y
  obtain ⟨r, i, rfl⟩ : ∃ (r : Fin 1024) (i : Fin 10), y = ix2 r i := ⟨y 0, y 1, eq_ix2 y⟩
  rw [View.read_apply]
  have hemb : ((cfg1.win 4).blk t).view.emb (ix2 r i) = ix2 (Cert.Spec.blk (blkNo t) r) i := by
    funext a; apply Fin.ext
    match a with
    | ⟨0, _⟩ => show win1_4.index t (0 : Fin 2) * 1024 + 1 * r.val = 1024 * t.val + r.val; omega
    | ⟨1, _⟩ => show win1_4.index t (1 : Fin 2) * 10 + 1 * i.val = i.val; omega
  rw [hemb, G1_ix2]
  exact prod_blk V c t r i

/-- Row `b` of the product lies in the block of point `b / 1024`. -/
theorem cover4 (i : S16384x10.Idx) :
    ∃ t : Fin cfg1.N, (cfg1.win 4).flush t = true ∧ i ∈ ((cfg1.win 4).blk t).view.set := by
  have hN : cfg1.N = 16 := N_1
  have h0 : (i 0).val < 16384 := (i 0).isLt
  have h1 : (i 1).val < 10 := (i 1).isLt
  let t : Fin cfg1.N := ⟨(i 0).val / 1024, by omega⟩
  have ht : t.val = (i 0).val / 1024 := rfl
  obtain ⟨-, -, -, -, -, -, -, -, e8, e9, -⟩ := idx_facts t
  refine ⟨t, flush1_4 t, ?_⟩
  show i ∈ ((View.whole main_v17_0).slice (win1_4.rect t)).set
  rw [View.set_slice_whole, Rect.mem_set_unit]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 10 ≤ (i 1).val ∧ (i 1).val < win1_4.index t (1 : Fin 2) * 10 + 10; omega

/-- The product array after the region. -/
theorem arr4_eq : (dat1 (F := Ideal) V c).arrAt 4 cfg1.N = G1 V c :=
  (dat1 (F := Ideal) V c).arrAt_eq_of_cover 4 (G1 V c) (fun t _ => flushed4 V c t) (cover4)

/-- Entry `(b, i)` of the second layer's product after the region. -/
theorem arr4 (b : Fin 16384) (i : Fin 10) :
    (dat1 (F := Ideal) V c).arrAt 4 cfg1.N (ix2 b i) = H2 V c b i := by
  rw [arr4_eq]; rfl

end Cert.KerSide.R1

end
-- ==== Proof.Region1Fold.lean ====
/-
  The running blocks of the second layer's kernel, point by point.

  After point n the product window's block holds rows 1024 n .. 1024 n + 1023 of the product `H2`; the running
  column sums hold the word of 0.0 plus the column sums of the first n + 1 row blocks of `H2`, added in the
  grid's order, and the running column sums of squares likewise. After the last point these are the sums over the
  sixteen blocks, which is how the specification writes the sum over the batch.
-/
import proofs.«150640_j7971459301379_1_alg».proof.Proof.Region1Step
import proofs.«150640_j7971459301379_1_alg».proof.Proof.Region1Payload
import proofs.«150640_j7971459301379_1_alg».proof.Proof.Region1Blocks
import proofs.«150640_j7971459301379_1_alg».proof.Proof.Region1Defs

noncomputable section

namespace Cert.KerSide.R1

open Cert.KernelIdeal Cert.KernelIdeal.Gen Idealize.ShloMosaic Idealize.ShloMosaic.TcCoe Idealize.ShloMosaic.ValueIdx

/-! ## A sum built up block by block -/

/-- the word of 0.0, then the first n + 1 terms of `g` added one after the other -/
def run (g : Fin 16 → EReal) : (n : ℕ) → n < 16 → EReal
  | 0, h => Cert.Spec.c0 + g ⟨0, h⟩
  | n + 1, h => run g n (Nat.lt_of_succ_lt h) + g ⟨n + 1, h⟩

/-- it is the sum of those terms -/
theorem run_eq (g : Fin 16 → EReal) : ∀ (n : ℕ) (h : n < 16),
    run g n h = ∑ t : Fin (n + 1), g ⟨t.val, lt_of_lt_of_le t.isLt h⟩
  | 0, h => by
    show Ideal.ofBits .f32 0x00000000#32 + g ⟨0, h⟩ = _
    rw [Ideal.ofBits_zero_f32, zero_add, Fin.sum_univ_one]
    rfl
  | n + 1, h => by
    rw [run, run_eq g n (Nat.lt_of_succ_lt h)]
    exact (Fin.sum_univ_castSucc (fun t : Fin (n + 1 + 1) => g ⟨t.val, lt_of_lt_of_le t.isLt h⟩)).symm

/-- after all sixteen terms it is the whole sum -/
theorem run_last (g : Fin 16 → EReal) : run g 15 (by decide) = ∑ t : Fin 16, g t :=
  run_eq g 15 (by decide)

variable (V : (c : Dev nD) → (b : Ref sig .tc) → Buf (Elt Ideal) ((c : Thread nD τ).loc b)) (c : Dev nD)

/-! ## The product block -/

/-- The product of the blocks read at point t, entry (r, i), is the product `H2` at row 1024 t + r. -/
theorem prod_entry (t : Fin cfg1.N) (r : Fin 1024) (i : Fin 10) (b : Fin 16384) (hb : b.val = 1024 * t.val + r.val) :
    k1_pay4 (iblk1 V c 0 t) (iblk1 V c 1 t) (iblk1 V c 2 t) (iblk1 V c 3 t) (ix2 r i) = H2 V c b i := by
  refine (pay4_apply (iblk1 V c 0 t) (iblk1 V c 1 t) (iblk1 V c 2 t) (iblk1 V c 3 t) r i).trans ?_
  show _ = ∑ k : Fin 1024, Cert.Spec.tern (Hin V c b k * sc V c k + sh V c k) * Cert.Spec.tern (W2t V c i k)
  refine Finset.sum_congr rfl fun k _ => ?_
  rw [iblk0_apply V c t r k b hb, iblk1_apply V c t 0 k, iblk2_apply V c t 0 k, iblk3_apply V c t k i]
  rfl

/-- What the product window's block holds after point n. -/
theorem prod_at (n : ℕ) (h : n < cfg1.N) (r : Fin 1024) (i : Fin 10) :
    (outsAt1 V c n h).1 (ix2 r i) = H2 V c (Cert.Spec.blk ⟨n, lt_of_lt_of_eq h N_1⟩ r) i := by
  cases n with
  | zero =>
    rw [outsAt_zero V c h]
    exact prod_entry V c ⟨0, h⟩ r i (Cert.Spec.blk ⟨0, lt_of_lt_of_eq h N_1⟩ r) rfl
  | succ n =>
    rw [outsAt_succ V c n h]
    exact prod_entry V c ⟨n + 1, h⟩ r i (Cert.Spec.blk ⟨n + 1, lt_of_lt_of_eq h N_1⟩ r) rfl

/-! ## The two running blocks -/

/-- After point n the running column sums are the first n + 1 block sums of `H2`'s columns, and the running
    column sums of squares those of the squares. By induction on the point. -/
theorem acc_at (i : Fin 10) : ∀ (n : ℕ) (h : n < cfg1.N),
    (outsAt1 V c n h).2.1 (ix2 (0 : Fin 1) i)
        = run (fun t => ∑ r : Fin 1024, H2 V c (Cert.Spec.blk t r) i) n (lt_of_lt_of_eq h N_1)
      ∧ (outsAt1 V c n h).2.2 (ix2 (0 : Fin 1) i)
        = run (fun t => ∑ r : Fin 1024, H2 V c (Cert.Spec.blk t r) i * H2 V c (Cert.Spec.blk t r) i) n (lt_of_lt_of_eq h N_1)
  | 0, h => by
    rw [outsAt_zero V c h]
    constructor
    · refine (pay5_apply (iblk1 V c 0 ⟨0, h⟩) (iblk1 V c 1 ⟨0, h⟩) (iblk1 V c 2 ⟨0, h⟩) (iblk1 V c 3 ⟨0, h⟩) (k1_pay2 (F := Ideal)) i).trans ?_
      exact congrArg₂ (· + ·) rfl (Finset.sum_congr rfl fun r _ => prod_entry V c ⟨0, h⟩ r i (Cert.Spec.blk ⟨0, lt_of_lt_of_eq h N_1⟩ r) rfl)
    · refine (pay1_apply (k1_pay4 (iblk1 V c 0 ⟨0, h⟩) (iblk1 V c 1 ⟨0, h⟩) (iblk1 V c 2 ⟨0, h⟩) (iblk1 V c 3 ⟨0, h⟩)) (k1_pay3 (F := Ideal)) i).trans ?_
      exact congrArg₂ (· + ·) rfl (Finset.sum_congr rfl fun r _ => by rw [prod_entry V c ⟨0, h⟩ r i (Cert.Spec.blk ⟨0, lt_of_lt_of_eq h N_1⟩ r) rfl])
  | n + 1, h => by
    obtain ⟨ih5, ih6⟩ := acc_at i n (Nat.lt_of_succ_lt h)
    rw [outsAt_succ V c n h]
    constructor
    · refine (pay5_apply (iblk1 V c 0 ⟨n + 1, h⟩) (iblk1 V c 1 ⟨n + 1, h⟩) (iblk1 V c 2 ⟨n + 1, h⟩) (iblk1 V c 3 ⟨n + 1, h⟩) (outsAt1 V c n (Nat.lt_of_succ_lt h)).2.1 i).trans ?_
      exact congrArg₂ (· + ·) ih5 (Finset.sum_congr rfl fun r _ => prod_entry V c ⟨n + 1, h⟩ r i (Cert.Spec.blk ⟨n + 1, lt_of_lt_of_eq h N_1⟩ r) rfl)
    · refine (pay1_apply (k1_pay4 (iblk1 V c 0 ⟨n + 1, h⟩) (iblk1 V c 1 ⟨n + 1, h⟩) (iblk1 V c 2 ⟨n + 1, h⟩) (iblk1 V c 3 ⟨n + 1, h⟩)) (outsAt1 V c n (Nat.lt_of_succ_lt h)).2.2 i).trans ?_
      exact congrArg₂ (· + ·) ih6 (Finset.sum_congr rfl fun r _ => by rw [prod_entry V c ⟨n + 1, h⟩ r i (Cert.Spec.blk ⟨n + 1, lt_of_lt_of_eq h N_1⟩ r) rfl])

/-- After the last point the running column sums are the specification's sum over the batch of column i. -/
theorem sum_last (i : Fin 10) (h : 15 < cfg1.N) :
    (outsAt1 V c 15 h).2.1 (ix2 (0 : Fin 1) i) = Cert.Spec.kS (H2 V c) i :=
  ((acc_at V c i 15 h).1).trans (run_last _)

/-- After the last point the running column sums of squares are the specification's sum over the batch of the
    squares of column i. -/
theorem sq_last (i : Fin 10) (h : 15 < cfg1.N) :
    (outsAt1 V c 15 h).2.2 (ix2 (0 : Fin 1) i) = Cert.Spec.kQ (H2 V c) i :=
  ((acc_at V c i 15 h).2).trans (run_last _)

end Cert.KerSide.R1
end
-- ==== Proof.Region1Acc.lean ====
/-
  The two accumulated outputs of the second layer's kernel as arrays: after the run the 1 x 10 array of running
  column sums holds, per feature, the specification's sum over the batch of the product `H2`, and the array of
  running column sums of squares the sum of its squares. Each is written back once, after the last grid point,
  and that one block is the whole array.
-/
import proofs.«150640_j7971459301379_1_alg».proof.Proof.Region1Fold
import Idealize.ShloMosaic.Lib.Pipeline.Value

noncomputable section

namespace Cert.KerSide.R1

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

/-! ## The column sums -/

/-- the row of sums over the batch, per feature -/
def G5 : S1x10.Idx → EReal := fun j => Cert.Spec.kS (H2 V c) ⟨(j 1).val, idx2_lt1 j⟩

/-- The one write-back of window 5, at the last point, writes that row: its block is the whole array. -/
theorem flushed5_eq (t : Fin cfg1.N) (hf : (cfg1.win 5).flush t = true) :
    (dat1 V c).flushed 5 t = ((cfg1.win 5).blk t).view.read (Elt Ideal) (G5 V c) := by
  have hN : cfg1.N = 16 := N_1
  have h15 : t.val = 15 := by have := (flush1_5 t).mp hf; have := t.isLt; omega
  obtain rfl : t = t1_15 := Fin.ext h15
  show (cfg1.win 5).cut (grid1.coords t1_15) ((dat1 V c).after 5 t1_15) = _
  rw [after1_5]
  have hz' : (fun a => win1_5.index t1_15 a * main_v17_1.ty.shape.size a) = fun _ => 0 := funext fun a => by fin_cases a <;> decide
  refine Eq.trans ?_ (Memref.read_access_unit_zero (Elt Ideal) main_v17_1 hz' (fun a => by rw [congrFun hz' a]; simp) (G5 V c)).symm
  funext j
  obtain ⟨u, i, rfl⟩ : ∃ (u : Fin 1) (i : Fin 10), j = ix2 u i := ⟨j 0, j 1, eq_ix2 j⟩
  obtain rfl : u = 0 := Subsingleton.elim _ _
  exact sum_last V c i t1_15.isLt

/-- The last point's block covers the array. -/
theorem cover5 (i : S1x10.Idx) : ∃ t : Fin cfg1.N, (cfg1.win 5).flush t = true ∧ i ∈ ((cfg1.win 5).blk t).view.set := by
  refine ⟨t1_15, (flush1_5 t1_15).mpr rfl, ?_⟩
  show i ∈ ((View.whole main_v17_1).slice (win1_5.rect t1_15)).set
  rw [View.set_slice_whole, Rect.mem_set_unit]
  intro a
  have h0 : (i 0 : Nat) < 1 := (i 0).isLt
  have h1 : (i 1 : Nat) < 10 := (i 1).isLt
  match a with
  | ⟨0, _⟩ => show win1_5.index t1_15 0 * win1_5.size 0 ≤ (i 0 : Nat) ∧ (i 0 : Nat) < win1_5.index t1_15 0 * win1_5.size 0 + win1_5.xsize (grid1.coords t1_15) 0
              rw [show win1_5.index t1_15 0 * win1_5.size 0 = 0 from by decide +kernel, show win1_5.xsize (grid1.coords t1_15) 0 = 1 from by decide +kernel]; omega
  | ⟨1, _⟩ => show win1_5.index t1_15 1 * win1_5.size 1 ≤ (i 1 : Nat) ∧ (i 1 : Nat) < win1_5.index t1_15 1 * win1_5.size 1 + win1_5.xsize (grid1.coords t1_15) 1
              rw [show win1_5.index t1_15 1 * win1_5.size 1 = 0 from by decide +kernel, show win1_5.xsize (grid1.coords t1_15) 1 = 10 from by decide +kernel]; omega

/-- So the array ends holding that row. -/
theorem arr5_eq : (dat1 V c).arrAt 5 cfg1.N = G5 V c :=
  (dat1 V c).arrAt_eq_of_cover 5 (G5 V c) (flushed5_eq V c) cover5

/-- Entry i of the array of column sums is the specification's sum over the batch of column i of the product. -/
theorem arr5 (i : Fin 10) :
    (dat1 (F := Ideal) V c).arrAt 5 cfg1.N (ix2 (0 : Fin 1) i) = Cert.Spec.kS (H2 V c) i :=
  congrFun (arr5_eq V c) (ix2 (0 : Fin 1) i)

/-! ## The column sums of squares -/

/-- the row of sums of squares over the batch, per feature -/
def G6 : S1x10.Idx → EReal := fun j => Cert.Spec.kQ (H2 V c) ⟨(j 1).val, idx2_lt1 j⟩

/-- The one write-back of window 6, at the last point, writes that row: its block is the whole array. -/
theorem flushed6_eq (t : Fin cfg1.N) (hf : (cfg1.win 6).flush t = true) :
    (dat1 V c).flushed 6 t = ((cfg1.win 6).blk t).view.read (Elt Ideal) (G6 V c) := by
  have hN : cfg1.N = 16 := N_1
  have h15 : t.val = 15 := by have := (flush1_6 t).mp hf; have := t.isLt; omega
  obtain rfl : t = t1_15 := Fin.ext h15
  show (cfg1.win 6).cut (grid1.coords t1_15) ((dat1 V c).after 6 t1_15) = _
  rw [after1_6]
  have hz' : (fun a => win1_6.index t1_15 a * main_v17_2.ty.shape.size a) = fun _ => 0 := funext fun a => by fin_cases a <;> decide
  refine Eq.trans ?_ (Memref.read_access_unit_zero (Elt Ideal) main_v17_2 hz' (fun a => by rw [congrFun hz' a]; simp) (G6 V c)).symm
  funext j
  obtain ⟨u, i, rfl⟩ : ∃ (u : Fin 1) (i : Fin 10), j = ix2 u i := ⟨j 0, j 1, eq_ix2 j⟩
  obtain rfl : u = 0 := Subsingleton.elim _ _
  exact sq_last V c i t1_15.isLt

/-- The last point's block covers the array. -/
theorem cover6 (i : S1x10.Idx) : ∃ t : Fin cfg1.N, (cfg1.win 6).flush t = true ∧ i ∈ ((cfg1.win 6).blk t).view.set := by
  refine ⟨t1_15, (flush1_6 t1_15).mpr rfl, ?_⟩
  show i ∈ ((View.whole main_v17_2).slice (win1_6.rect t1_15)).set
  rw [View.set_slice_whole, Rect.mem_set_unit]
  intro a
  have h0 : (i 0 : Nat) < 1 := (i 0).isLt
  have h1 : (i 1 : Nat) < 10 := (i 1).isLt
  match a with
  | ⟨0, _⟩ => show win1_6.index t1_15 0 * win1_6.size 0 ≤ (i 0 : Nat) ∧ (i 0 : Nat) < win1_6.index t1_15 0 * win1_6.size 0 + win1_6.xsize (grid1.coords t1_15) 0
              rw [show win1_6.index t1_15 0 * win1_6.size 0 = 0 from by decide +kernel, show win1_6.xsize (grid1.coords t1_15) 0 = 1 from by decide +kernel]; omega
  | ⟨1, _⟩ => show win1_6.index t1_15 1 * win1_6.size 1 ≤ (i 1 : Nat) ∧ (i 1 : Nat) < win1_6.index t1_15 1 * win1_6.size 1 + win1_6.xsize (grid1.coords t1_15) 1
              rw [show win1_6.index t1_15 1 * win1_6.size 1 = 0 from by decide +kernel, show win1_6.xsize (grid1.coords t1_15) 1 = 10 from by decide +kernel]; omega

/-- So the array ends holding that row. -/
theorem arr6_eq : (dat1 V c).arrAt 6 cfg1.N = G6 V c :=
  (dat1 V c).arrAt_eq_of_cover 6 (G6 V c) (flushed6_eq V c) cover6

/-- Entry i of the array of column sums of squares is the specification's sum over the batch of the squares of
    column i of the product. -/
theorem arr6 (i : Fin 10) :
    (dat1 (F := Ideal) V c).arrAt 6 cfg1.N (ix2 (0 : Fin 1) i) = Cert.Spec.kQ (H2 V c) i :=
  congrFun (arr6_eq V c) (ix2 (0 : Fin 1) i)

end Cert.KerSide.R1
end
-- ==== Proof.Region1.lean ====
/-
  The second layer's kernel, read as values: after its sixteen grid points the product array holds the product
  `H2` of the quantised affine image of the activations with the quantised weights, and the two accumulated
  rows hold, per feature, the specification's sums over the batch of `H2` and of its squares.

  `arr4`: the product array, entry (b, i), is `H2 V c b i`.
  `arr5`: the row of column sums, entry i, is `Cert.Spec.kS (H2 V c) i`.
  `arr6`: the row of column sums of squares, entry i, is `Cert.Spec.kQ (H2 V c) i`.
-/
import proofs.«150640_j7971459301379_1_alg».proof.Proof.Region1Out
import proofs.«150640_j7971459301379_1_alg».proof.Proof.Region1Acc
-- ==== Proof.Region2Pay.lean ====
/-
  The value of the third kernel's one store, read at an entry.

  The kernel body quantises `h * scale + shift` entry by entry into `t`, sums `t` and `t * t` down the 16384 rows and
  then across the 10 columns, forms the mean, the unbiased variance `(sum t^2 - (n * mean) * mean) / (n - 1)`, the
  scalar `scale = w * rsqrt (var + eps)` and `shift = b - mean * scale`, and stores `t * scale + shift`. Each of
  these steps is read here at an index written by its coordinates; the sums over one axis become `Fin`-indexed sums.
-/
import proofs.«150640_j7971459301379_1_alg».proof.Proof.Gen.KernelIdeal.Skeleton
import proofs.«150640_j7971459301379_1_alg».proof.Proof.Spec
import Idealize.ShloMosaic.Lib.ValueIdx
import Idealize.ShloMosaic.Lib.ValueLayout
import Idealize.ShloMosaic.PureOps.Ideal.Laws

noncomputable section

namespace Cert.KerSide.R2

open Cert.KernelIdeal Cert.KernelIdeal.Gen Idealize.ShloMosaic Idealize.ShloMosaic.ValueIdx

/-! ## Layout steps at an index -/

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index a sum down the rows inserts: row `k` of column `i`. -/
theorem lift_rows (h : Shape.Reduces S16384x10 [0] S10) (i : Fin 10) (k : Fin 16384) :
    h.lift (ix1 i) k = ix2 k i :=
  funext fun a => Fin.ext (by match a with | ⟨0, _⟩ => rfl | ⟨1, _⟩ => rfl)

/-- The index a sum across the columns of a one-row array inserts: column `k`. -/
theorem lift_cols (h : Shape.Reduces S1x10 [1] S1) (u : Fin 1) (k : Fin 10) :
    h.lift (ix1 u) k = ix2 u k :=
  funext fun a => Fin.ext (by match a with | ⟨0, _⟩ => rfl | ⟨1, _⟩ => rfl)

/-- A sum down the 16384 rows, read at a column. -/
theorem sum_rows (src : FVec Ideal S16384x10 .f32) (h : Shape.Reduces S16384x10 [0] S10) (hφ : FKind.Formats .f32)
    (hacc : (0x00000000#32 : BitVec 32) = FKind.add.neutral .f32 hφ) (i : Fin 10) :
    multiReduction .add [0] S10 src 0x00000000#32 h hφ hacc (ix1 i) = ∑ k : Fin 16384, src (ix2 k i) :=
  (Ideal.multiReduction_add_single src 0x00000000#32 h hφ hacc (ix1 i)).trans
    (Finset.sum_congr rfl fun k _ => congrArg src (lift_rows h i k))

/-- A sum across the 10 columns of a one-row array. -/
theorem sum_cols (src : FVec Ideal S1x10 .f32) (h : Shape.Reduces S1x10 [1] S1) (hφ : FKind.Formats .f32)
    (hacc : (0x00000000#32 : BitVec 32) = FKind.add.neutral .f32 hφ) (u : Fin 1) :
    multiReduction .add [1] S1 src 0x00000000#32 h hφ hacc (ix1 u) = ∑ k : Fin 10, src (ix2 u k) :=
  (Ideal.multiReduction_add_single src 0x00000000#32 h hφ hacc (ix1 u)).trans
    (Finset.sum_congr rfl fun k _ => congrArg src (lift_cols h u k))

/-! ## The body's values at an entry -/

/-- The quantised entries `t = tern (h * scale + shift)` as a function of row and column. -/
def Tof (v0 : Vec Ideal S16384x10 .f32) (v2 v6 : Vec Ideal S1x10 .f32) : Fin 16384 → Fin 10 → EReal :=
  Cert.Spec.qaff (fun b i => v0 (ix2 b i)) (fun i => v2 (ix2 (0 : Fin 1) i)) (fun i => v6 (ix2 (0 : Fin 1) i))

/-- The body's quantised block at `(b, i)`. -/
theorem pay2_apply (v0 : Vec Ideal S16384x10 .f32) (v2 v6 : Vec Ideal S1x10 .f32) (b : Fin 16384) (i : Fin 10) :
    k2_pay2 (F := Ideal) v0 v2 v6 (ix2 b i) = Tof v0 v2 v6 b i := by
  unfold k2_pay2
  show min _ (max _ (Ideal.liftRound Ideal.roundHalfEven
    (shapeCast S16384x10 v0 _ (ix2 b i) * broadcastTo S16384x10 (shapeCast S1x10 v2 _) _ (ix2 b i)
      + broadcastTo S16384x10 (shapeCast S1x10 v6 _) _ (ix2 b i)))) = _
  rw [shapeCast_self, shapeCast_self, shapeCast_self, broadcastTo_1b_ab_apply, broadcastTo_1b_ab_apply]
  rfl

/-- The sum of all entries of a 16384 x 10 block as the body takes it: down the rows, then across the columns. -/
theorem total_apply (src : FVec Ideal S16384x10 .f32) (h0 : Shape.Reduces S16384x10 [0] S10)
    (h1 : Shape.Reduces S1x10 [1] S1) (hφ : FKind.Formats .f32)
    (hacc : (0x00000000#32 : BitVec 32) = FKind.add.neutral .f32 hφ)
    (hc0 : S10.ShapeCasts S1x10) (hc1 : S1.ShapeCasts S1x1) (u u' : Fin 1) :
    shapeCast S1x1 (multiReduction .add [1] S1
        (shapeCast S1x10 (multiReduction .add [0] S10 src 0x00000000#32 h0 hφ hacc) hc0) 0x00000000#32 h1 hφ hacc) hc1
      (ix2 u u') = ∑ i : Fin 10, ∑ b : Fin 16384, src (ix2 b i) :=
  (shapeCast_a_1a_apply _ hc1 u u').trans <|
    (sum_cols _ h1 hφ hacc u').trans <|
      Finset.sum_congr rfl fun i _ =>
        (shapeCast_a_1a_apply _ hc0 u' i).trans (sum_rows src h0 hφ hacc i)

/-- The body's mean of the quantised entries. -/
theorem pay3_apply (v0 : Vec Ideal S16384x10 .f32) (v2 v6 : Vec Ideal S1x10 .f32) (u u' : Fin 1) :
    k2_pay3 (F := Ideal) v0 v2 v6 (ix2 u u') = Cert.Spec.ktmean (Tof v0 v2 v6) := by
  unfold k2_pay3
  refine (congrArg (fun x => Ideal.div x (Ideal.ofBits .f32 0x48200000#32))
    ((total_apply (k2_pay2 (F := Ideal) v0 v2 v6) _ _ _ _ _ _ u u').trans ?_) : _)
  exact Finset.sum_congr rfl fun i _ => Finset.sum_congr rfl fun b _ => pay2_apply v0 v2 v6 b i

/-- The body's scalar `scale = w * rsqrt (var + eps)`. -/
theorem pay4_apply (v0 : Vec Ideal S16384x10 .f32) (v2 v6 : Vec Ideal S1x10 .f32) (v32 : Vec Ideal S1x1 .f32) (u u' : Fin 1) :
    k2_pay4 (F := Ideal) v0 v2 v6 v32 (ix2 u u')
      = Cert.Spec.ktscale (Tof v0 v2 v6) (v32 (ix2 (0 : Fin 1) (0 : Fin 1))) := by
  have hu : u = 0 := Subsingleton.elim _ _
  have hu' : u' = 0 := Subsingleton.elim _ _
  subst hu hu'
  unfold k2_pay4
  have hsq : (shapeCast S1x1 (multiReduction .add [1] S1
        (shapeCast S1x10 (multiReduction .add [0] S10 (mulf (k2_pay2 (F := Ideal) v0 v2 v6) (k2_pay2 (F := Ideal) v0 v2 v6))
          0x00000000#32 reduces_S16384x10_S10 (.inl rfl) rfl) shapeCasts_S10_S1x10) 0x00000000#32 reduces_S1x10_S1 (.inl rfl) rfl)
        shapeCasts_S1_S1x1 : FVec Ideal S1x1 .f32) (ix2 (0 : Fin 1) (0 : Fin 1)) = Cert.Spec.ktotsq (Tof v0 v2 v6) :=
    (total_apply _ _ _ _ _ _ _ 0 0).trans
      (Finset.sum_congr rfl fun i _ => Finset.sum_congr rfl fun b _ => by
        show k2_pay2 (F := Ideal) v0 v2 v6 (ix2 b i) * k2_pay2 (F := Ideal) v0 v2 v6 (ix2 b i) = _
        rw [pay2_apply])
  show shapeCast S1x1 v32 _ (ix2 (0 : Fin 1) (0 : Fin 1)) * Ideal.rsqrt (Ideal.div (_ - Ideal.ofBits .f32 0x48200000#32 * k2_pay3 (F := Ideal) v0 v2 v6 (ix2 (0 : Fin 1) (0 : Fin 1)) * k2_pay3 (F := Ideal) v0 v2 v6 (ix2 (0 : Fin 1) (0 : Fin 1))) (Ideal.ofBits .f32 0x481FFFC0#32) + Ideal.ofBits .f32 0x38D1B717#32) = _
  rw [hsq, pay3_apply, shapeCast_self]
  rfl

/-- The stored value at `(b, i)`: `t * scale + (b - mean * scale)`. -/
theorem pay1_apply (v14 : FVec Ideal S16384x10 .f32) (v25 v37 : FVec Ideal S1x1 .f32) (v38 : Vec Ideal S1x1 .f32)
    (b : Fin 16384) (i : Fin 10) :
    k2_pay1 (F := Ideal) v14 v25 v37 v38 (ix2 b i)
      = v14 (ix2 b i) * v37 (ix2 (0 : Fin 1) (0 : Fin 1))
        + (v38 (ix2 (0 : Fin 1) (0 : Fin 1)) - v25 (ix2 (0 : Fin 1) (0 : Fin 1)) * v37 (ix2 (0 : Fin 1) (0 : Fin 1))) := by
  unfold k2_pay1
  show v14 (ix2 b i) * broadcastTo S16384x10 v37 _ (ix2 b i) + broadcastTo S16384x10 (subf (shapeCast S1x1 v38 _) (mulf v25 v37)) _ (ix2 b i) = _
  rw [broadcastTo_11_ab_apply, broadcastTo_11_ab_apply, shapeCast_self]
  rfl

/-- The whole store at `(b, i)` is the tensor normalisation, in the kernel's arrangement, of the quantised entries. -/
theorem store_apply (v0 : Vec Ideal S16384x10 .f32) (v2 v6 : Vec Ideal S1x10 .f32) (v32 v38 : Vec Ideal S1x1 .f32)
    (b : Fin 16384) (i : Fin 10) :
    k2_pay1 (F := Ideal) (k2_pay2 v0 v2 v6) (k2_pay3 v0 v2 v6) (k2_pay4 v0 v2 v6 v32) v38 (ix2 b i)
      = Cert.Spec.ktn (Tof v0 v2 v6) (v32 (ix2 (0 : Fin 1) (0 : Fin 1))) (v38 (ix2 (0 : Fin 1) (0 : Fin 1))) b i := by
  rw [pay1_apply, pay2_apply, pay3_apply, pay4_apply]
  rfl

end Cert.KerSide.R2

end
-- ==== Proof.Region2.lean ====
/-
  What the third kernel leaves in its output array.

  The third kernel runs at ONE grid point and every window is its whole array, so each input block is the array the
  region finds, and the one block written back is the whole output. The output therefore holds, entry by entry, the
  body's one store: the whole-tensor normalisation, in the kernel's arrangement, of the quantised affine image of the
  incoming activations.
-/
import proofs.«150640_j7971459301379_1_alg».proof.Proof.Gen.KernelIdeal.Frame
import proofs.«150640_j7971459301379_1_alg».proof.Proof.Spec
import proofs.«150640_j7971459301379_1_alg».proof.Proof.Region2Pay
import Idealize.ShloMosaic.Lib.Pipeline.Value
import Idealize.ShloMosaic.Lib.ValueIdx

noncomputable section

namespace Cert.KerSide.R2

open Cert.KernelIdeal Cert.KernelIdeal.Gen Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

/-! ## The five inputs, by coordinates -/

/-- the incoming activations -/
def Hin (b : Fin 16384) (i : Fin 10) : EReal := (V c main_v17_0 : S16384x10.Idx → EReal) (ix2 b i)
/-- the per-feature scale of the second batch normalisation -/
def sc (i : Fin 10) : EReal := (V c main_v28 : S1x10.Idx → EReal) (ix2 (0 : Fin 1) i)
/-- the per-feature shift of the second batch normalisation -/
def sh (i : Fin 10) : EReal := (V c main_v31 : S1x10.Idx → EReal) (ix2 (0 : Fin 1) i)
/-- the tensor normalisation's weight -/
def tw : EReal := (V c main_v32 : S1x1.Idx → EReal) (ix2 (0 : Fin 1) (0 : Fin 1))
/-- the tensor normalisation's bias -/
def tb : EReal := (V c main_v33 : S1x1.Idx → EReal) (ix2 (0 : Fin 1) (0 : Fin 1))

/-- The output array as one function of its index. -/
def G : S16384x10.Idx → EReal := fun j =>
  Cert.Spec.ktn (Cert.Spec.qaff (Hin V c) (sc V c) (sh V c)) (tw V c) (tb V c) (j 0) (j 1)

theorem G_ix2 (b : Fin 16384) (i : Fin 10) :
    G V c (ix2 b i) = Cert.Spec.ktn (Cert.Spec.qaff (Hin V c) (sc V c) (sh V c)) (tw V c) (tb V c) b i := rfl

/-! ## Blocks are whole arrays -/

theorem hz : (![0, 0] : Fin 2 → Nat) = fun _ => 0 := funext fun a => by fin_cases a <;> rfl

/-- Every window's block index is zero on both axes, at every point of the one-point grid. -/
theorem idx_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

theorem blk0_apply (t : Fin cfg2.N) (b : Fin 16384) (i : Fin 10) :
    (iblk2 V c 0 t : Vec Ideal S16384x10 .f32) (ix2 b i) = Hin V c b i := by
  obtain ⟨e0, e1, -⟩ := idx_zero t
  unfold iblk2 Hin
  rw [View.read_apply]
  show (V c main_v17_0 : S16384x10.Idx → EReal) (((cfg2.win 0).blk t).view.emb (ix2 b i)) = _
  refine congrArg _ (funext fun a => Fin.ext ?_)
  match a with
  | ⟨0, _⟩ => show win2_0.index t (0 : Fin 2) * 16384 + 1 * b.val = b.val; omega
  | ⟨1, _⟩ => show win2_0.index t (1 : Fin 2) * 10 + 1 * i.val = i.val; omega

theorem blk1_apply (t : Fin cfg2.N) (u : Fin 1) (i : Fin 10) :
    (iblk2 V c 1 t : Vec Ideal S1x10 .f32) (ix2 u i) = sc V c i := by
  obtain ⟨-, -, e0, e1, -⟩ := idx_zero t
  unfold iblk2 sc
  rw [View.read_apply]
  show (V c main_v28 : S1x10.Idx → EReal) (((cfg2.win 1).blk t).view.emb (ix2 u i)) = _
  refine congrArg _ (funext fun a => Fin.ext ?_)
  match a with
  | ⟨0, _⟩ => show win2_1.index t (0 : Fin 2) * 1 + 1 * u.val = 0; omega
  | ⟨1, _⟩ => show win2_1.index t (1 : Fin 2) * 10 + 1 * i.val = i.val; omega

theorem blk2_apply (t : Fin cfg2.N) (u : Fin 1) (i : Fin 10) :
    (iblk2 V c 2 t : Vec Ideal S1x10 .f32) (ix2 u i) = sh V c i := by
  obtain ⟨-, -, -, -, e0, e1, -⟩ := idx_zero t
  unfold iblk2 sh
  rw [View.read_apply]
  show (V c main_v31 : S1x10.Idx → EReal) (((cfg2.win 2).blk t).view.emb (ix2 u i)) = _
  refine congrArg _ (funext fun a => Fin.ext ?_)
  match a with
  | ⟨0, _⟩ => show win2_2.index t (0 : Fin 2) * 1 + 1 * u.val = 0; omega
  | ⟨1, _⟩ => show win2_2.index t (1 : Fin 2) * 10 + 1 * i.val = i.val; omega

theorem blk3_apply (t : Fin cfg2.N) (u u' : Fin 1) :
    (iblk2 V c 3 t : Vec Ideal S1x1 .f32) (ix2 u u') = tw V c := by
  obtain ⟨-, -, -, -, -, -, e0, e1, -⟩ := idx_zero t
  unfold iblk2 tw
  rw [View.read_apply]
  show (V c main_v32 : S1x1.Idx → EReal) (((cfg2.win 3).blk t).view.emb (ix2 u u')) = _
  refine congrArg _ (funext fun a => Fin.ext ?_)
  match a with
  | ⟨0, _⟩ => show win2_3.index t (0 : Fin 2) * 1 + 1 * u.val = 0; omega
  | ⟨1, _⟩ => show win2_3.index t (1 : Fin 2) * 1 + 1 * u'.val = 0; omega

theorem blk4_apply (t : Fin cfg2.N) (u u' : Fin 1) :
    (iblk2 V c 4 t : Vec Ideal S1x1 .f32) (ix2 u u') = tb V c := by
  obtain ⟨-, -, -, -, -, -, -, -, e0, e1, -⟩ := idx_zero t
  unfold iblk2 tb
  rw [View.read_apply]
  show (V c main_v33 : S1x1.Idx → EReal) (((cfg2.win 4).blk t).view.emb (ix2 u u')) = _
  refine congrArg _ (funext fun a => Fin.ext ?_)
  match a with
  | ⟨0, _⟩ => show win2_4.index t (0 : Fin 2) * 1 + 1 * u.val = 0; omega
  | ⟨1, _⟩ => show win2_4.index t (1 : Fin 2) * 1 + 1 * u'.val = 0; omega

/-- The quantised entries of the input blocks are those of the arrays. -/
theorem Tof_blk (t : Fin cfg2.N) :
    Tof (iblk2 V c 0 t) (iblk2 V c 1 t) (iblk2 V c 2 t) = Cert.Spec.qaff (Hin V c) (sc V c) (sh V c) := by
  unfold Tof
  congr 1
  · funext b i; exact blk0_apply V c t b i
  · funext i; exact blk1_apply V c t 0 i
  · funext i; exact blk2_apply V c t 0 i

/-! ## The block written back, the cover, the array -/

/-- What the one point writes back is the output function read through the point's block. -/
theorem flushed_eq (t : Fin cfg2.N) :
    (dat2 (F := Ideal) V c).flushed 5 t = ((cfg2.win 5).blk t).view.read (Elt Ideal) (G V c) := by
  show (cfg2.win 5).cut (grid2.coords t) ((dat2 (F := Ideal) V c).after 5 t) = _
  rw [after2_5]
  unfold out2_5
  rw [View.canon_unit_zero hz]
  simp only [View.ld_unit_zero (S := S16384x10) hz, View.ld_unit_zero (S := S1x10) hz, View.ld_unit_zero (S := S1x1) hz]
  obtain ⟨-, -, -, -, -, -, -, -, -, -, e0, e1⟩ := idx_zero t
  funext j
  obtain ⟨b, i, rfl⟩ : ∃ (b : Fin 16384) (i : Fin 10), j = ix2 b i := ⟨j 0, j 1, eq_ix2 j⟩
  rw [View.read_apply]
  have hemb : ((cfg2.win 5).blk t).view.emb (ix2 b i) = ix2 b i := by
    funext a; apply Fin.ext
    match a with
    | ⟨0, _⟩ => show win2_5.index t (0 : Fin 2) * 16384 + 1 * b.val = b.val; omega
    | ⟨1, _⟩ => show win2_5.index t (1 : Fin 2) * 10 + 1 * i.val = i.val; omega
  rw [hemb, G_ix2]
  refine (store_apply (iblk2 V c 0 t) (iblk2 V c 1 t) (iblk2 V c 2 t) (iblk2 V c 3 t) (iblk2 V c 4 t) b i).trans ?_
  rw [Tof_blk V c t, blk3_apply V c t 0 0, blk4_apply V c t 0 0]
  rfl

/-- The one point's block is the whole output array. -/
theorem cover (i : S16384x10.Idx) :
    ∃ t : Fin cfg2.N, (cfg2.win 5).flush t = true ∧ i ∈ ((cfg2.win 5).blk t).view.set := by
  obtain ⟨-, -, -, -, -, -, -, -, -, -, e0, e1⟩ := idx_zero t2_0
  refine ⟨t2_0, by decide +kernel, ?_⟩
  show i ∈ ((View.whole main_v34).slice (win2_5.rect t2_0)).set
  rw [View.set_slice_whole, Rect.mem_set_unit]
  intro a
  have h0 : (i 0).val < 16384 := (i 0).isLt
  have h1 : (i 1).val < 10 := (i 1).isLt
  match a with
  | ⟨0, _⟩ => show win2_5.index t2_0 (0 : Fin 2) * 16384 ≤ (i 0).val ∧ (i 0).val < win2_5.index t2_0 (0 : Fin 2) * 16384 + 16384; omega
  | ⟨1, _⟩ => show win2_5.index t2_0 (1 : Fin 2) * 10 ≤ (i 1).val ∧ (i 1).val < win2_5.index t2_0 (1 : Fin 2) * 10 + 10; omega

/-- The output array after the region. -/
theorem arr5_eq : (dat2 (F := Ideal) V c).arrAt 5 cfg2.N = G V c :=
  (dat2 (F := Ideal) V c).arrAt_eq_of_cover 5 (G V c) (fun t _ => flushed_eq V c t) (cover)

/-- Entry `(b, i)` of the output array after the region: the whole-tensor normalisation, in the kernel's arrangement,
    of the quantised affine image of the incoming activations. -/
theorem arr5 (b : Fin 16384) (i : Fin 10) :
    (dat2 (F := Ideal) V c).arrAt 5 cfg2.N (ix2 b i)
      = Cert.Spec.ktn (Cert.Spec.qaff (Hin V c) (sc V c) (sh V c)) (tw V c) (tb V c) b i := by
  rw [arr5_eq]; rfl

end Cert.KerSide.R2

end
-- ==== Proof.KerValue.lean ====
/-
  The idealized kernel program's result as one function of its argument arrays.

  The result buffer ends at what the third launch writes back. Reading each launch's outputs through the host
  arithmetic that feeds the next launch, entry (b, i) of the result is the network as the kernel arranges it, applied to
  the argument arrays read by coordinates (the weight matrices through the transposes the program starts with).
-/
import proofs.«150640_j7971459301379_1_alg».proof.Proof.HostStretch
import proofs.«150640_j7971459301379_1_alg».proof.Proof.Region0
import proofs.«150640_j7971459301379_1_alg».proof.Proof.Region1
import proofs.«150640_j7971459301379_1_alg».proof.Proof.Region2

set_option maxRecDepth 16384

noncomputable section

namespace Cert.KerSide

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The argument arrays by coordinates -/

def aX (b : Fin 16384) (k : Fin 784) : EReal := (m ((c : Thread nD τ).loc main_arg0) : FVec Ideal S16384x784 .f32) (ix2 b k)
def aW1 (j : Fin 1024) (k : Fin 784) : EReal := (m ((c : Thread nD τ).loc main_arg1) : FVec Ideal S1024x784 .f32) (ix2 j k)
def aG1 (j : Fin 1024) : EReal := (m ((c : Thread nD τ).loc main_arg2) : FVec Ideal S1024 .f32) (ix1 j)
def aB1 (j : Fin 1024) : EReal := (m ((c : Thread nD τ).loc main_arg3) : FVec Ideal S1024 .f32) (ix1 j)
def aW2 (i : Fin 10) (j : Fin 1024) : EReal := (m ((c : Thread nD τ).loc main_arg4) : FVec Ideal S10x1024 .f32) (ix2 i j)
def aG2 (i : Fin 10) : EReal := (m ((c : Thread nD τ).loc main_arg5) : FVec Ideal S10 .f32) (ix1 i)
def aB2 (i : Fin 10) : EReal := (m ((c : Thread nD τ).loc main_arg6) : FVec Ideal S10 .f32) (ix1 i)
def aTW : EReal := (m ((c : Thread nD τ).loc main_arg7) : FVec Ideal S1 .f32) (ix1 (0 : Fin 1))
def aTB : EReal := (m ((c : Thread nD τ).loc main_arg8) : FVec Ideal S1 .f32) (ix1 (0 : Fin 1))

/-! ## The first launch -/

theorem e_X : R0.X (V1 m ρ) c = aX m c := by
  funext b k; unfold R0.X aX; rw [V1_arg0]

theorem e_Wt : R0.Wt (V1 m ρ) c = aW1 m c := by
  funext j k; unfold R0.Wt aW1; exact V1_v0 m ρ c k j

theorem e_H : R0.H (V1 m ρ) c = Spec.h1 (aX m c) (aW1 m c) := by
  unfold R0.H Spec.h1; rw [e_X, e_Wt]

/-! ## The second launch -/

theorem e_Hin1 : R1.Hin (V3 m ρ) c = Spec.h1 (aX m c) (aW1 m c) := by
  funext b j; unfold R1.Hin; rw [V3_v2_0, R0.arr2 (V1 m ρ) c b j, e_H]

theorem e_sc1 : R1.sc (V3 m ρ) c = Spec.kscale (Spec.h1 (aX m c) (aW1 m c)) (aG1 m c) := by
  funext j; unfold R1.sc
  rw [V3_v13, bnScale_apply, R0.arr3 (V1 m ρ) c j, R0.arr4 (V1 m ρ) c j, e_H]
  rfl

theorem e_sh1 : R1.sh (V3 m ρ) c = Spec.kshift (Spec.h1 (aX m c) (aW1 m c)) (aG1 m c) (aB1 m c) := by
  funext j; unfold R1.sh
  rw [V3_v16, bnShift_apply, bnScale_apply, R0.arr3 (V1 m ρ) c j, R0.arr4 (V1 m ρ) c j, e_H]
  rfl

theorem e_W2t : R1.W2t (V3 m ρ) c = aW2 m c := by
  funext i j; unfold R1.W2t aW2; exact V3_v1_apply m ρ c j i

theorem e_H2 : R1.H2 (V3 m ρ) c
    = Spec.mm (Spec.kbn (Spec.h1 (aX m c) (aW1 m c)) (aG1 m c) (aB1 m c)) (fun i j => Spec.tern (aW2 m c i j)) := by
  unfold R1.H2 Spec.kbn; rw [e_Hin1, e_sc1, e_sh1, e_W2t]

/-! ## The third launch -/

theorem e_Hin2 : R2.Hin (V5 m ρ) c = R1.H2 (V3 m ρ) c := by
  funext b i; unfold R2.Hin; rw [V5_v17_0, R1.arr4 (V3 m ρ) c b i]

theorem e_sc2 : R2.sc (V5 m ρ) c = Spec.kscale (R1.H2 (V3 m ρ) c) (aG2 m c) := by
  funext i; unfold R2.sc
  rw [V5_v28, bnScale_apply, R1.arr5 (V3 m ρ) c i, R1.arr6 (V3 m ρ) c i]
  rfl

theorem e_sh2 : R2.sh (V5 m ρ) c = Spec.kshift (R1.H2 (V3 m ρ) c) (aG2 m c) (aB2 m c) := by
  funext i; unfold R2.sh
  rw [V5_v31, bnShift_apply, bnScale_apply, R1.arr5 (V3 m ρ) c i, R1.arr6 (V3 m ρ) c i]
  rfl

theorem e_tw : R2.tw (V5 m ρ) c = aTW m c := by unfold R2.tw aTW; exact V5_v32 m ρ c
theorem e_tb : R2.tb (V5 m ρ) c = aTB m c := by unfold R2.tb aTB; exact V5_v33 m ρ c

/-- Entry (b, i) of the result buffer's final contents is the network, in the kernel's arrangement, of the arguments. -/
theorem kerVal (b : Fin 16384) (i : Fin 10) :
    (W6 m ρ c (Proc.devRef .tc main_v34) : FVec Ideal S16384x10 .f32) (ix2 b i)
      = Spec.kerOut (aX m c) (aW1 m c) (aG1 m c) (aB1 m c) (aW2 m c) (aG2 m c) (aB2 m c) (aTW m c) (aTB m c) b i := by
  rw [show W6 m ρ c (Proc.devRef .tc main_v34) = (dat2 (V5 m ρ) c).arrAt 5 cfg2.N from W6_arr m ρ c 5]
  rw [R2.arr5 (V5 m ρ) c b i, e_Hin2, e_sc2, e_sh2, e_tw, e_tb, e_H2]
  rfl

end Cert.KerSide

end
-- ==== Proof.RefOps.lean ====
/-
  The reference program as one straight line of operations.

  The reference's entry function is a sequence of tensor operations in which the rounding, the clamp, the variance and
  the selection are functions of their own, called where they are used. A call executes the callee's body on the
  operands, so the entry function is one line: each call replaced by the callee's operations over the buffers that
  call names (the selection inside each variance likewise). `ops` is that line, each operation with the pure function
  the program gives it: 181 operations, the last of which writes the result.
-/
import proofs.«150640_j7971459301379_1_alg».proof.Defs
import proofs.«150640_j7971459301379_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The entry function's first 60 statements as operations, the calls unfolded: the input's rescaling and quantiser, the
    first weights' quantiser, the first product, its batch normalisation and quantiser, the second weights'
    quantiser, the second product, its mean and variance. -/
abbrev ops0 : List (HloOp τ sig (Elt F)) :=
  [ StableHlo.nullary main_cst (constant S_ .f32 0x40000000#32),
    StableHlo.unary main_cst main_v0 (broadcastInDim S16384x784 ![] bcast_S_S16384x784 : (⟨S_, .f32⟩ : BufTy).Contents (Elt F) → (⟨S16384x784, .f32⟩ : BufTy).Contents (Elt F)),
    StableHlo.binary main_v0 main_arg0 main_v1 (mulf : (⟨S16384x784, .f32⟩ : BufTy).Contents (Elt F) → (⟨S16384x784, .f32⟩ : BufTy).Contents (Elt F) → (⟨S16384x784, .f32⟩ : BufTy).Contents (Elt F)),
    StableHlo.nullary main_cst_0 (constant S_ .f32 0x3F800000#32),
    StableHlo.unary main_cst_0 main_v2 (broadcastInDim S16384x784 ![] bcast_S_S16384x784 : (⟨S_, .f32⟩ : BufTy).Contents (Elt F) → (⟨S16384x784, .f32⟩ : BufTy).Contents (Elt F)),
    StableHlo.binary main_v1 main_v2 main_v3 (subf : (⟨S16384x784, .f32⟩ : BufTy).Contents (Elt F) → (⟨S16384x784, .f32⟩ : BufTy).Contents (Elt F) → (⟨S16384x784, .f32⟩ : BufTy).Contents (Elt F)),
    StableHlo.TRef.unary (.of main_v3 : StableHlo.TRef sig ⟨S16384x784, .f32⟩) main_call0.v0 Host.roundeven,
    StableHlo.nullary main_cst_1 (constant S_ .f32 0xBF800000#32),
    StableHlo.nullary main_cst_2 (constant S_ .f32 0x3F800000#32),
    StableHlo.TRef.unary (.of main_cst_1 : StableHlo.TRef sig ⟨S_, .f32⟩) main_call1.v0 id,
    StableHlo.TRef.unary main_call1.v0 main_call1.v1 (broadcastInDim S16384x784 ![] bcast_S_S16384x784),
    StableHlo.TRef.binary main_call1.v1 (.of main_v4 : StableHlo.TRef sig ⟨S16384x784, .f32⟩) main_call1.v2 maximumf,
    StableHlo.TRef.unary (.of main_cst_2 : StableHlo.TRef sig ⟨S_, .f32⟩) main_call1.v3 id,
    StableHlo.TRef.unary main_call1.v3 main_call1.v4 (broadcastInDim S16384x784 ![] bcast_S_S16384x784),
    StableHlo.TRef.binary main_call1.v4 main_call1.v2 main_call1.v5 minimumf,
    StableHlo.TRef.unary (.of main_arg1 : StableHlo.TRef sig ⟨S1024x784, .f32⟩) main_call2.v0 Host.roundeven,
    StableHlo.nullary main_cst_3 (constant S_ .f32 0xBF800000#32),
    StableHlo.nullary main_cst_4 (constant S_ .f32 0x3F800000#32),
    StableHlo.TRef.unary (.of main_cst_3 : StableHlo.TRef sig ⟨S_, .f32⟩) main_call3.v0 id,
    StableHlo.TRef.unary main_call3.v0 main_call3.v1 (broadcastInDim S1024x784 ![] bcast_S_S1024x784),
    StableHlo.TRef.binary main_call3.v1 (.of main_v6 : StableHlo.TRef sig ⟨S1024x784, .f32⟩) main_call3.v2 maximumf,
    StableHlo.TRef.unary (.of main_cst_4 : StableHlo.TRef sig ⟨S_, .f32⟩) main_call3.v3 id,
    StableHlo.TRef.unary main_call3.v3 main_call3.v4 (broadcastInDim S1024x784 ![] bcast_S_S1024x784),
    StableHlo.TRef.binary main_call3.v4 main_call3.v2 main_call3.v5 minimumf,
    StableHlo.unary main_v7 main_v8 ((transpose S784x1024 [1, 0] · transposes_S1024x784_S784x1024_1_0) : (⟨S1024x784, .f32⟩ : BufTy).Contents (Elt F) → (⟨S784x1024, .f32⟩ : BufTy).Contents (Elt F)),
    StableHlo.binary main_v5 main_v8 main_v9 ((fun l r => Host.dotGeneral dot_S16384x784_S784x1024_S16384x1024_1_0_0_1_n_n none l r) : (⟨S16384x784, .f32⟩ : BufTy).Contents (Elt F) → (⟨S784x1024, .f32⟩ : BufTy).Contents (Elt F) → (⟨S16384x1024, .f32⟩ : BufTy).Contents (Elt F)),
    StableHlo.nullary main_cst_5 (constant S_ .f32 0x00000000#32),
    StableHlo.binary main_v9 main_cst_5 main_v10 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_6 (constant S_ .f32 0x46800000#32),
    StableHlo.unary main_cst_6 main_v11 (broadcastInDim S1024 ![] bcast_S_S1024 : (⟨S_, .f32⟩ : BufTy).Contents (Elt F) → (⟨S1024, .f32⟩ : BufTy).Contents (Elt F)),
    StableHlo.binary main_v10 main_v11 main_v12 (Host.divf : (⟨S1024, .f32⟩ : BufTy).Contents (Elt F) → (⟨S1024, .f32⟩ : BufTy).Contents (Elt F) → (⟨S1024, .f32⟩ : BufTy).Contents (Elt F)),
    StableHlo.nullary main_c (constantI S_ 32 0#32),
    StableHlo.TRef.nullary main_call4.cst (constant S_ .f32 0x00000000#32),
    StableHlo.TRef.binary (.of main_v9 : StableHlo.TRef sig ⟨S16384x1024, .f32⟩) main_call4.cst main_call4.v0 (fun x v => Host.reduceAdd x v reducesTo_S16384x1024_S1024_d0 h_S_),
    StableHlo.TRef.unary main_call4.v0 main_call4.v1 (broadcastInDim S1x1024 ![1] bcast_S1024_S1x1024_1),
    StableHlo.TRef.nullary main_call4.cst_0 (constant S_ .f32 0x46800000#32),
    StableHlo.TRef.unary main_call4.cst_0 main_call4.v2 (broadcastInDim S1x1024 ![] bcast_S_S1x1024),
    StableHlo.TRef.binary main_call4.v1 main_call4.v2 main_call4.v3 Host.divf,
    StableHlo.TRef.unary main_call4.v3 main_call4.v4 (broadcastInDim S16384x1024 ![0, 1] bcast_S1x1024_S16384x1024_0_1),
    StableHlo.TRef.binary (.of main_v9 : StableHlo.TRef sig ⟨S16384x1024, .f32⟩) main_call4.v4 main_call4.v5 subf,
    StableHlo.TRef.binary main_call4.v5 main_call4.v5 main_call4.v6 mulf,
    StableHlo.TRef.unary (.of main_c : StableHlo.TRef sig ⟨S_, .i32⟩) main_call4.v7 (sitofp .f32),
    StableHlo.TRef.nullary main_call4.cst_1 (constant S_ .f32 0x46800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S16384x1024_S1024_d0 h_S_),
    StableHlo.TRef.unary main_call4.v8 main_call4.v10 (broadcastInDim S1024 ![] bcast_S_S1024),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1024 ![] bcast_S_S1024),
    StableHlo.TRef.ternary main_call4.v12 main_call4.v11 main_call4.call0.v1 main_call4.call0.v2 (fun p a b => select (broadcastInDim S1024 ![] bcast_S_S1024 p) a b),
    StableHlo.unary main_v12 main_v14 (broadcastInDim S1x1024 ![1] bcast_S1024_S1x1024_1 : (⟨S1024, .f32⟩ : BufTy).Contents (Elt F) → (⟨S1x1024, .f32⟩ : BufTy).Contents (Elt F)),
    StableHlo.unary main_v14 main_v15 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v9 main_v15 main_v16 (subf : (⟨S16384x1024, .f32⟩ : BufTy).Contents (Elt F) → (⟨S16384x1024, .f32⟩ : BufTy).Contents (Elt F) → (⟨S16384x1024, .f32⟩ : BufTy).Contents (Elt F)),
    StableHlo.nullary main_cst_7 (constant S_ .f32 0x3727C5AC#32),
    StableHlo.unary main_cst_7 main_v17 (broadcastInDim S1024 ![] bcast_S_S1024 : (⟨S_, .f32⟩ : BufTy).Contents (Elt F) → (⟨S1024, .f32⟩ : BufTy).Contents (Elt F)),
    StableHlo.binary main_v13 main_v17 main_v18 (addf : (⟨S1024, .f32⟩ : BufTy).Contents (Elt F) → (⟨S1024, .f32⟩ : BufTy).Contents (Elt F) → (⟨S1024, .f32⟩ : BufTy).Contents (Elt F)),
    StableHlo.unary main_v18 main_v19 (Host.rsqrt : (⟨S1024, .f32⟩ : BufTy).Contents (Elt F) → (⟨S1024, .f32⟩ : BufTy).Contents (Elt F)),
    StableHlo.unary main_v19 main_v20 (broadcastInDim S1x1024 ![1] bcast_S1024_S1x1024_1 : (⟨S1024, .f32⟩ : BufTy).Contents (Elt F) → (⟨S1x1024, .f32⟩ : BufTy).Contents (Elt F)),
    StableHlo.unary main_v20 main_v21 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v16 main_v21 main_v22 (mulf : (⟨S16384x1024, .f32⟩ : BufTy).Contents (Elt F) → (⟨S16384x1024, .f32⟩ : BufTy).Contents (Elt F) → (⟨S16384x1024, .f32⟩ : BufTy).Contents (Elt F)),
    StableHlo.unary main_arg2 main_v23 (broadcastInDim S1x1024 ![1] bcast_S1024_S1x1024_1 : (⟨S1024, .f32⟩ : BufTy).Contents (Elt F) → (⟨S1x1024, .f32⟩ : BufTy).Contents (Elt F)),
    StableHlo.unary main_v23 main_v24 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v22 main_v24 main_v25 (mulf : (⟨S16384x1024, .f32⟩ : BufTy).Contents (Elt F) → (⟨S16384x1024, .f32⟩ : BufTy).Contents (Elt F) → (⟨S16384x1024, .f32⟩ : BufTy).Contents (Elt F)),
    StableHlo.unary main_arg3 main_v26 (broadcastInDim S1x1024 ![1] bcast_S1024_S1x1024_1 : (⟨S1024, .f32⟩ : BufTy).Contents (Elt F) → (⟨S1x1024, .f32⟩ : BufTy).Contents (Elt F)),
    StableHlo.unary main_v26 main_v27 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v25 main_v27 main_v28 (addf : (⟨S16384x1024, .f32⟩ : BufTy).Contents (Elt F) → (⟨S16384x1024, .f32⟩ : BufTy).Contents (Elt F) → (⟨S16384x1024, .f32⟩ : BufTy).Contents (Elt F)),
    StableHlo.TRef.unary (.of main_v28 : StableHlo.TRef sig ⟨S16384x1024, .f32⟩) main_call5.v0 Host.roundeven,
    StableHlo.nullary main_cst_8 (constant S_ .f32 0xBF800000#32),
    StableHlo.nullary main_cst_9 (constant S_ .f32 0x3F800000#32),
    StableHlo.TRef.unary (.of main_cst_8 : StableHlo.TRef sig ⟨S_, .f32⟩) main_call6.v0 id,
    StableHlo.TRef.unary main_call6.v0 main_call6.v1 (broadcastInDim S16384x1024 ![] bcast_S_S16384x1024),
    StableHlo.TRef.binary main_call6.v1 (.of main_v29 : StableHlo.TRef sig ⟨S16384x1024, .f32⟩) main_call6.v2 maximumf,
    StableHlo.TRef.unary (.of main_cst_9 : StableHlo.TRef sig ⟨S_, .f32⟩) main_call6.v3 id,
    StableHlo.TRef.unary main_call6.v3 main_call6.v4 (broadcastInDim S16384x1024 ![] bcast_S_S16384x1024),
    StableHlo.TRef.binary main_call6.v4 main_call6.v2 main_call6.v5 minimumf,
    StableHlo.TRef.unary (.of main_arg4 : StableHlo.TRef sig ⟨S10x1024, .f32⟩) main_call7.v0 Host.roundeven,
    StableHlo.nullary main_cst_10 (constant S_ .f32 0xBF800000#32),
    StableHlo.nullary main_cst_11 (constant S_ .f32 0x3F800000#32),
    StableHlo.TRef.unary (.of main_cst_10 : StableHlo.TRef sig ⟨S_, .f32⟩) main_call8.v0 id,
    StableHlo.TRef.unary main_call8.v0 main_call8.v1 (broadcastInDim S10x1024 ![] bcast_S_S10x1024),
    StableHlo.TRef.binary main_call8.v1 (.of main_v31 : StableHlo.TRef sig ⟨S10x1024, .f32⟩) main_call8.v2 maximumf,
    StableHlo.TRef.unary (.of main_cst_11 : StableHlo.TRef sig ⟨S_, .f32⟩) main_call8.v3 id,
    StableHlo.TRef.unary main_call8.v3 main_call8.v4 (broadcastInDim S10x1024 ![] bcast_S_S10x1024),
    StableHlo.TRef.binary main_call8.v4 main_call8.v2 main_call8.v5 minimumf,
    StableHlo.unary main_v32 main_v33 ((transpose S1024x10 [1, 0] · transposes_S10x1024_S1024x10_1_0) : (⟨S10x1024, .f32⟩ : BufTy).Contents (Elt F) → (⟨S1024x10, .f32⟩ : BufTy).Contents (Elt F)),
    StableHlo.binary main_v30 main_v33 main_v34 ((fun l r => Host.dotGeneral dot_S16384x1024_S1024x10_S16384x10_1_0_0_1_n_n none l r) : (⟨S16384x1024, .f32⟩ : BufTy).Contents (Elt F) → (⟨S1024x10, .f32⟩ : BufTy).Contents (Elt F) → (⟨S16384x10, .f32⟩ : BufTy).Contents (Elt F)),
    StableHlo.nullary main_cst_12 (constant S_ .f32 0x00000000#32),
    StableHlo.binary main_v34 main_cst_12 main_v35 ((fun x v => Host.reduceAdd x v reducesTo_S16384x10_S10_d0 h_S_) : (⟨S16384x10, .f32⟩ : BufTy).Contents (Elt F) → (⟨S_, .f32⟩ : BufTy).Contents (Elt F) → (⟨S10, .f32⟩ : BufTy).Contents (Elt F)),
    StableHlo.nullary main_cst_13 (constant S_ .f32 0x46800000#32),
    StableHlo.unary main_cst_13 main_v36 (broadcastInDim S10 ![] bcast_S_S10 : (⟨S_, .f32⟩ : BufTy).Contents (Elt F) → (⟨S10, .f32⟩ : BufTy).Contents (Elt F)),
    StableHlo.binary main_v35 main_v36 main_v37 (Host.divf : (⟨S10, .f32⟩ : BufTy).Contents (Elt F) → (⟨S10, .f32⟩ : BufTy).Contents (Elt F) → (⟨S10, .f32⟩ : BufTy).Contents (Elt F)),
    StableHlo.nullary main_c_14 (constantI S_ 32 0#32),
    StableHlo.TRef.nullary main_call9.cst (constant S_ .f32 0x00000000#32),
    StableHlo.TRef.binary (.of main_v34 : StableHlo.TRef sig ⟨S16384x10, .f32⟩) main_call9.cst main_call9.v0 (fun x v => Host.reduceAdd x v reducesTo_S16384x10_S10_d0 h_S_),
    StableHlo.TRef.unary main_call9.v0 main_call9.v1 (broadcastInDim S1x10 ![1] bcast_S10_S1x10_1),
    StableHlo.TRef.nullary main_call9.cst_0 (constant S_ .f32 0x46800000#32),
    StableHlo.TRef.unary main_call9.cst_0 main_call9.v2 (broadcastInDim S1x10 ![] bcast_S_S1x10),
    StableHlo.TRef.binary main_call9.v1 main_call9.v2 main_call9.v3 Host.divf,
    StableHlo.TRef.unary main_call9.v3 main_call9.v4 (broadcastInDim S16384x10 ![0, 1] bcast_S1x10_S16384x10_0_1),
    StableHlo.TRef.binary (.of main_v34 : StableHlo.TRef sig ⟨S16384x10, .f32⟩) main_call9.v4 main_call9.v5 subf,
    StableHlo.TRef.binary main_call9.v5 main_call9.v5 main_call9.v6 mulf,
    StableHlo.TRef.unary (.of main_c_14 : StableHlo.TRef sig ⟨S_, .i32⟩) main_call9.v7 (sitofp .f32),
    StableHlo.TRef.nullary main_call9.cst_1 (constant S_ .f32 0x46800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S16384x10_S10_d0 h_S_),
    StableHlo.TRef.unary main_call9.v8 main_call9.v10 (broadcastInDim S10 ![] bcast_S_S10),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S10 ![] bcast_S_S10),
    StableHlo.TRef.ternary main_call9.v12 main_call9.v11 main_call9.call0.v1 main_call9.call0.v2 (fun p a b => select (broadcastInDim S10 ![] bcast_S_S10 p) a b),
    StableHlo.unary main_v37 main_v39 (broadcastInDim S1x10 ![1] bcast_S10_S1x10_1 : (⟨S10, .f32⟩ : BufTy).Contents (Elt F) → (⟨S1x10, .f32⟩ : BufTy).Contents (Elt F)),
    StableHlo.unary main_v39 main_v40 (broadcastInDim S16384x10 ![0, 1] bcast_S1x10_S16384x10_0_1 : (⟨S1x10, .f32⟩ : BufTy).Contents (Elt F) → (⟨S16384x10, .f32⟩ : BufTy).Contents (Elt F)),
    StableHlo.binary main_v34 main_v40 main_v41 (subf : (⟨S16384x10, .f32⟩ : BufTy).Contents (Elt F) → (⟨S16384x10, .f32⟩ : BufTy).Contents (Elt F) → (⟨S16384x10, .f32⟩ : BufTy).Contents (Elt F)),
    StableHlo.nullary main_cst_15 (constant S_ .f32 0x3727C5AC#32) ]

/-- The remaining statements as operations: the second batch normalisation and quantiser, then the normalisation over
    the whole tensor. -/
abbrev ops1 : List (HloOp τ sig (Elt F)) :=
  [ StableHlo.unary main_cst_15 main_v42 (broadcastInDim S10 ![] bcast_S_S10 : (⟨S_, .f32⟩ : BufTy).Contents (Elt F) → (⟨S10, .f32⟩ : BufTy).Contents (Elt F)),
    StableHlo.binary main_v38 main_v42 main_v43 (addf : (⟨S10, .f32⟩ : BufTy).Contents (Elt F) → (⟨S10, .f32⟩ : BufTy).Contents (Elt F) → (⟨S10, .f32⟩ : BufTy).Contents (Elt F)),
    StableHlo.unary main_v43 main_v44 (Host.rsqrt : (⟨S10, .f32⟩ : BufTy).Contents (Elt F) → (⟨S10, .f32⟩ : BufTy).Contents (Elt F)),
    StableHlo.unary main_v44 main_v45 (broadcastInDim S1x10 ![1] bcast_S10_S1x10_1 : (⟨S10, .f32⟩ : BufTy).Contents (Elt F) → (⟨S1x10, .f32⟩ : BufTy).Contents (Elt F)),
    StableHlo.unary main_v45 main_v46 (broadcastInDim S16384x10 ![0, 1] bcast_S1x10_S16384x10_0_1 : (⟨S1x10, .f32⟩ : BufTy).Contents (Elt F) → (⟨S16384x10, .f32⟩ : BufTy).Contents (Elt F)),
    StableHlo.binary main_v41 main_v46 main_v47 (mulf : (⟨S16384x10, .f32⟩ : BufTy).Contents (Elt F) → (⟨S16384x10, .f32⟩ : BufTy).Contents (Elt F) → (⟨S16384x10, .f32⟩ : BufTy).Contents (Elt F)),
    StableHlo.unary main_arg5 main_v48 (broadcastInDim S1x10 ![1] bcast_S10_S1x10_1 : (⟨S10, .f32⟩ : BufTy).Contents (Elt F) → (⟨S1x10, .f32⟩ : BufTy).Contents (Elt F)),
    StableHlo.unary main_v48 main_v49 (broadcastInDim S16384x10 ![0, 1] bcast_S1x10_S16384x10_0_1 : (⟨S1x10, .f32⟩ : BufTy).Contents (Elt F) → (⟨S16384x10, .f32⟩ : BufTy).Contents (Elt F)),
    StableHlo.binary main_v47 main_v49 main_v50 (mulf : (⟨S16384x10, .f32⟩ : BufTy).Contents (Elt F) → (⟨S16384x10, .f32⟩ : BufTy).Contents (Elt F) → (⟨S16384x10, .f32⟩ : BufTy).Contents (Elt F)),
    StableHlo.unary main_arg6 main_v51 (broadcastInDim S1x10 ![1] bcast_S10_S1x10_1 : (⟨S10, .f32⟩ : BufTy).Contents (Elt F) → (⟨S1x10, .f32⟩ : BufTy).Contents (Elt F)),
    StableHlo.unary main_v51 main_v52 (broadcastInDim S16384x10 ![0, 1] bcast_S1x10_S16384x10_0_1 : (⟨S1x10, .f32⟩ : BufTy).Contents (Elt F) → (⟨S16384x10, .f32⟩ : BufTy).Contents (Elt F)),
    StableHlo.binary main_v50 main_v52 main_v53 (addf : (⟨S16384x10, .f32⟩ : BufTy).Contents (Elt F) → (⟨S16384x10, .f32⟩ : BufTy).Contents (Elt F) → (⟨S16384x10, .f32⟩ : BufTy).Contents (Elt F)),
    StableHlo.TRef.unary (.of main_v53 : StableHlo.TRef sig ⟨S16384x10, .f32⟩) main_call10.v0 Host.roundeven,
    StableHlo.nullary main_cst_16 (constant S_ .f32 0xBF800000#32),
    StableHlo.nullary main_cst_17 (constant S_ .f32 0x3F800000#32),
    StableHlo.TRef.unary (.of main_cst_16 : StableHlo.TRef sig ⟨S_, .f32⟩) main_call11.v0 id,
    StableHlo.TRef.unary main_call11.v0 main_call11.v1 (broadcastInDim S16384x10 ![] bcast_S_S16384x10),
    StableHlo.TRef.binary main_call11.v1 (.of main_v54 : StableHlo.TRef sig ⟨S16384x10, .f32⟩) main_call11.v2 maximumf,
    StableHlo.TRef.unary (.of main_cst_17 : StableHlo.TRef sig ⟨S_, .f32⟩) main_call11.v3 id,
    StableHlo.TRef.unary main_call11.v3 main_call11.v4 (broadcastInDim S16384x10 ![] bcast_S_S16384x10),
    StableHlo.TRef.binary main_call11.v4 main_call11.v2 main_call11.v5 minimumf,
    StableHlo.nullary main_cst_18 (constant S_ .f32 0x00000000#32),
    StableHlo.binary main_v55 main_cst_18 main_v56 ((fun x v => Host.reduceAdd x v reducesTo_S16384x10_S_d0_1 h_S_) : (⟨S16384x10, .f32⟩ : BufTy).Contents (Elt F) → (⟨S_, .f32⟩ : BufTy).Contents (Elt F) → (⟨S_, .f32⟩ : BufTy).Contents (Elt F)),
    StableHlo.nullary main_cst_19 (constant S_ .f32 0x48200000#32),
    StableHlo.binary main_v56 main_cst_19 main_v57 (Host.divf : (⟨S_, .f32⟩ : BufTy).Contents (Elt F) → (⟨S_, .f32⟩ : BufTy).Contents (Elt F) → (⟨S_, .f32⟩ : BufTy).Contents (Elt F)),
    StableHlo.nullary main_c_20 (constantI S_ 32 1#32),
    StableHlo.TRef.nullary main_call12.cst (constant S_ .f32 0x00000000#32),
    StableHlo.TRef.binary (.of main_v55 : StableHlo.TRef sig ⟨S16384x10, .f32⟩) main_call12.cst main_call12.v0 (fun x v => Host.reduceAdd x v reducesTo_S16384x10_S_d0_1 h_S_),
    StableHlo.TRef.unary main_call12.v0 main_call12.v1 (broadcastInDim S1x1 ![] bcast_S_S1x1),
    StableHlo.TRef.nullary main_call12.cst_0 (constant S_ .f32 0x48200000#32),
    StableHlo.TRef.unary main_call12.cst_0 main_call12.v2 (broadcastInDim S1x1 ![] bcast_S_S1x1),
    StableHlo.TRef.binary main_call12.v1 main_call12.v2 main_call12.v3 Host.divf,
    StableHlo.TRef.unary main_call12.v3 main_call12.v4 (broadcastInDim S16384x10 ![0, 1] bcast_S1x1_S16384x10_0_1),
    StableHlo.TRef.binary (.of main_v55 : StableHlo.TRef sig ⟨S16384x10, .f32⟩) main_call12.v4 main_call12.v5 subf,
    StableHlo.TRef.binary main_call12.v5 main_call12.v5 main_call12.v6 mulf,
    StableHlo.TRef.unary (.of main_c_20 : StableHlo.TRef sig ⟨S_, .i32⟩) main_call12.v7 (sitofp .f32),
    StableHlo.TRef.nullary main_call12.cst_1 (constant S_ .f32 0x48200000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S16384x10_S_d0_1 h_S_),
    StableHlo.TRef.binary main_call12.v9 main_call12.v8 main_call12.v10 Host.divf,
    StableHlo.TRef.nullary main_call12.cst_3 (constant S_ .f32 0x00000000#32),
    StableHlo.TRef.binary main_call12.v8 main_call12.cst_3 main_call12.v11 (cmpf .ogt),
    StableHlo.TRef.nullary main_call12.cst_4 (constant S_ .f32 0x7FC00000#32),
    StableHlo.TRef.unary main_call12.cst_4 main_call12.call0.v0 id,
    StableHlo.TRef.ternary main_call12.v11 main_call12.v10 main_call12.call0.v0 main_call12.call0.v1 select,
    StableHlo.unary main_v57 main_v59 (broadcastInDim S16384x10 ![] bcast_S_S16384x10 : (⟨S_, .f32⟩ : BufTy).Contents (Elt F) → (⟨S16384x10, .f32⟩ : BufTy).Contents (Elt F)),
    StableHlo.binary main_v55 main_v59 main_v60 (subf : (⟨S16384x10, .f32⟩ : BufTy).Contents (Elt F) → (⟨S16384x10, .f32⟩ : BufTy).Contents (Elt F) → (⟨S16384x10, .f32⟩ : BufTy).Contents (Elt F)),
    StableHlo.nullary main_cst_21 (constant S_ .f32 0x38D1B717#32),
    StableHlo.binary main_v58 main_cst_21 main_v61 (addf : (⟨S_, .f32⟩ : BufTy).Contents (Elt F) → (⟨S_, .f32⟩ : BufTy).Contents (Elt F) → (⟨S_, .f32⟩ : BufTy).Contents (Elt F)),
    StableHlo.unary main_v61 main_v62 (Host.sqrt : (⟨S_, .f32⟩ : BufTy).Contents (Elt F) → (⟨S_, .f32⟩ : BufTy).Contents (Elt F)),
    StableHlo.unary main_v62 main_v63 (broadcastInDim S16384x10 ![] bcast_S_S16384x10 : (⟨S_, .f32⟩ : BufTy).Contents (Elt F) → (⟨S16384x10, .f32⟩ : BufTy).Contents (Elt F)),
    StableHlo.binary main_v60 main_v63 main_v64 (Host.divf : (⟨S16384x10, .f32⟩ : BufTy).Contents (Elt F) → (⟨S16384x10, .f32⟩ : BufTy).Contents (Elt F) → (⟨S16384x10, .f32⟩ : BufTy).Contents (Elt F)),
    StableHlo.unary main_arg7 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S16384x10 ![0, 1] bcast_S1x1_S16384x10_0_1 : (⟨S1x1, .f32⟩ : BufTy).Contents (Elt F) → (⟨S16384x10, .f32⟩ : BufTy).Contents (Elt F)),
    StableHlo.binary main_v64 main_v66 main_v67 (mulf : (⟨S16384x10, .f32⟩ : BufTy).Contents (Elt F) → (⟨S16384x10, .f32⟩ : BufTy).Contents (Elt F) → (⟨S16384x10, .f32⟩ : BufTy).Contents (Elt F)),
    StableHlo.unary main_arg8 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S16384x10 ![0, 1] bcast_S1x1_S16384x10_0_1 : (⟨S1x1, .f32⟩ : BufTy).Contents (Elt F) → (⟨S16384x10, .f32⟩ : BufTy).Contents (Elt F)),
    StableHlo.binary main_v67 main_v69 main_v70 (addf : (⟨S16384x10, .f32⟩ : BufTy).Contents (Elt F) → (⟨S16384x10, .f32⟩ : BufTy).Contents (Elt F) → (⟨S16384x10, .f32⟩ : BufTy).Contents (Elt F)) ]

/-- The entry function's 181 operations, in order, the calls unfolded. -/
abbrev ops : List (HloOp τ sig (Elt F)) :=
  [ StableHlo.nullary main_cst (constant S_ .f32 0x40000000#32),
    StableHlo.unary main_cst main_v0 (broadcastInDim S16384x784 ![] bcast_S_S16384x784 : (⟨S_, .f32⟩ : BufTy).Contents (Elt F) → (⟨S16384x784, .f32⟩ : BufTy).Contents (Elt F)),
    StableHlo.binary main_v0 main_arg0 main_v1 (mulf : (⟨S16384x784, .f32⟩ : BufTy).Contents (Elt F) → (⟨S16384x784, .f32⟩ : BufTy).Contents (Elt F) → (⟨S16384x784, .f32⟩ : BufTy).Contents (Elt F)),
    StableHlo.nullary main_cst_0 (constant S_ .f32 0x3F800000#32),
    StableHlo.unary main_cst_0 main_v2 (broadcastInDim S16384x784 ![] bcast_S_S16384x784 : (⟨S_, .f32⟩ : BufTy).Contents (Elt F) → (⟨S16384x784, .f32⟩ : BufTy).Contents (Elt F)),
    StableHlo.binary main_v1 main_v2 main_v3 (subf : (⟨S16384x784, .f32⟩ : BufTy).Contents (Elt F) → (⟨S16384x784, .f32⟩ : BufTy).Contents (Elt F) → (⟨S16384x784, .f32⟩ : BufTy).Contents (Elt F)),
    StableHlo.TRef.unary (.of main_v3 : StableHlo.TRef sig ⟨S16384x784, .f32⟩) main_call0.v0 Host.roundeven,
    StableHlo.nullary main_cst_1 (constant S_ .f32 0xBF800000#32),
    StableHlo.nullary main_cst_2 (constant S_ .f32 0x3F800000#32),
    StableHlo.TRef.unary (.of main_cst_1 : StableHlo.TRef sig ⟨S_, .f32⟩) main_call1.v0 id,
    StableHlo.TRef.unary main_call1.v0 main_call1.v1 (broadcastInDim S16384x784 ![] bcast_S_S16384x784),
    StableHlo.TRef.binary main_call1.v1 (.of main_v4 : StableHlo.TRef sig ⟨S16384x784, .f32⟩) main_call1.v2 maximumf,
    StableHlo.TRef.unary (.of main_cst_2 : StableHlo.TRef sig ⟨S_, .f32⟩) main_call1.v3 id,
    StableHlo.TRef.unary main_call1.v3 main_call1.v4 (broadcastInDim S16384x784 ![] bcast_S_S16384x784),
    StableHlo.TRef.binary main_call1.v4 main_call1.v2 main_call1.v5 minimumf,
    StableHlo.TRef.unary (.of main_arg1 : StableHlo.TRef sig ⟨S1024x784, .f32⟩) main_call2.v0 Host.roundeven,
    StableHlo.nullary main_cst_3 (constant S_ .f32 0xBF800000#32),
    StableHlo.nullary main_cst_4 (constant S_ .f32 0x3F800000#32),
    StableHlo.TRef.unary (.of main_cst_3 : StableHlo.TRef sig ⟨S_, .f32⟩) main_call3.v0 id,
    StableHlo.TRef.unary main_call3.v0 main_call3.v1 (broadcastInDim S1024x784 ![] bcast_S_S1024x784),
    StableHlo.TRef.binary main_call3.v1 (.of main_v6 : StableHlo.TRef sig ⟨S1024x784, .f32⟩) main_call3.v2 maximumf,
    StableHlo.TRef.unary (.of main_cst_4 : StableHlo.TRef sig ⟨S_, .f32⟩) main_call3.v3 id,
    StableHlo.TRef.unary main_call3.v3 main_call3.v4 (broadcastInDim S1024x784 ![] bcast_S_S1024x784),
    StableHlo.TRef.binary main_call3.v4 main_call3.v2 main_call3.v5 minimumf,
    StableHlo.unary main_v7 main_v8 ((transpose S784x1024 [1, 0] · transposes_S1024x784_S784x1024_1_0) : (⟨S1024x784, .f32⟩ : BufTy).Contents (Elt F) → (⟨S784x1024, .f32⟩ : BufTy).Contents (Elt F)),
    StableHlo.binary main_v5 main_v8 main_v9 ((fun l r => Host.dotGeneral dot_S16384x784_S784x1024_S16384x1024_1_0_0_1_n_n none l r) : (⟨S16384x784, .f32⟩ : BufTy).Contents (Elt F) → (⟨S784x1024, .f32⟩ : BufTy).Contents (Elt F) → (⟨S16384x1024, .f32⟩ : BufTy).Contents (Elt F)),
    StableHlo.nullary main_cst_5 (constant S_ .f32 0x00000000#32),
    StableHlo.binary main_v9 main_cst_5 main_v10 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    StableHlo.nullary main_cst_6 (constant S_ .f32 0x46800000#32),
    StableHlo.unary main_cst_6 main_v11 (broadcastInDim S1024 ![] bcast_S_S1024 : (⟨S_, .f32⟩ : BufTy).Contents (Elt F) → (⟨S1024, .f32⟩ : BufTy).Contents (Elt F)),
    StableHlo.binary main_v10 main_v11 main_v12 (Host.divf : (⟨S1024, .f32⟩ : BufTy).Contents (Elt F) → (⟨S1024, .f32⟩ : BufTy).Contents (Elt F) → (⟨S1024, .f32⟩ : BufTy).Contents (Elt F)),
    StableHlo.nullary main_c (constantI S_ 32 0#32),
    StableHlo.TRef.nullary main_call4.cst (constant S_ .f32 0x00000000#32),
    StableHlo.TRef.binary (.of main_v9 : StableHlo.TRef sig ⟨S16384x1024, .f32⟩) main_call4.cst main_call4.v0 (fun x v => Host.reduceAdd x v reducesTo_S16384x1024_S1024_d0 h_S_),
    StableHlo.TRef.unary main_call4.v0 main_call4.v1 (broadcastInDim S1x1024 ![1] bcast_S1024_S1x1024_1),
    StableHlo.TRef.nullary main_call4.cst_0 (constant S_ .f32 0x46800000#32),
    StableHlo.TRef.unary main_call4.cst_0 main_call4.v2 (broadcastInDim S1x1024 ![] bcast_S_S1x1024),
    StableHlo.TRef.binary main_call4.v1 main_call4.v2 main_call4.v3 Host.divf,
    StableHlo.TRef.unary main_call4.v3 main_call4.v4 (broadcastInDim S16384x1024 ![0, 1] bcast_S1x1024_S16384x1024_0_1),
    StableHlo.TRef.binary (.of main_v9 : StableHlo.TRef sig ⟨S16384x1024, .f32⟩) main_call4.v4 main_call4.v5 subf,
    StableHlo.TRef.binary main_call4.v5 main_call4.v5 main_call4.v6 mulf,
    StableHlo.TRef.unary (.of main_c : StableHlo.TRef sig ⟨S_, .i32⟩) main_call4.v7 (sitofp .f32),
    StableHlo.TRef.nullary main_call4.cst_1 (constant S_ .f32 0x46800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S16384x1024_S1024_d0 h_S_),
    StableHlo.TRef.unary main_call4.v8 main_call4.v10 (broadcastInDim S1024 ![] bcast_S_S1024),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1024 ![] bcast_S_S1024),
    StableHlo.TRef.ternary main_call4.v12 main_call4.v11 main_call4.call0.v1 main_call4.call0.v2 (fun p a b => select (broadcastInDim S1024 ![] bcast_S_S1024 p) a b),
    StableHlo.unary main_v12 main_v14 (broadcastInDim S1x1024 ![1] bcast_S1024_S1x1024_1 : (⟨S1024, .f32⟩ : BufTy).Contents (Elt F) → (⟨S1x1024, .f32⟩ : BufTy).Contents (Elt F)),
    StableHlo.unary main_v14 main_v15 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v9 main_v15 main_v16 (subf : (⟨S16384x1024, .f32⟩ : BufTy).Contents (Elt F) → (⟨S16384x1024, .f32⟩ : BufTy).Contents (Elt F) → (⟨S16384x1024, .f32⟩ : BufTy).Contents (Elt F)),
    StableHlo.nullary main_cst_7 (constant S_ .f32 0x3727C5AC#32),
    StableHlo.unary main_cst_7 main_v17 (broadcastInDim S1024 ![] bcast_S_S1024 : (⟨S_, .f32⟩ : BufTy).Contents (Elt F) → (⟨S1024, .f32⟩ : BufTy).Contents (Elt F)),
    StableHlo.binary main_v13 main_v17 main_v18 (addf : (⟨S1024, .f32⟩ : BufTy).Contents (Elt F) → (⟨S1024, .f32⟩ : BufTy).Contents (Elt F) → (⟨S1024, .f32⟩ : BufTy).Contents (Elt F)),
    StableHlo.unary main_v18 main_v19 (Host.rsqrt : (⟨S1024, .f32⟩ : BufTy).Contents (Elt F) → (⟨S1024, .f32⟩ : BufTy).Contents (Elt F)),
    StableHlo.unary main_v19 main_v20 (broadcastInDim S1x1024 ![1] bcast_S1024_S1x1024_1 : (⟨S1024, .f32⟩ : BufTy).Contents (Elt F) → (⟨S1x1024, .f32⟩ : BufTy).Contents (Elt F)),
    StableHlo.unary main_v20 main_v21 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v16 main_v21 main_v22 (mulf : (⟨S16384x1024, .f32⟩ : BufTy).Contents (Elt F) → (⟨S16384x1024, .f32⟩ : BufTy).Contents (Elt F) → (⟨S16384x1024, .f32⟩ : BufTy).Contents (Elt F)),
    StableHlo.unary main_arg2 main_v23 (broadcastInDim S1x1024 ![1] bcast_S1024_S1x1024_1 : (⟨S1024, .f32⟩ : BufTy).Contents (Elt F) → (⟨S1x1024, .f32⟩ : BufTy).Contents (Elt F)),
    StableHlo.unary main_v23 main_v24 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v22 main_v24 main_v25 (mulf : (⟨S16384x1024, .f32⟩ : BufTy).Contents (Elt F) → (⟨S16384x1024, .f32⟩ : BufTy).Contents (Elt F) → (⟨S16384x1024, .f32⟩ : BufTy).Contents (Elt F)),
    StableHlo.unary main_arg3 main_v26 (broadcastInDim S1x1024 ![1] bcast_S1024_S1x1024_1 : (⟨S1024, .f32⟩ : BufTy).Contents (Elt F) → (⟨S1x1024, .f32⟩ : BufTy).Contents (Elt F)),
    StableHlo.unary main_v26 main_v27 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v25 main_v27 main_v28 (addf : (⟨S16384x1024, .f32⟩ : BufTy).Contents (Elt F) → (⟨S16384x1024, .f32⟩ : BufTy).Contents (Elt F) → (⟨S16384x1024, .f32⟩ : BufTy).Contents (Elt F)),
    StableHlo.TRef.unary (.of main_v28 : StableHlo.TRef sig ⟨S16384x1024, .f32⟩) main_call5.v0 Host.roundeven,
    StableHlo.nullary main_cst_8 (constant S_ .f32 0xBF800000#32),
    StableHlo.nullary main_cst_9 (constant S_ .f32 0x3F800000#32),
    StableHlo.TRef.unary (.of main_cst_8 : StableHlo.TRef sig ⟨S_, .f32⟩) main_call6.v0 id,
    StableHlo.TRef.unary main_call6.v0 main_call6.v1 (broadcastInDim S16384x1024 ![] bcast_S_S16384x1024),
    StableHlo.TRef.binary main_call6.v1 (.of main_v29 : StableHlo.TRef sig ⟨S16384x1024, .f32⟩) main_call6.v2 maximumf,
    StableHlo.TRef.unary (.of main_cst_9 : StableHlo.TRef sig ⟨S_, .f32⟩) main_call6.v3 id,
    StableHlo.TRef.unary main_call6.v3 main_call6.v4 (broadcastInDim S16384x1024 ![] bcast_S_S16384x1024),
    StableHlo.TRef.binary main_call6.v4 main_call6.v2 main_call6.v5 minimumf,
    StableHlo.TRef.unary (.of main_arg4 : StableHlo.TRef sig ⟨S10x1024, .f32⟩) main_call7.v0 Host.roundeven,
    StableHlo.nullary main_cst_10 (constant S_ .f32 0xBF800000#32),
    StableHlo.nullary main_cst_11 (constant S_ .f32 0x3F800000#32),
    StableHlo.TRef.unary (.of main_cst_10 : StableHlo.TRef sig ⟨S_, .f32⟩) main_call8.v0 id,
    StableHlo.TRef.unary main_call8.v0 main_call8.v1 (broadcastInDim S10x1024 ![] bcast_S_S10x1024),
    StableHlo.TRef.binary main_call8.v1 (.of main_v31 : StableHlo.TRef sig ⟨S10x1024, .f32⟩) main_call8.v2 maximumf,
    StableHlo.TRef.unary (.of main_cst_11 : StableHlo.TRef sig ⟨S_, .f32⟩) main_call8.v3 id,
    StableHlo.TRef.unary main_call8.v3 main_call8.v4 (broadcastInDim S10x1024 ![] bcast_S_S10x1024),
    StableHlo.TRef.binary main_call8.v4 main_call8.v2 main_call8.v5 minimumf,
    StableHlo.unary main_v32 main_v33 ((transpose S1024x10 [1, 0] · transposes_S10x1024_S1024x10_1_0) : (⟨S10x1024, .f32⟩ : BufTy).Contents (Elt F) → (⟨S1024x10, .f32⟩ : BufTy).Contents (Elt F)),
    StableHlo.binary main_v30 main_v33 main_v34 ((fun l r => Host.dotGeneral dot_S16384x1024_S1024x10_S16384x10_1_0_0_1_n_n none l r) : (⟨S16384x1024, .f32⟩ : BufTy).Contents (Elt F) → (⟨S1024x10, .f32⟩ : BufTy).Contents (Elt F) → (⟨S16384x10, .f32⟩ : BufTy).Contents (Elt F)),
    StableHlo.nullary main_cst_12 (constant S_ .f32 0x00000000#32),
    StableHlo.binary main_v34 main_cst_12 main_v35 ((fun x v => Host.reduceAdd x v reducesTo_S16384x10_S10_d0 h_S_) : (⟨S16384x10, .f32⟩ : BufTy).Contents (Elt F) → (⟨S_, .f32⟩ : BufTy).Contents (Elt F) → (⟨S10, .f32⟩ : BufTy).Contents (Elt F)),
    StableHlo.nullary main_cst_13 (constant S_ .f32 0x46800000#32),
    StableHlo.unary main_cst_13 main_v36 (broadcastInDim S10 ![] bcast_S_S10 : (⟨S_, .f32⟩ : BufTy).Contents (Elt F) → (⟨S10, .f32⟩ : BufTy).Contents (Elt F)),
    StableHlo.binary main_v35 main_v36 main_v37 (Host.divf : (⟨S10, .f32⟩ : BufTy).Contents (Elt F) → (⟨S10, .f32⟩ : BufTy).Contents (Elt F) → (⟨S10, .f32⟩ : BufTy).Contents (Elt F)),
    StableHlo.nullary main_c_14 (constantI S_ 32 0#32),
    StableHlo.TRef.nullary main_call9.cst (constant S_ .f32 0x00000000#32),
    StableHlo.TRef.binary (.of main_v34 : StableHlo.TRef sig ⟨S16384x10, .f32⟩) main_call9.cst main_call9.v0 (fun x v => Host.reduceAdd x v reducesTo_S16384x10_S10_d0 h_S_),
    StableHlo.TRef.unary main_call9.v0 main_call9.v1 (broadcastInDim S1x10 ![1] bcast_S10_S1x10_1),
    StableHlo.TRef.nullary main_call9.cst_0 (constant S_ .f32 0x46800000#32),
    StableHlo.TRef.unary main_call9.cst_0 main_call9.v2 (broadcastInDim S1x10 ![] bcast_S_S1x10),
    StableHlo.TRef.binary main_call9.v1 main_call9.v2 main_call9.v3 Host.divf,
    StableHlo.TRef.unary main_call9.v3 main_call9.v4 (broadcastInDim S16384x10 ![0, 1] bcast_S1x10_S16384x10_0_1),
    StableHlo.TRef.binary (.of main_v34 : StableHlo.TRef sig ⟨S16384x10, .f32⟩) main_call9.v4 main_call9.v5 subf,
    StableHlo.TRef.binary main_call9.v5 main_call9.v5 main_call9.v6 mulf,
    StableHlo.TRef.unary (.of main_c_14 : StableHlo.TRef sig ⟨S_, .i32⟩) main_call9.v7 (sitofp .f32),
    StableHlo.TRef.nullary main_call9.cst_1 (constant S_ .f32 0x46800000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S16384x10_S10_d0 h_S_),
    StableHlo.TRef.unary main_call9.v8 main_call9.v10 (broadcastInDim S10 ![] bcast_S_S10),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S10 ![] bcast_S_S10),
    StableHlo.TRef.ternary main_call9.v12 main_call9.v11 main_call9.call0.v1 main_call9.call0.v2 (fun p a b => select (broadcastInDim S10 ![] bcast_S_S10 p) a b),
    StableHlo.unary main_v37 main_v39 (broadcastInDim S1x10 ![1] bcast_S10_S1x10_1 : (⟨S10, .f32⟩ : BufTy).Contents (Elt F) → (⟨S1x10, .f32⟩ : BufTy).Contents (Elt F)),
    StableHlo.unary main_v39 main_v40 (broadcastInDim S16384x10 ![0, 1] bcast_S1x10_S16384x10_0_1 : (⟨S1x10, .f32⟩ : BufTy).Contents (Elt F) → (⟨S16384x10, .f32⟩ : BufTy).Contents (Elt F)),
    StableHlo.binary main_v34 main_v40 main_v41 (subf : (⟨S16384x10, .f32⟩ : BufTy).Contents (Elt F) → (⟨S16384x10, .f32⟩ : BufTy).Contents (Elt F) → (⟨S16384x10, .f32⟩ : BufTy).Contents (Elt F)),
    StableHlo.nullary main_cst_15 (constant S_ .f32 0x3727C5AC#32),
    StableHlo.unary main_cst_15 main_v42 (broadcastInDim S10 ![] bcast_S_S10 : (⟨S_, .f32⟩ : BufTy).Contents (Elt F) → (⟨S10, .f32⟩ : BufTy).Contents (Elt F)),
    StableHlo.binary main_v38 main_v42 main_v43 (addf : (⟨S10, .f32⟩ : BufTy).Contents (Elt F) → (⟨S10, .f32⟩ : BufTy).Contents (Elt F) → (⟨S10, .f32⟩ : BufTy).Contents (Elt F)),
    StableHlo.unary main_v43 main_v44 (Host.rsqrt : (⟨S10, .f32⟩ : BufTy).Contents (Elt F) → (⟨S10, .f32⟩ : BufTy).Contents (Elt F)),
    StableHlo.unary main_v44 main_v45 (broadcastInDim S1x10 ![1] bcast_S10_S1x10_1 : (⟨S10, .f32⟩ : BufTy).Contents (Elt F) → (⟨S1x10, .f32⟩ : BufTy).Contents (Elt F)),
    StableHlo.unary main_v45 main_v46 (broadcastInDim S16384x10 ![0, 1] bcast_S1x10_S16384x10_0_1 : (⟨S1x10, .f32⟩ : BufTy).Contents (Elt F) → (⟨S16384x10, .f32⟩ : BufTy).Contents (Elt F)),
    StableHlo.binary main_v41 main_v46 main_v47 (mulf : (⟨S16384x10, .f32⟩ : BufTy).Contents (Elt F) → (⟨S16384x10, .f32⟩ : BufTy).Contents (Elt F) → (⟨S16384x10, .f32⟩ : BufTy).Contents (Elt F)),
    StableHlo.unary main_arg5 main_v48 (broadcastInDim S1x10 ![1] bcast_S10_S1x10_1 : (⟨S10, .f32⟩ : BufTy).Contents (Elt F) → (⟨S1x10, .f32⟩ : BufTy).Contents (Elt F)),
    StableHlo.unary main_v48 main_v49 (broadcastInDim S16384x10 ![0, 1] bcast_S1x10_S16384x10_0_1 : (⟨S1x10, .f32⟩ : BufTy).Contents (Elt F) → (⟨S16384x10, .f32⟩ : BufTy).Contents (Elt F)),
    StableHlo.binary main_v47 main_v49 main_v50 (mulf : (⟨S16384x10, .f32⟩ : BufTy).Contents (Elt F) → (⟨S16384x10, .f32⟩ : BufTy).Contents (Elt F) → (⟨S16384x10, .f32⟩ : BufTy).Contents (Elt F)),
    StableHlo.unary main_arg6 main_v51 (broadcastInDim S1x10 ![1] bcast_S10_S1x10_1 : (⟨S10, .f32⟩ : BufTy).Contents (Elt F) → (⟨S1x10, .f32⟩ : BufTy).Contents (Elt F)),
    StableHlo.unary main_v51 main_v52 (broadcastInDim S16384x10 ![0, 1] bcast_S1x10_S16384x10_0_1 : (⟨S1x10, .f32⟩ : BufTy).Contents (Elt F) → (⟨S16384x10, .f32⟩ : BufTy).Contents (Elt F)),
    StableHlo.binary main_v50 main_v52 main_v53 (addf : (⟨S16384x10, .f32⟩ : BufTy).Contents (Elt F) → (⟨S16384x10, .f32⟩ : BufTy).Contents (Elt F) → (⟨S16384x10, .f32⟩ : BufTy).Contents (Elt F)),
    StableHlo.TRef.unary (.of main_v53 : StableHlo.TRef sig ⟨S16384x10, .f32⟩) main_call10.v0 Host.roundeven,
    StableHlo.nullary main_cst_16 (constant S_ .f32 0xBF800000#32),
    StableHlo.nullary main_cst_17 (constant S_ .f32 0x3F800000#32),
    StableHlo.TRef.unary (.of main_cst_16 : StableHlo.TRef sig ⟨S_, .f32⟩) main_call11.v0 id,
    StableHlo.TRef.unary main_call11.v0 main_call11.v1 (broadcastInDim S16384x10 ![] bcast_S_S16384x10),
    StableHlo.TRef.binary main_call11.v1 (.of main_v54 : StableHlo.TRef sig ⟨S16384x10, .f32⟩) main_call11.v2 maximumf,
    StableHlo.TRef.unary (.of main_cst_17 : StableHlo.TRef sig ⟨S_, .f32⟩) main_call11.v3 id,
    StableHlo.TRef.unary main_call11.v3 main_call11.v4 (broadcastInDim S16384x10 ![] bcast_S_S16384x10),
    StableHlo.TRef.binary main_call11.v4 main_call11.v2 main_call11.v5 minimumf,
    StableHlo.nullary main_cst_18 (constant S_ .f32 0x00000000#32),
    StableHlo.binary main_v55 main_cst_18 main_v56 ((fun x v => Host.reduceAdd x v reducesTo_S16384x10_S_d0_1 h_S_) : (⟨S16384x10, .f32⟩ : BufTy).Contents (Elt F) → (⟨S_, .f32⟩ : BufTy).Contents (Elt F) → (⟨S_, .f32⟩ : BufTy).Contents (Elt F)),
    StableHlo.nullary main_cst_19 (constant S_ .f32 0x48200000#32),
    StableHlo.binary main_v56 main_cst_19 main_v57 (Host.divf : (⟨S_, .f32⟩ : BufTy).Contents (Elt F) → (⟨S_, .f32⟩ : BufTy).Contents (Elt F) → (⟨S_, .f32⟩ : BufTy).Contents (Elt F)),
    StableHlo.nullary main_c_20 (constantI S_ 32 1#32),
    StableHlo.TRef.nullary main_call12.cst (constant S_ .f32 0x00000000#32),
    StableHlo.TRef.binary (.of main_v55 : StableHlo.TRef sig ⟨S16384x10, .f32⟩) main_call12.cst main_call12.v0 (fun x v => Host.reduceAdd x v reducesTo_S16384x10_S_d0_1 h_S_),
    StableHlo.TRef.unary main_call12.v0 main_call12.v1 (broadcastInDim S1x1 ![] bcast_S_S1x1),
    StableHlo.TRef.nullary main_call12.cst_0 (constant S_ .f32 0x48200000#32),
    StableHlo.TRef.unary main_call12.cst_0 main_call12.v2 (broadcastInDim S1x1 ![] bcast_S_S1x1),
    StableHlo.TRef.binary main_call12.v1 main_call12.v2 main_call12.v3 Host.divf,
    StableHlo.TRef.unary main_call12.v3 main_call12.v4 (broadcastInDim S16384x10 ![0, 1] bcast_S1x1_S16384x10_0_1),
    StableHlo.TRef.binary (.of main_v55 : StableHlo.TRef sig ⟨S16384x10, .f32⟩) main_call12.v4 main_call12.v5 subf,
    StableHlo.TRef.binary main_call12.v5 main_call12.v5 main_call12.v6 mulf,
    StableHlo.TRef.unary (.of main_c_20 : StableHlo.TRef sig ⟨S_, .i32⟩) main_call12.v7 (sitofp .f32),
    StableHlo.TRef.nullary main_call12.cst_1 (constant S_ .f32 0x48200000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S16384x10_S_d0_1 h_S_),
    StableHlo.TRef.binary main_call12.v9 main_call12.v8 main_call12.v10 Host.divf,
    StableHlo.TRef.nullary main_call12.cst_3 (constant S_ .f32 0x00000000#32),
    StableHlo.TRef.binary main_call12.v8 main_call12.cst_3 main_call12.v11 (cmpf .ogt),
    StableHlo.TRef.nullary main_call12.cst_4 (constant S_ .f32 0x7FC00000#32),
    StableHlo.TRef.unary main_call12.cst_4 main_call12.call0.v0 id,
    StableHlo.TRef.ternary main_call12.v11 main_call12.v10 main_call12.call0.v0 main_call12.call0.v1 select,
    StableHlo.unary main_v57 main_v59 (broadcastInDim S16384x10 ![] bcast_S_S16384x10 : (⟨S_, .f32⟩ : BufTy).Contents (Elt F) → (⟨S16384x10, .f32⟩ : BufTy).Contents (Elt F)),
    StableHlo.binary main_v55 main_v59 main_v60 (subf : (⟨S16384x10, .f32⟩ : BufTy).Contents (Elt F) → (⟨S16384x10, .f32⟩ : BufTy).Contents (Elt F) → (⟨S16384x10, .f32⟩ : BufTy).Contents (Elt F)),
    StableHlo.nullary main_cst_21 (constant S_ .f32 0x38D1B717#32),
    StableHlo.binary main_v58 main_cst_21 main_v61 (addf : (⟨S_, .f32⟩ : BufTy).Contents (Elt F) → (⟨S_, .f32⟩ : BufTy).Contents (Elt F) → (⟨S_, .f32⟩ : BufTy).Contents (Elt F)),
    StableHlo.unary main_v61 main_v62 (Host.sqrt : (⟨S_, .f32⟩ : BufTy).Contents (Elt F) → (⟨S_, .f32⟩ : BufTy).Contents (Elt F)),
    StableHlo.unary main_v62 main_v63 (broadcastInDim S16384x10 ![] bcast_S_S16384x10 : (⟨S_, .f32⟩ : BufTy).Contents (Elt F) → (⟨S16384x10, .f32⟩ : BufTy).Contents (Elt F)),
    StableHlo.binary main_v60 main_v63 main_v64 (Host.divf : (⟨S16384x10, .f32⟩ : BufTy).Contents (Elt F) → (⟨S16384x10, .f32⟩ : BufTy).Contents (Elt F) → (⟨S16384x10, .f32⟩ : BufTy).Contents (Elt F)),
    StableHlo.unary main_arg7 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S16384x10 ![0, 1] bcast_S1x1_S16384x10_0_1 : (⟨S1x1, .f32⟩ : BufTy).Contents (Elt F) → (⟨S16384x10, .f32⟩ : BufTy).Contents (Elt F)),
    StableHlo.binary main_v64 main_v66 main_v67 (mulf : (⟨S16384x10, .f32⟩ : BufTy).Contents (Elt F) → (⟨S16384x10, .f32⟩ : BufTy).Contents (Elt F) → (⟨S16384x10, .f32⟩ : BufTy).Contents (Elt F)),
    StableHlo.unary main_arg8 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S16384x10 ![0, 1] bcast_S1x1_S16384x10_0_1 : (⟨S1x1, .f32⟩ : BufTy).Contents (Elt F) → (⟨S16384x10, .f32⟩ : BufTy).Contents (Elt F)),
    StableHlo.binary main_v67 main_v69 main_v70 (addf : (⟨S16384x10, .f32⟩ : BufTy).Contents (Elt F) → (⟨S16384x10, .f32⟩ : BufTy).Contents (Elt F) → (⟨S16384x10, .f32⟩ : BufTy).Contents (Elt F)) ]

/-- The line is its two halves, one after the other. -/
theorem ops_eq : (ops : List (HloOp τ sig (Elt F))) = ops0 ++ ops1 := rfl

end Cert.RefSide

end
-- ==== Proof.RefMain.lean ====
/-
  The reference's entry function is the straight line `ops`.

  Unfolding the two windows of the entry function and each called function's body at its call (the selection inside
  each variance too) leaves a nest of sequencings whose leaves are the operations of `ops` in order; sequencing is
  associative and a returned unit is absorbed, so the nest is the one chain `seq ops` is. Beside it: the signature
  scopes no buffer and no semaphore, and every operation touches only the core's own references — the two side
  conditions under which a straight line's run is its fold.
-/
import proofs.«150640_j7971459301379_1_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

-- the chain is 181 sequencings deep, and re-associating it recurses once per statement
set_option maxRecDepth 16384 in
/-- The entry function is the line: the windows and the called functions unfolded, the sequencing re-associated. -/
theorem main_eq (c : Dev nD) : main (F := F) c = seq ops := by
  simp only [main, main_part0, main_part1, fn_round.body, fn_clip.body, fn_round_0.body, fn_clip_1.body, fn_where.body, fn_var.body, fn_round_2.body, fn_clip_3.body, fn_round_4.body, fn_clip_5.body, fn_where_7.body, fn_var_6.body, fn_round_8.body, fn_clip_9.body, fn_where_11.body, fn_var_10.body, seq, bind_assoc, pure_bind]

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation of the line touches only the core's own references. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., nullary_bufs_sub .., nullary_bufs_sub .., unary_bufs_sub .., unary_bufs_sub .., binary_bufs_sub ..,
    unary_bufs_sub .., unary_bufs_sub .., binary_bufs_sub .., unary_bufs_sub .., nullary_bufs_sub .., nullary_bufs_sub ..,
    unary_bufs_sub .., unary_bufs_sub .., binary_bufs_sub .., unary_bufs_sub .., unary_bufs_sub .., binary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., unary_bufs_sub .., nullary_bufs_sub ..,
    nullary_bufs_sub .., unary_bufs_sub .., unary_bufs_sub .., binary_bufs_sub .., unary_bufs_sub .., unary_bufs_sub ..,
    binary_bufs_sub .., unary_bufs_sub .., nullary_bufs_sub .., nullary_bufs_sub .., unary_bufs_sub .., unary_bufs_sub ..,
    binary_bufs_sub .., unary_bufs_sub .., unary_bufs_sub .., binary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    binary_bufs_sub .., nullary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    binary_bufs_sub .., nullary_bufs_sub .., binary_bufs_sub .., nullary_bufs_sub .., unary_bufs_sub .., ternary_bufs_sub ..,
    unary_bufs_sub .., binary_bufs_sub .., nullary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

end Cert.RefSide

end
-- ==== Proof.RefRun.lean ====
/-
  The reference program's run.

  The entry function is a straight line of operations (`main_eq`), so from any memory with zero counters every
  weakly fair execution of it terminates with each buffer of the core at the fold of the operations' results over
  the contents at launch. Read at the result buffer that is the fold itself; read at an argument buffer, which no
  operation of the line writes, it is the contents at launch.
-/
import proofs.«150640_j7971459301379_1_alg».proof.Proof.RefMain

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- No operation of the line writes argument 0: the fold leaves it as it was. -/
theorem arg0_eq (V : Valuation τ sig (Elt F)) :
    after ops V (Proc.devRef .tc main_arg0) = V (Proc.devRef .tc main_arg0) := by
  after_results_simp

/-- No operation of the line writes argument 1: the fold leaves it as it was. -/
theorem arg1_eq (V : Valuation τ sig (Elt F)) :
    after ops V (Proc.devRef .tc main_arg1) = V (Proc.devRef .tc main_arg1) := by
  after_results_simp

/-- No operation of the line writes argument 2: the fold leaves it as it was. -/
theorem arg2_eq (V : Valuation τ sig (Elt F)) :
    after ops V (Proc.devRef .tc main_arg2) = V (Proc.devRef .tc main_arg2) := by
  after_results_simp

/-- No operation of the line writes argument 3: the fold leaves it as it was. -/
theorem arg3_eq (V : Valuation τ sig (Elt F)) :
    after ops V (Proc.devRef .tc main_arg3) = V (Proc.devRef .tc main_arg3) := by
  after_results_simp

/-- No operation of the line writes argument 4: the fold leaves it as it was. -/
theorem arg4_eq (V : Valuation τ sig (Elt F)) :
    after ops V (Proc.devRef .tc main_arg4) = V (Proc.devRef .tc main_arg4) := by
  after_results_simp

/-- No operation of the line writes argument 5: the fold leaves it as it was. -/
theorem arg5_eq (V : Valuation τ sig (Elt F)) :
    after ops V (Proc.devRef .tc main_arg5) = V (Proc.devRef .tc main_arg5) := by
  after_results_simp

/-- No operation of the line writes argument 6: the fold leaves it as it was. -/
theorem arg6_eq (V : Valuation τ sig (Elt F)) :
    after ops V (Proc.devRef .tc main_arg6) = V (Proc.devRef .tc main_arg6) := by
  after_results_simp

/-- No operation of the line writes argument 7: the fold leaves it as it was. -/
theorem arg7_eq (V : Valuation τ sig (Elt F)) :
    after ops V (Proc.devRef .tc main_arg7) = V (Proc.devRef .tc main_arg7) := by
  after_results_simp

/-- No operation of the line writes argument 8: the fold leaves it as it was. -/
theorem arg8_eq (V : Valuation τ sig (Elt F)) :
    after ops V (Proc.devRef .tc main_arg8) = V (Proc.devRef .tc main_arg8) := by
  after_results_simp

/-- On every device, for any float values, from any memory with zero counters: every weakly fair execution of the
    entry function terminates with the result buffer at the fold of the line's operations over the contents at launch,
    and the nine arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = StableHlo.after ops (fun b => m (c, b)) (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v70,
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.RefSide

end
-- ==== Proof.SpecConsts.lean ====
/-
  The values of the float words the specification spells, as extended reals, and two facts about the quantiser.

  Each word is a sign, an 8-bit exponent and a 23-bit fraction; its value is (2^23 + fraction) * 2^(exponent - 150)
  with the sign applied. The two small words are only needed as positive reals. The quantiser ends in a clamp to
  [-1, 1], so its value is a real number at every extended real, the two infinities included.
-/
import proofs.«150640_j7971459301379_1_alg».proof.Proof.Spec

noncomputable section

namespace Cert.Spec

open Idealize.ShloMosaic

theorem c0_eq : c0 = 0 := by
  simp [c0, Ideal.ofBits, Ideal.ieee]

theorem c1_eq : c1 = 1 := by
  simp [c1, Ideal.ofBits, Ideal.ieee, -EReal.coe_mul]; norm_num

theorem cm1_eq : cm1 = -1 := by
  simp [cm1, Ideal.ofBits, Ideal.ieee, -EReal.coe_mul]; norm_num

theorem c2_eq : c2 = 2 := by
  simp [c2, Ideal.ofBits, Ideal.ieee, -EReal.coe_mul]; norm_num; rfl

theorem cB_eq : cB = ((16384 : ℝ) : EReal) := by
  simp [cB, Ideal.ofBits, Ideal.ieee, -EReal.coe_mul]; norm_num

theorem cT_eq : cT = ((163840 : ℝ) : EReal) := by
  simp [cT, Ideal.ofBits, Ideal.ieee, -EReal.coe_mul]; norm_num

theorem cT1_eq : cT1 = ((163839 : ℝ) : EReal) := by
  simp [cT1, Ideal.ofBits, Ideal.ieee, -EReal.coe_mul]; norm_num

theorem eps1_pos : ∃ e : ℝ, 0 < e ∧ eps1 = (e : EReal) := by
  refine ⟨(10995116 : ℝ) * (2 : ℝ) ^ (-40 : Int), by positivity, ?_⟩
  simp [eps1, Ideal.ofBits, Ideal.ieee, -EReal.coe_mul]

theorem eps2_pos : ∃ e : ℝ, 0 < e ∧ eps2 = (e : EReal) := by
  refine ⟨(13743895 : ℝ) * (2 : ℝ) ^ (-37 : Int), by positivity, ?_⟩
  simp [eps2, Ideal.ofBits, Ideal.ieee, -EReal.coe_mul]

theorem i0_eq : i0 = 0 := by
  simp [i0]

theorem i1_eq : i1 = 1 := by
  simp [i1]

/-- the batch size minus the reference's zero degrees of freedom is positive -/
theorem cmp_B : Ideal.cmp .ogt (cB - i0) c0 = 1#1 := by
  rw [cB_eq, i0_eq, c0_eq, sub_zero]
  have h : (0 : EReal) < ((16384 : ℝ) : EReal) := by exact_mod_cast (by norm_num : (0 : ℝ) < 16384)
  simp [Ideal.cmp, h]

/-- the tensor's size minus the reference's one degree of freedom is positive -/
theorem cmp_T : Ideal.cmp .ogt (cT - i1) c0 = 1#1 := by
  rw [cT_eq, i1_eq, c0_eq]
  have h : (0 : EReal) < ((163840 : ℝ) : EReal) - 1 := by
    rw [← EReal.coe_one, ← EReal.coe_sub]
    exact_mod_cast (by norm_num : (0 : ℝ) < 163840 - 1)
  simp [Ideal.cmp, h]

/-- the quantiser's value is a real number in [-1, 1], at the infinities too -/
theorem tern_real (x : EReal) : ∃ q : ℝ, tern x = (q : EReal) := by
  unfold tern rnd
  rw [c1_eq, cm1_eq]
  have h11 : (-1 : EReal) ≤ 1 := by
    rw [← EReal.coe_one, ← EReal.coe_neg]
    exact EReal.coe_le_coe_iff.2 (by norm_num)
  induction x with
  | bot =>
    refine ⟨-1, ?_⟩
    rw [Ideal.liftRound_bot, max_eq_left bot_le, min_eq_right h11, EReal.coe_neg, EReal.coe_one]
  | top =>
    refine ⟨1, ?_⟩
    rw [Ideal.liftRound_top, max_eq_right le_top, min_eq_left le_top, EReal.coe_one]
  | coe r =>
    refine ⟨min 1 (max (-1) ((Ideal.roundHalfEven r : ℤ) : ℝ)), ?_⟩
    rw [Ideal.liftRound_coe, EReal.coe_strictMono.monotone.map_min, EReal.coe_strictMono.monotone.map_max,
      EReal.coe_neg, EReal.coe_one]

end Cert.Spec

end
-- ==== Proof.RefStagesA.lean ====
/-
  The reference's stages as pure functions of whole tensors, each read at an entry.

  This module holds the pieces every stage shares: a scalar broadcast read anywhere, the quantiser (round half to even,
  then the clamp between the words of -1 and 1), the rescaled and quantised input, and the two products. A product's
  entry (b, j) is a sum over the one contracted axis; the right operand is the transposed weight tensor, so the term
  at k reads the weights at (j, k).
-/
import proofs.«150640_j7971459301379_1_alg».proof.Proof.SpecConsts
import proofs.«150640_j7971459301379_1_alg».proof.Proof.Gen.ReferenceIdeal
import Idealize.ShloMosaic.Lib.ValueIdx
import Idealize.ShloMosaic.Lib.Pipeline.Value
import Idealize.ShloMosaic.PureOps.Ideal.Laws

noncomputable section

namespace Cert.RefSide

open Idealize.ShloMosaic Idealize.ShloMosaic.ValueIdx Cert.ReferenceIdeal Cert.ReferenceIdeal.Gen

theorem bcast0_apply {α : Type} {t : Shape} (h : S_.BroadcastsInDim t (![] : Fin 0 → Fin t.rank)) (x : S_.Idx → α) (j : t.Idx) :
    broadcastInDim t ![] h x j = x ix0 :=
  congrArg x (funext fun a => a.elim0)

/-- the quantiser over a whole tensor: round half to even, clamp below by the word of -1, above by the word of 1 -/
def quantF {s : Shape} (hb : S_.BroadcastsInDim s (![] : Fin 0 → Fin s.rank)) (x : FVec Ideal s .f32) : FVec Ideal s .f32 :=
  minimumf (broadcastInDim s ![] hb (constant S_ .f32 0x3F800000#32))
    (maximumf (broadcastInDim s ![] hb (constant S_ .f32 0xBF800000#32)) (Host.roundeven x))

theorem quantF_apply {s : Shape} (hb : S_.BroadcastsInDim s (![] : Fin 0 → Fin s.rank)) (x : FVec Ideal s .f32) (i : s.Idx) :
    quantF hb x i = Cert.Spec.tern (x i) := by
  unfold quantF
  rw [minimumf_apply, maximumf_apply, bcast0_apply, bcast0_apply]
  rfl

/-- a quotient of tensors at an entry is the quotient of the entries -/
theorem divf_apply' {s : Shape} (a b : FVec Ideal s .f32) (i : s.Idx) : Host.divf a b i = Ideal.div (a i) (b i) := rfl

/-- the input rescaled to 2 x - 1 and quantised -/
def xqF (x : FVec Ideal S16384x784 .f32) : FVec Ideal S16384x784 .f32 :=
  quantF bcast_S_S16384x784
    (subf (mulf (broadcastInDim S16384x784 ![] bcast_S_S16384x784 (constant S_ .f32 0x40000000#32)) x)
      (broadcastInDim S16384x784 ![] bcast_S_S16384x784 (constant S_ .f32 0x3F800000#32)))

theorem xqF_apply (x : FVec Ideal S16384x784 .f32) (b : Fin 16384) (k : Fin 784) :
    xqF x (ix2 b k) = Cert.Spec.xq (fun b k => x (ix2 b k)) b k := by
  unfold xqF
  rw [quantF_apply, subf_apply, mulf_apply, bcast0_apply, bcast0_apply]
  rfl

abbrev D1 : DotDims S16384x784 S784x1024 S16384x1024 := dot_S16384x784_S784x1024_S16384x1024_1_0_0_1_n_n

/-- the product of a [16384, 784] tensor with the transpose of [1024, 784] weights -/
def mm1F (a : FVec Ideal S16384x784 .f32) (w : FVec Ideal S1024x784 .f32) : FVec Ideal S16384x1024 .f32 :=
  Host.dotGeneral dot_S16384x784_S784x1024_S16384x1024_1_0_0_1_n_n none a (transpose S784x1024 [1, 0] w transposes_S1024x784_S784x1024_1_0)

/-- entry (b, j) of the product is the sum over the contracted axis of a(b, k) * w(j, k): the contraction index is its
    one coordinate, the left operand is read at (b, k) and the transposed right operand at (k, j), which is w at (j, k) -/
theorem mm1F_apply (a : FVec Ideal S16384x784 .f32) (w : FVec Ideal S1024x784 .f32) (b : Fin 16384) (j : Fin 1024) :
    mm1F a w (ix2 b j) = Cert.Spec.mm (fun b k => a (ix2 b k)) (fun j k => w (ix2 j k)) b j := by
  unfold mm1F Cert.Spec.mm
  simp only [Host.dotGeneral]
  rw [Ideal.dotGeneral_apply]
  rw [← Equiv.sum_comp (contrEquiv1 D1 784 rfl rfl).symm]
  refine Finset.sum_congr rfl fun k _ => ?_
  have hl : D1.lhsIdx (ix2 b j) ((contrEquiv1 D1 784 rfl rfl).symm k) = ix2 b k := by
    funext c; refine Fin.ext ?_
    match c with
    | ⟨0, _⟩ => rfl
    | ⟨1, _⟩ => exact (D1.lhsIdx_val_of_single rfl _ _).trans (contrEquiv1_symm_val D1 784 rfl rfl k)
  have hr : transpose S784x1024 [1, 0] w transposes_S1024x784_S784x1024_1_0
      (D1.rhsIdx (ix2 b j) ((contrEquiv1 D1 784 rfl rfl).symm k)) = w (ix2 j k) := by
    refine transpose_apply _ w _ _ (ix2 j k) fun c => ?_
    match c with
    | ⟨0, _⟩ => exact ((D1.rhsIdx_val_of_single rfl _ _).trans (contrEquiv1_symm_val D1 784 rfl rfl k)).symm
    | ⟨1, _⟩ => rfl
  rw [hl, hr]

abbrev D2 : DotDims S16384x1024 S1024x10 S16384x10 := dot_S16384x1024_S1024x10_S16384x10_1_0_0_1_n_n

/-- the product of a [16384, 1024] tensor with the transpose of [10, 1024] weights -/
def mm2F (a : FVec Ideal S16384x1024 .f32) (w : FVec Ideal S10x1024 .f32) : FVec Ideal S16384x10 .f32 :=
  Host.dotGeneral dot_S16384x1024_S1024x10_S16384x10_1_0_0_1_n_n none a (transpose S1024x10 [1, 0] w transposes_S10x1024_S1024x10_1_0)

/-- entry (b, j) of the product is the sum over the contracted axis of a(b, k) * w(j, k): the contraction index is its
    one coordinate, the left operand is read at (b, k) and the transposed right operand at (k, j), which is w at (j, k) -/
theorem mm2F_apply (a : FVec Ideal S16384x1024 .f32) (w : FVec Ideal S10x1024 .f32) (b : Fin 16384) (j : Fin 10) :
    mm2F a w (ix2 b j) = Cert.Spec.mm (fun b k => a (ix2 b k)) (fun j k => w (ix2 j k)) b j := by
  unfold mm2F Cert.Spec.mm
  simp only [Host.dotGeneral]
  rw [Ideal.dotGeneral_apply]
  rw [← Equiv.sum_comp (contrEquiv1 D2 1024 rfl rfl).symm]
  refine Finset.sum_congr rfl fun k _ => ?_
  have hl : D2.lhsIdx (ix2 b j) ((contrEquiv1 D2 1024 rfl rfl).symm k) = ix2 b k := by
    funext c; refine Fin.ext ?_
    match c with
    | ⟨0, _⟩ => rfl
    | ⟨1, _⟩ => exact (D2.lhsIdx_val_of_single rfl _ _).trans (contrEquiv1_symm_val D2 1024 rfl rfl k)
  have hr : transpose S1024x10 [1, 0] w transposes_S10x1024_S1024x10_1_0
      (D2.rhsIdx (ix2 b j) ((contrEquiv1 D2 1024 rfl rfl).symm k)) = w (ix2 j k) := by
    refine transpose_apply _ w _ _ (ix2 j k) fun c => ?_
    match c with
    | ⟨0, _⟩ => exact ((D2.rhsIdx_val_of_single rfl _ _).trans (contrEquiv1_symm_val D2 1024 rfl rfl k)).symm
    | ⟨1, _⟩ => rfl
  rw [hl, hr]

end Cert.RefSide

end
-- ==== Proof.RefStagesB.lean ====
/-
  Batch normalisation as the reference computes it, over [16384, 1024] and over [16384, 10].

  The mean of a feature is the batch sum (started from the zero word) divided by the word of 16384. The variance
  recomputes that mean, centres, squares, sums and divides by 16384 minus the converted integer 0; the result is
  selected against a not-a-number word unless that divisor is positive, which it is. The normalised value is
  (h - mean) * rsqrt (var + eps) * gamma + beta, then the quantiser.
-/
import proofs.«150640_j7971459301379_1_alg».proof.Proof.RefStagesA

noncomputable section

namespace Cert.RefSide

open Idealize.ShloMosaic Idealize.ShloMosaic.ValueIdx Cert.ReferenceIdeal Cert.ReferenceIdeal.Gen

/-- the batch size as a float, less the degrees of freedom converted from the integer zero -/
def dofB : FVec Ideal S_ .f32 := subf (constant S_ .f32 0x46800000#32) (sitofp .f32 (constantI S_ 32 0#32))

theorem dofB_apply (i : S_.Idx) : dofB i = Cert.Spec.cB - Cert.Spec.i0 := rfl

/-! ### batch statistics and normalisation of a [16384, 1024] tensor -/

/-- a per-feature vector read at every row -/
theorem row1024_apply {α : Type} (v : S1024.Idx → α) (b : Fin 16384) (j : Fin 1024) :
    broadcastInDim S16384x1024 ![0, 1] bcast_S1x1024_S16384x1024_0_1 (broadcastInDim S1x1024 ![1] bcast_S1024_S1x1024_1 v) (ix2 b j)
      = v (ix1 j) := by
  refine (broadcastInDim_apply _ _ _ (ix2 b j) (ix2 (0 : Fin 1) j) fun a => ?_).trans ?_
  · match a with
    | ⟨0, _⟩ => rfl
    | ⟨1, _⟩ => rfl
  · refine broadcastInDim_apply _ _ v _ (ix1 j) fun a => ?_
    match a with
    | ⟨0, _⟩ => rfl

/-- the sum over the batch, from the zero word -/
theorem sum1024_apply (h : FVec Ideal S16384x1024 .f32) (j : Fin 1024) :
    Host.reduceAdd h (constant (F := Ideal) S_ .f32 0x00000000#32) reducesTo_S16384x1024_S1024_d0 h_S_ (ix1 j)
      = Cert.Spec.c0 + ∑ b : Fin 16384, h (ix2 b j) := by
  have hR : S16384x1024.Reduces [0] S1024 := by decide
  refine (Ideal.hostReduceAdd_single reducesTo_S16384x1024_S1024_d0 hR h _ (ix1 j)).trans ?_
  refine congrArg (Cert.Spec.c0 + ·) (Finset.sum_congr rfl fun k _ => congrArg h ?_)
  funext a
  match a with
  | ⟨0, _⟩ => rfl
  | ⟨1, _⟩ => rfl

/-- the batch mean per feature -/
def mean1024F (h : FVec Ideal S16384x1024 .f32) : FVec Ideal S1024 .f32 :=
  Host.divf (Host.reduceAdd h (constant S_ .f32 0x00000000#32) reducesTo_S16384x1024_S1024_d0 h_S_)
    (broadcastInDim S1024 ![] bcast_S_S1024 (constant S_ .f32 0x46800000#32))

theorem mean1024F_apply (h : FVec Ideal S16384x1024 .f32) (j : Fin 1024) :
    mean1024F h (ix1 j) = Cert.Spec.rmean (fun b j => h (ix2 b j)) j := by
  unfold mean1024F Cert.Spec.rmean
  rw [divf_apply', sum1024_apply, bcast0_apply]
  rfl

/-- the tensor centred at its batch mean, as the variance computes it -/
def ctr1024F (h : FVec Ideal S16384x1024 .f32) : FVec Ideal S16384x1024 .f32 :=
  subf h (broadcastInDim S16384x1024 ![0, 1] bcast_S1x1024_S16384x1024_0_1
    (Host.divf (broadcastInDim S1x1024 ![1] bcast_S1024_S1x1024_1
        (Host.reduceAdd h (constant S_ .f32 0x00000000#32) reducesTo_S16384x1024_S1024_d0 h_S_))
      (broadcastInDim S1x1024 ![] bcast_S_S1x1024 (constant S_ .f32 0x46800000#32))))

theorem ctr1024F_apply (h : FVec Ideal S16384x1024 .f32) (b : Fin 16384) (j : Fin 1024) :
    ctr1024F h (ix2 b j) = h (ix2 b j) - Cert.Spec.rmean (fun b j => h (ix2 b j)) j := by
  have e1 : broadcastInDim S1x1024 ![1] bcast_S1024_S1x1024_1
      (Host.reduceAdd h (constant (F := Ideal) S_ .f32 0x00000000#32) reducesTo_S16384x1024_S1024_d0 h_S_) (ix2 (0 : Fin 1) j)
      = Cert.Spec.c0 + ∑ b : Fin 16384, h (ix2 b j) := by
    refine (broadcastInDim_apply _ _ _ (ix2 (0 : Fin 1) j) (ix1 j) fun a => ?_).trans (sum1024_apply h j)
    match a with
    | ⟨0, _⟩ => rfl
  have e2 : broadcastInDim S16384x1024 ![0, 1] bcast_S1x1024_S16384x1024_0_1
      (Host.divf (broadcastInDim S1x1024 ![1] bcast_S1024_S1x1024_1
          (Host.reduceAdd h (constant (F := Ideal) S_ .f32 0x00000000#32) reducesTo_S16384x1024_S1024_d0 h_S_))
        (broadcastInDim S1x1024 ![] bcast_S_S1x1024 (constant (F := Ideal) S_ .f32 0x46800000#32))) (ix2 b j)
      = Cert.Spec.rmean (fun b j => h (ix2 b j)) j := by
    refine (broadcastInDim_apply _ _ _ (ix2 b j) (ix2 (0 : Fin 1) j) fun a => ?_).trans ?_
    · match a with
      | ⟨0, _⟩ => rfl
      | ⟨1, _⟩ => rfl
    · rw [divf_apply', bcast0_apply, e1]
      rfl
  unfold ctr1024F
  rw [subf_apply, e2]

/-- the batch variance per feature, selected against the not-a-number word when the divisor is not positive -/
def var1024F (h : FVec Ideal S16384x1024 .f32) : FVec Ideal S1024 .f32 :=
  select (broadcastInDim S1024 ![] bcast_S_S1024 (cmpf .ogt dofB (constant S_ .f32 0x00000000#32)))
    (Host.divf (Host.reduceAdd (mulf (ctr1024F h) (ctr1024F h)) (constant S_ .f32 0x00000000#32) reducesTo_S16384x1024_S1024_d0 h_S_)
      (broadcastInDim S1024 ![] bcast_S_S1024 dofB))
    (broadcastInDim S1024 ![] bcast_S_S1024 (constant S_ .f32 0x7FC00000#32))

theorem var1024F_apply (h : FVec Ideal S16384x1024 .f32) (j : Fin 1024) :
    var1024F h (ix1 j) = Cert.Spec.rvar (fun b j => h (ix2 b j)) j := by
  have hc : cmpf .ogt dofB (constant (F := Ideal) S_ .f32 0x00000000#32) ix0 = 1#1 := Cert.Spec.cmp_B
  have e3 : (∑ b : Fin 16384, mulf (ctr1024F h) (ctr1024F h) (ix2 b j))
      = ∑ b : Fin 16384, (h (ix2 b j) - Cert.Spec.rmean (fun b j => h (ix2 b j)) j)
          * (h (ix2 b j) - Cert.Spec.rmean (fun b j => h (ix2 b j)) j) :=
    Finset.sum_congr rfl fun b _ => by rw [mulf_apply, ctr1024F_apply]
  unfold var1024F Cert.Spec.rvar
  rw [select_apply, bcast0_apply, hc, select_one, divf_apply', bcast0_apply, sum1024_apply, dofB_apply, e3]

/-- centre, scale by the reciprocal root of variance plus epsilon, then the per-feature affine map -/
def bn1024F (h : FVec Ideal S16384x1024 .f32) (mu va g be : FVec Ideal S1024 .f32) : FVec Ideal S16384x1024 .f32 :=
  addf (mulf (mulf
        (subf h (broadcastInDim S16384x1024 ![0, 1] bcast_S1x1024_S16384x1024_0_1 (broadcastInDim S1x1024 ![1] bcast_S1024_S1x1024_1 mu)))
        (broadcastInDim S16384x1024 ![0, 1] bcast_S1x1024_S16384x1024_0_1 (broadcastInDim S1x1024 ![1] bcast_S1024_S1x1024_1
          (Host.rsqrt (addf va (broadcastInDim S1024 ![] bcast_S_S1024 (constant S_ .f32 0x3727C5AC#32)))))))
      (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 be))

theorem rsqrt_eps_apply1024 (va : FVec Ideal S1024 .f32) (j : Fin 1024) :
    Host.rsqrt (addf va (broadcastInDim S1024 ![] bcast_S_S1024 (constant (F := Ideal) S_ .f32 0x3727C5AC#32))) (ix1 j)
      = Ideal.rsqrt (va (ix1 j) + Cert.Spec.eps1) := rfl

theorem bn1024F_apply (h : FVec Ideal S16384x1024 .f32) (g be : FVec Ideal S1024 .f32) (b : Fin 16384) (j : Fin 1024) :
    quantF bcast_S_S16384x1024 (bn1024F h (mean1024F h) (var1024F h) g be) (ix2 b j)
      = Cert.Spec.rbn (fun b j => h (ix2 b j)) (fun j => g (ix1 j)) (fun j => be (ix1 j)) b j := by
  rw [quantF_apply]
  unfold bn1024F Cert.Spec.rbn
  rw [addf_apply, mulf_apply, mulf_apply, subf_apply, row1024_apply, row1024_apply, row1024_apply, row1024_apply,
    mean1024F_apply, rsqrt_eps_apply1024, var1024F_apply]

/-! ### batch statistics and normalisation of a [16384, 10] tensor -/

/-- a per-feature vector read at every row -/
theorem row10_apply {α : Type} (v : S10.Idx → α) (b : Fin 16384) (j : Fin 10) :
    broadcastInDim S16384x10 ![0, 1] bcast_S1x10_S16384x10_0_1 (broadcastInDim S1x10 ![1] bcast_S10_S1x10_1 v) (ix2 b j)
      = v (ix1 j) := by
  refine (broadcastInDim_apply _ _ _ (ix2 b j) (ix2 (0 : Fin 1) j) fun a => ?_).trans ?_
  · match a with
    | ⟨0, _⟩ => rfl
    | ⟨1, _⟩ => rfl
  · refine broadcastInDim_apply _ _ v _ (ix1 j) fun a => ?_
    match a with
    | ⟨0, _⟩ => rfl

/-- the sum over the batch, from the zero word -/
theorem sum10_apply (h : FVec Ideal S16384x10 .f32) (j : Fin 10) :
    Host.reduceAdd h (constant (F := Ideal) S_ .f32 0x00000000#32) reducesTo_S16384x10_S10_d0 h_S_ (ix1 j)
      = Cert.Spec.c0 + ∑ b : Fin 16384, h (ix2 b j) := by
  have hR : S16384x10.Reduces [0] S10 := by decide
  refine (Ideal.hostReduceAdd_single reducesTo_S16384x10_S10_d0 hR h _ (ix1 j)).trans ?_
  refine congrArg (Cert.Spec.c0 + ·) (Finset.sum_congr rfl fun k _ => congrArg h ?_)
  funext a
  match a with
  | ⟨0, _⟩ => rfl
  | ⟨1, _⟩ => rfl

/-- the batch mean per feature -/
def mean10F (h : FVec Ideal S16384x10 .f32) : FVec Ideal S10 .f32 :=
  Host.divf (Host.reduceAdd h (constant S_ .f32 0x00000000#32) reducesTo_S16384x10_S10_d0 h_S_)
    (broadcastInDim S10 ![] bcast_S_S10 (constant S_ .f32 0x46800000#32))

theorem mean10F_apply (h : FVec Ideal S16384x10 .f32) (j : Fin 10) :
    mean10F h (ix1 j) = Cert.Spec.rmean (fun b j => h (ix2 b j)) j := by
  unfold mean10F Cert.Spec.rmean
  rw [divf_apply', sum10_apply, bcast0_apply]
  rfl

/-- the tensor centred at its batch mean, as the variance computes it -/
def ctr10F (h : FVec Ideal S16384x10 .f32) : FVec Ideal S16384x10 .f32 :=
  subf h (broadcastInDim S16384x10 ![0, 1] bcast_S1x10_S16384x10_0_1
    (Host.divf (broadcastInDim S1x10 ![1] bcast_S10_S1x10_1
        (Host.reduceAdd h (constant S_ .f32 0x00000000#32) reducesTo_S16384x10_S10_d0 h_S_))
      (broadcastInDim S1x10 ![] bcast_S_S1x10 (constant S_ .f32 0x46800000#32))))

theorem ctr10F_apply (h : FVec Ideal S16384x10 .f32) (b : Fin 16384) (j : Fin 10) :
    ctr10F h (ix2 b j) = h (ix2 b j) - Cert.Spec.rmean (fun b j => h (ix2 b j)) j := by
  have e1 : broadcastInDim S1x10 ![1] bcast_S10_S1x10_1
      (Host.reduceAdd h (constant (F := Ideal) S_ .f32 0x00000000#32) reducesTo_S16384x10_S10_d0 h_S_) (ix2 (0 : Fin 1) j)
      = Cert.Spec.c0 + ∑ b : Fin 16384, h (ix2 b j) := by
    refine (broadcastInDim_apply _ _ _ (ix2 (0 : Fin 1) j) (ix1 j) fun a => ?_).trans (sum10_apply h j)
    match a with
    | ⟨0, _⟩ => rfl
  have e2 : broadcastInDim S16384x10 ![0, 1] bcast_S1x10_S16384x10_0_1
      (Host.divf (broadcastInDim S1x10 ![1] bcast_S10_S1x10_1
          (Host.reduceAdd h (constant (F := Ideal) S_ .f32 0x00000000#32) reducesTo_S16384x10_S10_d0 h_S_))
        (broadcastInDim S1x10 ![] bcast_S_S1x10 (constant (F := Ideal) S_ .f32 0x46800000#32))) (ix2 b j)
      = Cert.Spec.rmean (fun b j => h (ix2 b j)) j := by
    refine (broadcastInDim_apply _ _ _ (ix2 b j) (ix2 (0 : Fin 1) j) fun a => ?_).trans ?_
    · match a with
      | ⟨0, _⟩ => rfl
      | ⟨1, _⟩ => rfl
    · rw [divf_apply', bcast0_apply, e1]
      rfl
  unfold ctr10F
  rw [subf_apply, e2]

/-- the batch variance per feature, selected against the not-a-number word when the divisor is not positive -/
def var10F (h : FVec Ideal S16384x10 .f32) : FVec Ideal S10 .f32 :=
  select (broadcastInDim S10 ![] bcast_S_S10 (cmpf .ogt dofB (constant S_ .f32 0x00000000#32)))
    (Host.divf (Host.reduceAdd (mulf (ctr10F h) (ctr10F h)) (constant S_ .f32 0x00000000#32) reducesTo_S16384x10_S10_d0 h_S_)
      (broadcastInDim S10 ![] bcast_S_S10 dofB))
    (broadcastInDim S10 ![] bcast_S_S10 (constant S_ .f32 0x7FC00000#32))

theorem var10F_apply (h : FVec Ideal S16384x10 .f32) (j : Fin 10) :
    var10F h (ix1 j) = Cert.Spec.rvar (fun b j => h (ix2 b j)) j := by
  have hc : cmpf .ogt dofB (constant (F := Ideal) S_ .f32 0x00000000#32) ix0 = 1#1 := Cert.Spec.cmp_B
  have e3 : (∑ b : Fin 16384, mulf (ctr10F h) (ctr10F h) (ix2 b j))
      = ∑ b : Fin 16384, (h (ix2 b j) - Cert.Spec.rmean (fun b j => h (ix2 b j)) j)
          * (h (ix2 b j) - Cert.Spec.rmean (fun b j => h (ix2 b j)) j) :=
    Finset.sum_congr rfl fun b _ => by rw [mulf_apply, ctr10F_apply]
  unfold var10F Cert.Spec.rvar
  rw [select_apply, bcast0_apply, hc, select_one, divf_apply', bcast0_apply, sum10_apply, dofB_apply, e3]

/-- centre, scale by the reciprocal root of variance plus epsilon, then the per-feature affine map -/
def bn10F (h : FVec Ideal S16384x10 .f32) (mu va g be : FVec Ideal S10 .f32) : FVec Ideal S16384x10 .f32 :=
  addf (mulf (mulf
        (subf h (broadcastInDim S16384x10 ![0, 1] bcast_S1x10_S16384x10_0_1 (broadcastInDim S1x10 ![1] bcast_S10_S1x10_1 mu)))
        (broadcastInDim S16384x10 ![0, 1] bcast_S1x10_S16384x10_0_1 (broadcastInDim S1x10 ![1] bcast_S10_S1x10_1
          (Host.rsqrt (addf va (broadcastInDim S10 ![] bcast_S_S10 (constant S_ .f32 0x3727C5AC#32)))))))
      (broadcastInDim S16384x10 ![0, 1] bcast_S1x10_S16384x10_0_1 (broadcastInDim S1x10 ![1] bcast_S10_S1x10_1 g)))
    (broadcastInDim S16384x10 ![0, 1] bcast_S1x10_S16384x10_0_1 (broadcastInDim S1x10 ![1] bcast_S10_S1x10_1 be))

theorem rsqrt_eps_apply10 (va : FVec Ideal S10 .f32) (j : Fin 10) :
    Host.rsqrt (addf va (broadcastInDim S10 ![] bcast_S_S10 (constant (F := Ideal) S_ .f32 0x3727C5AC#32))) (ix1 j)
      = Ideal.rsqrt (va (ix1 j) + Cert.Spec.eps1) := rfl

theorem bn10F_apply (h : FVec Ideal S16384x10 .f32) (g be : FVec Ideal S10 .f32) (b : Fin 16384) (j : Fin 10) :
    quantF bcast_S_S16384x10 (bn10F h (mean10F h) (var10F h) g be) (ix2 b j)
      = Cert.Spec.rbn (fun b j => h (ix2 b j)) (fun j => g (ix1 j)) (fun j => be (ix1 j)) b j := by
  rw [quantF_apply]
  unfold bn10F Cert.Spec.rbn
  rw [addf_apply, mulf_apply, mulf_apply, subf_apply, row10_apply, row10_apply, row10_apply, row10_apply,
    mean10F_apply, rsqrt_eps_apply10, var10F_apply]

end Cert.RefSide

end
-- ==== Proof.RefStagesC.lean ====
/-
  The normalisation over the whole [16384, 10] tensor as the reference computes it.

  The mean is the sum over both axes (started from the zero word) divided by the word of 163840. The variance
  recomputes the mean, centres, squares, sums and divides by 163840 minus the converted integer 1, selected against
  a not-a-number word unless that divisor is positive, which it is. The result is
  (t - mean) / sqrt (var + eps) * w + b with the two one-entry parameters read at their entry.
-/
import proofs.«150640_j7971459301379_1_alg».proof.Proof.RefStagesA

noncomputable section

namespace Cert.RefSide

open Idealize.ShloMosaic Idealize.ShloMosaic.ValueIdx Cert.ReferenceIdeal Cert.ReferenceIdeal.Gen

/-! ### the normalisation over the whole [16384, 10] tensor -/

/-- the sum over the whole tensor, from the zero word -/
theorem sumT_apply (t : FVec Ideal S16384x10 .f32) (i : S_.Idx) :
    Host.reduceAdd t (constant (F := Ideal) S_ .f32 0x00000000#32) reducesTo_S16384x10_S_d0_1 h_S_ i
      = Cert.Spec.c0 + ∑ b : Fin 16384, ∑ k : Fin 10, t (ix2 b k) := by
  refine (Ideal.hostReduceAdd_total reducesTo_S16384x10_S_d0_1 (fun b => b.elim0) t _ i).trans ?_
  rw [sum_idx2]
  rfl

/-- the tensor's mean -/
def tmeanF (t : FVec Ideal S16384x10 .f32) : FVec Ideal S_ .f32 :=
  Host.divf (Host.reduceAdd t (constant S_ .f32 0x00000000#32) reducesTo_S16384x10_S_d0_1 h_S_) (constant S_ .f32 0x48200000#32)

theorem tmeanF_apply (t : FVec Ideal S16384x10 .f32) (i : S_.Idx) :
    tmeanF t i = Cert.Spec.rtmean (fun b k => t (ix2 b k)) := by
  unfold tmeanF Cert.Spec.rtmean
  rw [divf_apply', sumT_apply]
  rfl

/-- the tensor's size as a float, less the degrees of freedom converted from the integer one -/
def dofT : FVec Ideal S_ .f32 := subf (constant S_ .f32 0x48200000#32) (sitofp .f32 (constantI S_ 32 1#32))

theorem dofT_apply (i : S_.Idx) : dofT i = Cert.Spec.cT - Cert.Spec.i1 := rfl

/-- the tensor centred at its mean, as the variance computes it -/
def ctrTF (t : FVec Ideal S16384x10 .f32) : FVec Ideal S16384x10 .f32 :=
  subf t (broadcastInDim S16384x10 ![0, 1] bcast_S1x1_S16384x10_0_1
    (Host.divf (broadcastInDim S1x1 ![] bcast_S_S1x1
        (Host.reduceAdd t (constant S_ .f32 0x00000000#32) reducesTo_S16384x10_S_d0_1 h_S_))
      (broadcastInDim S1x1 ![] bcast_S_S1x1 (constant S_ .f32 0x48200000#32))))

theorem ctrTF_apply (t : FVec Ideal S16384x10 .f32) (b : Fin 16384) (k : Fin 10) :
    ctrTF t (ix2 b k) = t (ix2 b k) - Cert.Spec.rtmean (fun b k => t (ix2 b k)) := by
  have e2 : broadcastInDim S16384x10 ![0, 1] bcast_S1x1_S16384x10_0_1
      (Host.divf (broadcastInDim S1x1 ![] bcast_S_S1x1
          (Host.reduceAdd t (constant (F := Ideal) S_ .f32 0x00000000#32) reducesTo_S16384x10_S_d0_1 h_S_))
        (broadcastInDim S1x1 ![] bcast_S_S1x1 (constant (F := Ideal) S_ .f32 0x48200000#32))) (ix2 b k)
      = Cert.Spec.rtmean (fun b k => t (ix2 b k)) := by
    refine (broadcastInDim_apply _ _ _ (ix2 b k) (ix2 (0 : Fin 1) (0 : Fin 1)) fun a => ?_).trans ?_
    · match a with
      | ⟨0, _⟩ => rfl
      | ⟨1, _⟩ => rfl
    · rw [divf_apply', bcast0_apply, bcast0_apply, sumT_apply]
      rfl
  unfold ctrTF
  rw [subf_apply, e2]

/-- the tensor's unbiased variance, selected against the not-a-number word when the divisor is not positive -/
def tvarF (t : FVec Ideal S16384x10 .f32) : FVec Ideal S_ .f32 :=
  select (cmpf .ogt dofT (constant S_ .f32 0x00000000#32))
    (Host.divf (Host.reduceAdd (mulf (ctrTF t) (ctrTF t)) (constant S_ .f32 0x00000000#32) reducesTo_S16384x10_S_d0_1 h_S_) dofT)
    (constant S_ .f32 0x7FC00000#32)

theorem tvarF_apply (t : FVec Ideal S16384x10 .f32) (i : S_.Idx) :
    tvarF t i = Cert.Spec.rtvar (fun b k => t (ix2 b k)) := by
  have hc : cmpf .ogt dofT (constant (F := Ideal) S_ .f32 0x00000000#32) i = 1#1 := Cert.Spec.cmp_T
  have e3 : (∑ b : Fin 16384, ∑ k : Fin 10, mulf (ctrTF t) (ctrTF t) (ix2 b k))
      = ∑ b : Fin 16384, ∑ k : Fin 10, (t (ix2 b k) - Cert.Spec.rtmean (fun b k => t (ix2 b k)))
          * (t (ix2 b k) - Cert.Spec.rtmean (fun b k => t (ix2 b k))) :=
    Finset.sum_congr rfl fun b _ => Finset.sum_congr rfl fun k _ => by rw [mulf_apply, ctrTF_apply]
  unfold tvarF Cert.Spec.rtvar
  rw [select_apply, hc, select_one, divf_apply', sumT_apply, dofT_apply, e3]

/-- a one-entry vector read at every entry of the tensor -/
theorem one_apply {α : Type} (v : S1.Idx → α) (b : Fin 16384) (k : Fin 10) :
    broadcastInDim S16384x10 ![0, 1] bcast_S1x1_S16384x10_0_1 (broadcastInDim S1x1 ![1] bcast_S1_S1x1_1 v) (ix2 b k)
      = v (ix1 0) := by
  refine (broadcastInDim_apply _ _ _ (ix2 b k) (ix2 (0 : Fin 1) (0 : Fin 1)) fun a => ?_).trans ?_
  · match a with
    | ⟨0, _⟩ => rfl
    | ⟨1, _⟩ => rfl
  · refine broadcastInDim_apply _ _ v _ (ix1 0) fun a => ?_
    match a with
    | ⟨0, _⟩ => rfl

/-- centre, divide by the root of variance plus epsilon, then the scalar affine map -/
def tnF (t : FVec Ideal S16384x10 .f32) (mu va : FVec Ideal S_ .f32) (tw tb : FVec Ideal S1 .f32) : FVec Ideal S16384x10 .f32 :=
  addf (mulf (Host.divf (subf t (broadcastInDim S16384x10 ![] bcast_S_S16384x10 mu))
        (broadcastInDim S16384x10 ![] bcast_S_S16384x10 (Host.sqrt (addf va (constant S_ .f32 0x38D1B717#32)))))
      (broadcastInDim S16384x10 ![0, 1] bcast_S1x1_S16384x10_0_1 (broadcastInDim S1x1 ![1] bcast_S1_S1x1_1 tw)))
    (broadcastInDim S16384x10 ![0, 1] bcast_S1x1_S16384x10_0_1 (broadcastInDim S1x1 ![1] bcast_S1_S1x1_1 tb))

theorem sqrt_eps_apply (va : FVec Ideal S_ .f32) (i : S_.Idx) :
    Host.sqrt (addf va (constant (F := Ideal) S_ .f32 0x38D1B717#32)) i = Ideal.sqrt (va i + Cert.Spec.eps2) := rfl

theorem tnF_apply (t : FVec Ideal S16384x10 .f32) (tw tb : FVec Ideal S1 .f32) (b : Fin 16384) (k : Fin 10) :
    tnF t (tmeanF t) (tvarF t) tw tb (ix2 b k)
      = Cert.Spec.rtn (fun b k => t (ix2 b k)) (tw (ix1 0)) (tb (ix1 0)) b k := by
  unfold tnF Cert.Spec.rtn
  rw [addf_apply, mulf_apply, divf_apply', subf_apply, bcast0_apply, bcast0_apply, one_apply, one_apply,
    tmeanF_apply, sqrt_eps_apply, tvarF_apply]

end Cert.RefSide

end
-- ==== Proof.RefPure.lean ====
/-
  The reference's stages composed: the whole network as one pure function of the nine argument tensors, read at an
  entry of the result.

  Each stage's entry lemma rewrites one layer: the quantised rescaled input, the first product, batch
  normalisation with the quantiser, the second product, batch normalisation with the quantiser again, and the
  normalisation over the whole tensor. Read entry by entry, each intermediate tensor is the specification's
  function of the argument tensors' entries.
-/
import proofs.«150640_j7971459301379_1_alg».proof.Proof.RefStagesB
import proofs.«150640_j7971459301379_1_alg».proof.Proof.RefStagesC

noncomputable section

namespace Cert.RefSide

open Idealize.ShloMosaic Idealize.ShloMosaic.ValueIdx Cert.ReferenceIdeal Cert.ReferenceIdeal.Gen

variable (x : FVec Ideal S16384x784 .f32) (w1 : FVec Ideal S1024x784 .f32) (g1 b1 : FVec Ideal S1024 .f32)
  (w2 : FVec Ideal S10x1024 .f32) (g2 b2 : FVec Ideal S10 .f32) (tw tb : FVec Ideal S1 .f32)

/-- the first product: quantised rescaled input against the quantised first weights -/
def h1F : FVec Ideal S16384x1024 .f32 := mm1F (xqF x) (quantF bcast_S_S1024x784 w1)

/-- the first hidden activations: batch-normalised, quantised -/
def a1F : FVec Ideal S16384x1024 .f32 :=
  quantF bcast_S_S16384x1024 (bn1024F (h1F x w1) (mean1024F (h1F x w1)) (var1024F (h1F x w1)) g1 b1)

/-- the second product -/
def h2F : FVec Ideal S16384x10 .f32 := mm2F (a1F x w1 g1 b1) (quantF bcast_S_S10x1024 w2)

/-- the second activations: batch-normalised, quantised -/
def a2F : FVec Ideal S16384x10 .f32 :=
  quantF bcast_S_S16384x10 (bn10F (h2F x w1 g1 b1 w2) (mean10F (h2F x w1 g1 b1 w2)) (var10F (h2F x w1 g1 b1 w2)) g2 b2)

/-- the network's result -/
def outF : FVec Ideal S16384x10 .f32 :=
  tnF (a2F x w1 g1 b1 w2 g2 b2) (tmeanF (a2F x w1 g1 b1 w2 g2 b2)) (tvarF (a2F x w1 g1 b1 w2 g2 b2)) tw tb

theorem h1F_entries : (fun b j => h1F x w1 (ix2 b j)) = Cert.Spec.h1 (fun b k => x (ix2 b k)) (fun j k => w1 (ix2 j k)) := by
  have cx : (fun b k => xqF x (ix2 b k)) = Cert.Spec.xq (fun b k => x (ix2 b k)) :=
    funext fun b => funext fun k => xqF_apply x b k
  have cw : (fun j k => quantF bcast_S_S1024x784 w1 (ix2 j k)) = fun j k => Cert.Spec.tern (w1 (ix2 j k)) :=
    funext fun j => funext fun k => quantF_apply _ w1 (ix2 j k)
  funext b j
  unfold h1F Cert.Spec.h1
  rw [mm1F_apply, cx, cw]

theorem a1F_entries : (fun b j => a1F x w1 g1 b1 (ix2 b j))
    = Cert.Spec.rbn (Cert.Spec.h1 (fun b k => x (ix2 b k)) (fun j k => w1 (ix2 j k))) (fun j => g1 (ix1 j)) (fun j => b1 (ix1 j)) := by
  funext b j
  unfold a1F
  rw [bn1024F_apply, h1F_entries]

theorem h2F_entries : (fun b i => h2F x w1 g1 b1 w2 (ix2 b i))
    = Cert.Spec.mm (Cert.Spec.rbn (Cert.Spec.h1 (fun b k => x (ix2 b k)) (fun j k => w1 (ix2 j k))) (fun j => g1 (ix1 j)) (fun j => b1 (ix1 j)))
        (fun i j => Cert.Spec.tern (w2 (ix2 i j))) := by
  have cw : (fun i j => quantF bcast_S_S10x1024 w2 (ix2 i j)) = fun i j => Cert.Spec.tern (w2 (ix2 i j)) :=
    funext fun i => funext fun j => quantF_apply _ w2 (ix2 i j)
  funext b i
  unfold h2F
  rw [mm2F_apply, a1F_entries, cw]

theorem a2F_entries : (fun b i => a2F x w1 g1 b1 w2 g2 b2 (ix2 b i))
    = Cert.Spec.rbn (Cert.Spec.mm (Cert.Spec.rbn (Cert.Spec.h1 (fun b k => x (ix2 b k)) (fun j k => w1 (ix2 j k))) (fun j => g1 (ix1 j)) (fun j => b1 (ix1 j)))
        (fun i j => Cert.Spec.tern (w2 (ix2 i j)))) (fun i => g2 (ix1 i)) (fun i => b2 (ix1 i)) := by
  funext b i
  unfold a2F
  rw [bn10F_apply, h2F_entries]

/-- the composed network at an entry is the specification's reference arrangement of the arguments' entries -/
theorem outF_apply (b : Fin 16384) (i : Fin 10) :
    outF x w1 g1 b1 w2 g2 b2 tw tb (ix2 b i)
      = Cert.Spec.refOut (fun b k => x (ix2 b k)) (fun j k => w1 (ix2 j k)) (fun j => g1 (ix1 j)) (fun j => b1 (ix1 j))
          (fun i j => w2 (ix2 i j)) (fun i => g2 (ix1 i)) (fun i => b2 (ix1 i)) (tw (ix1 0)) (tb (ix1 0)) b i := by
  unfold outF Cert.Spec.refOut
  rw [tnF_apply, a2F_entries]

end Cert.RefSide

end
-- ==== Proof.RefClosed.lean ====
/-
  The reference's line of operations, folded: what the result buffer holds after all 181 operations is the composed
  network of the nine argument tensors.

  Each operation writes one buffer of its own with its pure function of the buffers it reads, so the fold at the
  result buffer unwinds, operation by operation, to the stages' pure functions applied to the arguments' contents.
-/
import proofs.«150640_j7971459301379_1_alg».proof.Proof.RefPure
import proofs.«150640_j7971459301379_1_alg».proof.Proof.RefOps

noncomputable section

namespace Cert.RefSide

open Idealize.ShloMosaic Idealize.ShloMosaic.ValueIdx Cert.ReferenceIdeal Cert.ReferenceIdeal.Gen Idealize.ShloMosaic.TcCoe Idealize.SL.Sem Idealize.ShloMosaic.StableHlo

set_option maxHeartbeats 4000000 in
/-- from any contents of the device's buffers, the result buffer ends at the composed network of the arguments' contents -/
theorem closed (V : Valuation τ sig (Elt Ideal)) :
    (StableHlo.after (ops (F := Ideal)) V (Proc.devRef .tc main_v70) : FVec Ideal S16384x10 .f32)
      = outF (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) := by
  show StableHlo.after _ _ _ = _
  after_results_simp
  rfl

end Cert.RefSide

end
-- ==== Proof.RefRead.lean ====
/-
  The reference program's result at an entry.

  After the reference's operations have run from a memory m, the result buffer of a device holds the composed
  network of that device's argument tensors; read at entry (b, i) this is the specification's reference arrangement
  of the arguments' entries: the quantised rescaled input times the quantised first weights, batch normalisation
  and the quantiser, the product with the quantised second weights, batch normalisation and the quantiser again,
  and the normalisation over the whole tensor with its scalar affine map.
-/
import proofs.«150640_j7971459301379_1_alg».proof.Proof.RefClosed

noncomputable section

namespace Cert.RefSide

open Idealize.ShloMosaic Idealize.ShloMosaic.ValueIdx Cert.ReferenceIdeal Cert.ReferenceIdeal.Gen Idealize.ShloMosaic.TcCoe Idealize.SL.Sem Idealize.ShloMosaic.StableHlo

/-- entry (b, i) of what the reference's operations leave in the result buffer is the specification's reference
    network of the entries of the nine arguments as the memory holds them -/
theorem out_apply (m : (ℓ : Loc nD τ sig) → Buf (Elt Ideal) ℓ) (c : Dev nD) (b : Fin 16384) (i : Fin 10) :
    (StableHlo.after (ops (F := Ideal)) (fun b => m (c, b)) (Proc.devRef .tc main_v70) : S16384x10.Idx → EReal) (ix2 b i)
      = Cert.Spec.refOut (fun b k => (m ((c.tc : Thread nD τ).loc main_arg0) : S16384x784.Idx → EReal) (ix2 b k))
          (fun j k => (m ((c.tc : Thread nD τ).loc main_arg1) : S1024x784.Idx → EReal) (ix2 j k))
          (fun j => (m ((c.tc : Thread nD τ).loc main_arg2) : S1024.Idx → EReal) (ix1 j))
          (fun j => (m ((c.tc : Thread nD τ).loc main_arg3) : S1024.Idx → EReal) (ix1 j))
          (fun i j => (m ((c.tc : Thread nD τ).loc main_arg4) : S10x1024.Idx → EReal) (ix2 i j))
          (fun i => (m ((c.tc : Thread nD τ).loc main_arg5) : S10.Idx → EReal) (ix1 i))
          (fun i => (m ((c.tc : Thread nD τ).loc main_arg6) : S10.Idx → EReal) (ix1 i))
          ((m ((c.tc : Thread nD τ).loc main_arg7) : S1.Idx → EReal) (ix1 0))
          ((m ((c.tc : Thread nD τ).loc main_arg8) : S1.Idx → EReal) (ix1 0)) b i :=
  (congrFun (closed (fun b => m (c, b))) (ix2 b i)).trans (outF_apply _ _ _ _ _ _ _ _ _ b i)

end Cert.RefSide

end
-- ==== Proof.SpecSum.lean ====
/-
  Sums: the coercion of a finite real sum into the extended reals is the sum of the coercions; the sum over the
  batch taken in 16 blocks of 1024 rows is the sum over all 16384 rows; and the two identities on the reals that
  relate a sum of squared deviations from a number to the sum of squares and the plain sum.
-/
import proofs.«150640_j7971459301379_1_alg».proof.Proof.SpecConsts

noncomputable section

namespace Cert.Spec

open Idealize.ShloMosaic

/-- the coercion of the reals into the extended reals commutes with finite sums -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- row r of block t runs over every row of the batch exactly once: (t, r) ↦ 1024 t + r is a bijection -/
theorem sumK_eq (f : Fin 16384 → EReal) : sumK f = ∑ b : Fin 16384, f b := by
  unfold sumK
  rw [← Fintype.sum_prod_type' (f := fun t r => f (blk t r))]
  refine Fintype.sum_equiv (finProdFinEquiv (m := 16) (n := 1024)) _ _ ?_
  rintro ⟨t, r⟩
  refine congrArg f (Fin.ext ?_)
  simp [blk, finProdFinEquiv]
  omega

/-- a product of real-valued arrays is real-valued -/
theorem mm_real {nB nK nN : Nat} (a : Fin nB → Fin nK → EReal) (w : Fin nN → Fin nK → EReal)
    (ha : ∀ b k, ∃ r : ℝ, a b k = (r : EReal)) (hw : ∀ j k, ∃ r : ℝ, w j k = (r : EReal)) (b : Fin nB) (j : Fin nN) :
    ∃ r : ℝ, mm a w b j = (r : EReal) := by
  choose A hA using ha
  choose W hW using hw
  refine ⟨∑ k : Fin nK, A b k * W j k, ?_⟩
  unfold mm
  rw [coe_sum]
  exact Finset.sum_congr rfl fun k _ => by rw [hA, hW, EReal.coe_mul]

/-- the sum of squared deviations from any number μ -/
theorem sum_centered_sq {ι : Type*} [Fintype ι] (a : ι → ℝ) (μ : ℝ) :
    ∑ i, (a i - μ) * (a i - μ) = ∑ i, a i * a i - 2 * μ * ∑ i, a i + (Fintype.card ι : ℝ) * (μ * μ) := by
  have h : ∀ i, (a i - μ) * (a i - μ) = a i * a i - 2 * μ * a i + μ * μ := fun i => by ring
  simp only [h]
  rw [Finset.sum_add_distrib, Finset.sum_sub_distrib, ← Finset.mul_sum, Finset.sum_const, Finset.card_univ,
    nsmul_eq_mul]

/-- mean of squares minus squared mean is the mean of the squared deviations from the mean -/
theorem var_biased {ι : Type*} [Fintype ι] (a : ι → ℝ) (n : ℝ) (hn : n ≠ 0) (hc : (Fintype.card ι : ℝ) = n) :
    (∑ i, a i * a i) * (1 / n) - (∑ i, a i) * (1 / n) * ((∑ i, a i) * (1 / n))
      = (∑ i, (a i - (∑ i, a i) * (1 / n)) * (a i - (∑ i, a i) * (1 / n))) * (1 / n) := by
  rw [sum_centered_sq, hc]
  generalize (∑ i, a i * a i) = Q
  generalize (∑ i, a i) = S
  field_simp
  ring

/-- sum of squares minus n times the squared mean is the sum of the squared deviations from the mean -/
theorem var_unbiased_num {ι : Type*} [Fintype ι] (a : ι → ℝ) (n : ℝ) (hn : n ≠ 0) (hc : (Fintype.card ι : ℝ) = n) :
    (∑ i, a i * a i) - n * ((∑ i, a i) * (1 / n)) * ((∑ i, a i) * (1 / n))
      = ∑ i, (a i - (∑ i, a i) * (1 / n)) * (a i - (∑ i, a i) * (1 / n)) := by
  rw [sum_centered_sq, hc]
  generalize (∑ i, a i * a i) = Q
  generalize (∑ i, a i) = S
  field_simp
  ring

end Cert.Spec

end
-- ==== Proof.SpecBN.lean ====
/-
  The batch normalisation, in the kernel's arrangement and in the reference's, on real-valued arrays.

  With S the sum and Q the sum of squares of a feature over the N = 16384 rows and μ = S / N, the kernel's variance
  Q / N - μ² equals the reference's (1/N) Σ (h - μ)², a nonnegative real v. Adding the positive real the small word
  denotes gives a positive real, whose reciprocal square root is the real 1/√(v + ε). The two affine forms
  h (γ r) + (β - μ (γ r)) and (h - μ) r γ + β agree in any commutative ring, so the quantiser meets equal arguments.
-/
import proofs.«150640_j7971459301379_1_alg».proof.Proof.SpecSum

noncomputable section

namespace Cert.Spec

open Idealize.ShloMosaic

section

variable {nN : Nat} (H : Fin 16384 → Fin nN → ℝ) (G Be : Fin nN → ℝ)

/-- the feature's mean over the batch -/
def bnMean (j : Fin nN) : ℝ := (∑ b : Fin 16384, H b j) * (1 / 16384)

/-- the feature's variance over the batch, as the mean of the squared deviations -/
def bnVar (j : Fin nN) : ℝ :=
  (∑ b : Fin 16384, (H b j - bnMean H j) * (H b j - bnMean H j)) * (1 / 16384)

theorem bnVar_nonneg (j : Fin nN) : 0 ≤ bnVar H j :=
  mul_nonneg (Finset.sum_nonneg fun _ _ => mul_self_nonneg _) (by norm_num)

theorem kmean_coe (j : Fin nN) : kmean (fun b j => (H b j : EReal)) j = (bnMean H j : EReal) := by
  unfold kmean kS bnMean
  rw [sumK_eq, ← coe_sum, cB_eq, Ideal.div_coe (by norm_num), ← EReal.coe_mul]

theorem kvar_coe (j : Fin nN) : kvar (fun b j => (H b j : EReal)) j = (bnVar H j : EReal) := by
  unfold kvar
  rw [kmean_coe]
  unfold kQ
  rw [sumK_eq]
  simp only [← EReal.coe_mul]
  rw [← coe_sum, cB_eq, Ideal.div_coe (by norm_num), ← EReal.coe_mul, ← EReal.coe_sub]
  unfold bnVar bnMean
  rw [var_biased (fun b => H b j) 16384 (by norm_num) (by simp)]

theorem rmean_coe (j : Fin nN) : rmean (fun b j => (H b j : EReal)) j = (bnMean H j : EReal) := by
  unfold rmean bnMean
  rw [c0_eq, zero_add, ← coe_sum, cB_eq, Ideal.div_coe (by norm_num), ← EReal.coe_mul]

theorem rvar_coe (j : Fin nN) : rvar (fun b j => (H b j : EReal)) j = (bnVar H j : EReal) := by
  unfold rvar
  rw [rmean_coe, c0_eq, zero_add, i0_eq, sub_zero, cB_eq]
  simp only [← EReal.coe_sub, ← EReal.coe_mul]
  rw [← coe_sum, Ideal.div_coe (by norm_num), ← EReal.coe_mul]
  rfl

/-- the reciprocal square root of variance plus the small word is a real number -/
theorem rsqrt_bn (j : Fin nN) :
    ∃ r : ℝ, Ideal.rsqrt ((bnVar H j : EReal) + eps1) = (r : EReal) := by
  obtain ⟨e, he, heq⟩ := eps1_pos
  have hpos : 0 < bnVar H j + e := add_pos_of_nonneg_of_pos (bnVar_nonneg H j) he
  refine ⟨(Real.sqrt (bnVar H j + e))⁻¹, ?_⟩
  rw [heq, ← EReal.coe_add, Ideal.rsqrt_coe, if_neg (not_lt.2 hpos.le), if_neg hpos.ne']

/-- the two arrangements of the batch normalisation agree on real-valued arrays -/
theorem kbn_eq_rbn_coe :
    kbn (fun b j => (H b j : EReal)) (fun j => (G j : EReal)) (fun j => (Be j : EReal))
      = rbn (fun b j => (H b j : EReal)) (fun j => (G j : EReal)) (fun j => (Be j : EReal)) := by
  funext b j
  obtain ⟨r, hr⟩ := rsqrt_bn H j
  unfold kbn qaff rbn kshift kscale
  rw [kmean_coe, kvar_coe, rmean_coe, rvar_coe, hr]
  simp only [← EReal.coe_mul, ← EReal.coe_sub, ← EReal.coe_add]
  congr 2
  ring

end

/-- the same, for arrays known to be real-valued entry by entry -/
theorem kbn_eq_rbn {nN : Nat} (h : Fin 16384 → Fin nN → EReal) (g be : Fin nN → EReal)
    (hh : ∀ b j, ∃ r : ℝ, h b j = (r : EReal)) (hg : ∀ j, ∃ r : ℝ, g j = (r : EReal))
    (hbe : ∀ j, ∃ r : ℝ, be j = (r : EReal)) : kbn h g be = rbn h g be := by
  choose H hH using hh
  choose G hG using hg
  choose Be hBe using hbe
  obtain rfl : h = fun b j => (H b j : EReal) := funext fun b => funext fun j => hH b j
  obtain rfl : g = fun j => (G j : EReal) := funext hG
  obtain rfl : be = fun j => (Be j : EReal) := funext hBe
  exact kbn_eq_rbn_coe H G Be

/-- the reference's batch normalisation ends in the quantiser, so it is real-valued -/
theorem rbn_real {nN : Nat} (h : Fin 16384 → Fin nN → EReal) (g be : Fin nN → EReal) (b : Fin 16384) (j : Fin nN) :
    ∃ r : ℝ, rbn h g be b j = (r : EReal) := tern_real _

end Cert.Spec

end
-- ==== Proof.SpecTN.lean ====
/-
  The normalisation over the whole 16384 x 10 tensor, in the kernel's arrangement and in the reference's, on a
  real-valued tensor.

  With A the sum and Q the sum of squares of all n = 163840 entries and μ = A / n, the kernel's numerator
  Q - n μ μ equals the reference's Σ (t - μ)², so both unbiased variances are the same nonnegative real v.
  Adding the positive real the small word denotes gives a positive real: its square root is a positive real s,
  its reciprocal square root is 1/s, and dividing by s is multiplying by 1/s. The two affine forms
  t (w/s) + (b - μ (w/s)) and (t - μ) (1/s) w + b agree in any commutative ring.
-/
import proofs.«150640_j7971459301379_1_alg».proof.Proof.SpecSum

noncomputable section

namespace Cert.Spec

open Idealize.ShloMosaic

/-- a double sum of coerced reals, rows outermost, as the coercion of one sum over the pairs -/
theorem sum2_coe (f : Fin 16384 → Fin 10 → ℝ) :
    ∑ b : Fin 16384, ∑ i : Fin 10, (f b i : EReal) = ((∑ p : Fin 16384 × Fin 10, f p.1 p.2 : ℝ) : EReal) := by
  rw [Fintype.sum_prod_type' (f := f), coe_sum]
  exact Finset.sum_congr rfl fun b _ => (coe_sum _ _).symm

/-- the same with the columns outermost -/
theorem sum2_coe' (f : Fin 16384 → Fin 10 → ℝ) :
    ∑ i : Fin 10, ∑ b : Fin 16384, (f b i : EReal) = ((∑ p : Fin 16384 × Fin 10, f p.1 p.2 : ℝ) : EReal) := by
  rw [Finset.sum_comm, sum2_coe]

section

variable (T : Fin 16384 → Fin 10 → ℝ) (w c : ℝ)

/-- the mean of all entries -/
def tnMean : ℝ := (∑ p : Fin 16384 × Fin 10, T p.1 p.2) * (1 / 163840)

/-- the unbiased variance of all entries -/
def tnVar : ℝ := (∑ p : Fin 16384 × Fin 10, (T p.1 p.2 - tnMean T) * (T p.1 p.2 - tnMean T)) * (1 / 163839)

theorem tnVar_nonneg : 0 ≤ tnVar T :=
  mul_nonneg (Finset.sum_nonneg fun _ _ => mul_self_nonneg _) (by norm_num)

theorem card_pairs : (Fintype.card (Fin 16384 × Fin 10) : ℝ) = 163840 := by
  simp

theorem ktmean_coe : ktmean (fun b i => (T b i : EReal)) = (tnMean T : EReal) := by
  unfold ktmean ktot kcol tnMean
  rw [sum2_coe' T, cT_eq, Ideal.div_coe (by norm_num), ← EReal.coe_mul]

theorem ktvar_coe : ktvar (fun b i => (T b i : EReal)) = (tnVar T : EReal) := by
  unfold ktvar ktotsq kcolsq
  rw [ktmean_coe, cT_eq, cT1_eq]
  simp only [← EReal.coe_mul]
  rw [sum2_coe' (fun b i => T b i * T b i), ← EReal.coe_sub, Ideal.div_coe (by norm_num), ← EReal.coe_mul]
  unfold tnVar tnMean
  rw [var_unbiased_num (fun p : Fin 16384 × Fin 10 => T p.1 p.2) 163840 (by norm_num) card_pairs]

theorem rtmean_coe : rtmean (fun b i => (T b i : EReal)) = (tnMean T : EReal) := by
  unfold rtmean tnMean
  rw [c0_eq, zero_add, sum2_coe T, cT_eq, Ideal.div_coe (by norm_num), ← EReal.coe_mul]

theorem rtvar_coe : rtvar (fun b i => (T b i : EReal)) = (tnVar T : EReal) := by
  unfold rtvar
  rw [rtmean_coe, c0_eq, zero_add, cT_eq, i1_eq, ← EReal.coe_one]
  simp only [← EReal.coe_sub, ← EReal.coe_mul]
  rw [sum2_coe (fun b i => (T b i - tnMean T) * (T b i - tnMean T)),
    show ((163840 : ℝ) - 1) = 163839 by norm_num, Ideal.div_coe (by norm_num), ← EReal.coe_mul]
  rfl

/-- the two arrangements of the whole-tensor normalisation agree on a real-valued tensor -/
theorem ktn_eq_rtn_coe :
    ktn (fun b i => (T b i : EReal)) (w : EReal) (c : EReal) = rtn (fun b i => (T b i : EReal)) (w : EReal) (c : EReal) := by
  funext b i
  obtain ⟨e, he, heq⟩ := eps2_pos
  have hpos : 0 < tnVar T + e := add_pos_of_nonneg_of_pos (tnVar_nonneg T) he
  have hs : Real.sqrt (tnVar T + e) ≠ 0 := (Real.sqrt_pos.2 hpos).ne'
  unfold ktn rtn ktshift ktscale
  rw [ktmean_coe, ktvar_coe, rtmean_coe, rtvar_coe, heq, ← EReal.coe_add, Ideal.rsqrt_coe,
    if_neg (not_lt.2 hpos.le), if_neg hpos.ne', Ideal.sqrt_coe, if_neg (not_lt.2 hpos.le), ← EReal.coe_sub,
    Ideal.div_coe hs]
  simp only [← EReal.coe_mul, ← EReal.coe_sub, ← EReal.coe_add]
  congr 1
  rw [one_div]
  ring

end

/-- the same, for a tensor and scalars known to be real-valued -/
theorem ktn_eq_rtn (t : Fin 16384 → Fin 10 → EReal) (tw tb : EReal)
    (ht : ∀ b i, ∃ r : ℝ, t b i = (r : EReal)) (htw : ∃ r : ℝ, tw = (r : EReal))
    (htb : ∃ r : ℝ, tb = (r : EReal)) : ktn t tw tb = rtn t tw tb := by
  choose T hT using ht
  obtain ⟨w, rfl⟩ := htw
  obtain ⟨c, rfl⟩ := htb
  obtain rfl : t = fun b i => (T b i : EReal) := funext fun b => funext fun i => hT b i
  exact ktn_eq_rtn_coe T w c

end Cert.Spec

end
-- ==== Proof.SpecMath.lean ====
/-
  The law that joins the two arrangements of the network.

  Every array that reaches a normalisation is real-valued: the quantiser's values lie in [-1, 1], a product of
  real-valued arrays is a finite sum of products of reals, and the scale and shift parameters are real by
  hypothesis. On real-valued arrays each stage of the kernel's arrangement equals the reference's, so the two
  networks are equal stage by stage. The input and the weights need no hypothesis: they are read only through
  the quantiser.
-/
import proofs.«150640_j7971459301379_1_alg».proof.Proof.SpecBN
import proofs.«150640_j7971459301379_1_alg».proof.Proof.SpecTN

noncomputable section

namespace Cert.Spec

open Idealize.ShloMosaic

/-- the first layer's product is real-valued, whatever the input and the weights are -/
theorem h1_real (x : Fin 16384 → Fin 784 → EReal) (w1 : Fin 1024 → Fin 784 → EReal) (b : Fin 16384) (j : Fin 1024) :
    ∃ r : ℝ, h1 x w1 b j = (r : EReal) :=
  mm_real _ _ (fun _ _ => tern_real _) (fun _ _ => tern_real _) b j

theorem kerOut_eq_refOut (x : Fin 16384 → Fin 784 → EReal) (w1 : Fin 1024 → Fin 784 → EReal) (g1 b1 : Fin 1024 → EReal)
    (w2 : Fin 10 → Fin 1024 → EReal) (g2 b2 : Fin 10 → EReal) (tw tb : EReal)
    (hg1 : ∀ j, ∃ r : ℝ, g1 j = (r : EReal)) (hb1 : ∀ j, ∃ r : ℝ, b1 j = (r : EReal))
    (hg2 : ∀ i, ∃ r : ℝ, g2 i = (r : EReal)) (hb2 : ∀ i, ∃ r : ℝ, b2 i = (r : EReal))
    (htw : ∃ r : ℝ, tw = (r : EReal)) (htb : ∃ r : ℝ, tb = (r : EReal)) :
    kerOut x w1 g1 b1 w2 g2 b2 tw tb = refOut x w1 g1 b1 w2 g2 b2 tw tb := by
  unfold kerOut refOut
  rw [kbn_eq_rbn (h1 x w1) g1 b1 (h1_real x w1) hg1 hb1]
  rw [kbn_eq_rbn (mm (rbn (h1 x w1) g1 b1) fun i j => tern (w2 i j)) g2 b2
    (mm_real _ _ (rbn_real _ _ _) fun _ _ => tern_real _) hg2 hb2]
  exact ktn_eq_rtn _ tw tb (rbn_real _ _ _) htw htb

end Cert.Spec

end
-- ==== Proof.Finite.lean ====
/-
  Finiteness of the scale and shift parameters, read back from the precondition.

  The precondition is a conjunction, one conjunct per argument array, each saying that every entry's absolute
  value is strictly below +∞. An extended real x with max x (-x) < ⊤ is neither ⊤ nor ⊥, so it is a real number.
  A conjunction of one-bit words is 1 exactly when every conjunct is 1, and a reduction by "and" over all axes
  that is 1 had a 1 at every index.
-/
import proofs.«150640_j7971459301379_1_alg».proof.Defs
import proofs.«150640_j7971459301379_1_alg».proof.Proof.Gen.Pre_finite_inputs
import proofs.«150640_j7971459301379_1_alg».proof.Proof.Gen.KernelIdeal
import Idealize.ShloMosaic.Lib.ReduceAll
import Idealize.ShloMosaic.Lib.ValueIdx

noncomputable section

namespace Cert.KerSide

open Cert.KernelIdeal Idealize.ShloMosaic Idealize.ShloMosaic.ValueIdx Idealize.SL.Sem

/-- the shape with no axes has one index -/
instance : Subsingleton Cert.Pre_finite_inputs.S_.Idx := ⟨fun a b => funext fun d => d.elim0⟩

/-- an extended real whose absolute value is strictly below +∞ is a real number -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- one conjunct of the precondition: if "every |a i| < +∞" reduces to 1, every entry of a is a real number -/
theorem all_real {s : Shape} {axes : List (Fin s.rank)} (a : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] bc (constant (F := Ideal) Cert.Pre_finite_inputs.S_ .f32 0x7F800000#32)))
          (constantI Cert.Pre_finite_inputs.S_ 1 1#1) hr hu ix0 = 1#1)
    (i : s.Idx) : ∃ r : ℝ, a i = (r : EReal) :=
  real_of_abs_lt _ (Host.reduce_andi_all _ _ hr hu ix0 e i)

/-- a conjunction of two one-bit scalars is 1 exactly when both are -/
theorem andi_ix0 (x y : IVec Cert.Pre_finite_inputs.S_ 1) :
    andi x y ix0 = 1#1 ↔ x ix0 = 1#1 ∧ y ix0 = 1#1 := IntOp.andi_eq_one

section

variable (m : (ℓ : Loc nD τ sig) → Buf (Elt Ideal) ℓ)
  (h : Cert.Pre_KernelIdeal (hPre_finite_inputs := Cert.Pre_finite_inputs.Gen.facts) m) (c : Dev nD)

include h

/-- the precondition decoded: the six parameter arrays are real-valued at every index -/
theorem reals :
    (∀ i, ∃ r : ℝ, (m ((c.tc : Thread nD τ).loc main_arg2) : S1024.Idx → EReal) i = (r : EReal))
    ∧ (∀ i, ∃ r : ℝ, (m ((c.tc : Thread nD τ).loc main_arg3) : S1024.Idx → EReal) i = (r : EReal))
    ∧ (∀ i, ∃ r : ℝ, (m ((c.tc : Thread nD τ).loc main_arg5) : S10.Idx → EReal) i = (r : EReal))
    ∧ (∀ i, ∃ r : ℝ, (m ((c.tc : Thread nD τ).loc main_arg6) : S10.Idx → EReal) i = (r : EReal))
    ∧ (∀ i, ∃ r : ℝ, (m ((c.tc : Thread nD τ).loc main_arg7) : S1.Idx → EReal) i = (r : EReal))
    ∧ (∀ i, ∃ r : ℝ, (m ((c.tc : Thread nD τ).loc main_arg8) : S1.Idx → EReal) i = (r : EReal)) := by
  have e := congrFun (h c) ix0
  dsimp only [Cert.Pre_finite_inputs.fn, Cert.Pre_finite_inputs.fn_part1, Cert.Pre_finite_inputs.fn_part2] at e
  simp only [andi_ix0] at e
  obtain ⟨⟨⟨⟨⟨⟨⟨⟨e0, e1⟩, e2⟩, e3⟩, e4⟩, e5⟩, e6⟩, e7⟩, e8⟩ := e
  exact ⟨all_real _ _ _ _ e2, all_real _ _ _ _ e3, all_real _ _ _ _ e5, all_real _ _ _ _ e6,
    all_real _ _ _ _ e7, all_real _ _ _ _ e8⟩

theorem real_arg2 (j : Fin 1024) :
    ∃ r : ℝ, (m ((c.tc : Thread nD τ).loc main_arg2) : S1024.Idx → EReal) (ix1 j) = (r : EReal) :=
  (reals m h c).1 _

theorem real_arg3 (j : Fin 1024) :
    ∃ r : ℝ, (m ((c.tc : Thread nD τ).loc main_arg3) : S1024.Idx → EReal) (ix1 j) = (r : EReal) :=
  (reals m h c).2.1 _

theorem real_arg5 (j : Fin 10) :
    ∃ r : ℝ, (m ((c.tc : Thread nD τ).loc main_arg5) : S10.Idx → EReal) (ix1 j) = (r : EReal) :=
  (reals m h c).2.2.1 _

theorem real_arg6 (j : Fin 10) :
    ∃ r : ℝ, (m ((c.tc : Thread nD τ).loc main_arg6) : S10.Idx → EReal) (ix1 j) = (r : EReal) :=
  (reals m h c).2.2.2.1 _

theorem real_arg7 :
    ∃ r : ℝ, (m ((c.tc : Thread nD τ).loc main_arg7) : S1.Idx → EReal) (ix1 (0 : Fin 1)) = (r : EReal) :=
  (reals m h c).2.2.2.2.1 _

theorem real_arg8 :
    ∃ r : ℝ, (m ((c.tc : Thread nD τ).loc main_arg8) : S1.Idx → EReal) (ix1 (0 : Fin 1)) = (r : EReal) :=
  (reals m h c).2.2.2.2.2 _

end

end Cert.KerSide

end
-- ==== Proof.lean ====
/-
  The certificate of a ternary-quantised two-layer network with two batch normalisations and a whole-tensor
  normalisation: the kernel program (three launches among host arithmetic) against the plain reference.

  The three frame claims are the programs' runs with the results dropped. The kernel's idealization rewrites nothing,
  so its conjunct is trivial. For the algebraic claim both runs end, with the result arrays named; read at an entry
  (b, i) the kernel's is the network in the kernel's arrangement of the argument arrays and the reference's the network in
  the reference's arrangement; the two arrangements are one function wherever the affine parameters are finite, which
  the precondition gives: a batch's variance is E[h^2] - E[h]^2 = E[(h - E[h])^2], and h * (gamma r) + (beta - mu (gamma r))
  = (h - mu) r gamma + beta; for the whole-tensor stage sum (t - mu)^2 = sum t^2 - n mu^2 and 1 / sqrt v = rsqrt v.
  The quantiser's output is always one of the reals in [-1, 1], so the two products are real whatever the inputs.
-/
import proofs.«150640_j7971459301379_1_alg».proof.Defs
import proofs.«150640_j7971459301379_1_alg».proof.Proof.Gen.Kernel
import proofs.«150640_j7971459301379_1_alg».proof.Proof.Gen.Kernel.Skeleton
import proofs.«150640_j7971459301379_1_alg».proof.Proof.Gen.Kernel.Launch
import proofs.«150640_j7971459301379_1_alg».proof.Proof.Gen.Kernel.Points
import proofs.«150640_j7971459301379_1_alg».proof.Proof.Gen.Kernel.Frame
import proofs.«150640_j7971459301379_1_alg».proof.Proof.Gen.KernelIdeal
import proofs.«150640_j7971459301379_1_alg».proof.Proof.Gen.KernelIdeal.Skeleton
import proofs.«150640_j7971459301379_1_alg».proof.Proof.Gen.KernelIdeal.Launch
import proofs.«150640_j7971459301379_1_alg».proof.Proof.Gen.KernelIdeal.Points
import proofs.«150640_j7971459301379_1_alg».proof.Proof.Gen.KernelIdeal.Frame
import proofs.«150640_j7971459301379_1_alg».proof.Proof.Gen.ReferenceIdeal
import proofs.«150640_j7971459301379_1_alg».proof.Proof.Gen.Pre_finite_inputs
import proofs.«150640_j7971459301379_1_alg».proof.Proof.KerRun
import proofs.«150640_j7971459301379_1_alg».proof.Proof.KerValue
import proofs.«150640_j7971459301379_1_alg».proof.Proof.RefRun
import proofs.«150640_j7971459301379_1_alg».proof.Proof.RefRead
import proofs.«150640_j7971459301379_1_alg».proof.Proof.SpecMath
import proofs.«150640_j7971459301379_1_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.RefSide.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W6 m ρ c (Proc.devRef .tc Cert.KernelIdeal.main_v34), Cert.KerSide.run_val (F := Ideal) m ρ, ?_⟩
  refine (θ_run Cert.ReferenceIdeal.defs _ _).mono (fun r h c => ⟨(h c).1.trans ?_, (h c).2⟩)
    (Cert.RefSide.run (F := Ideal) m' ρ')
  funext idx
  obtain ⟨b, i, rfl⟩ : ∃ (b : Fin 16384) (i : Fin 10), idx = ix2 b i := ⟨idx 0, idx 1, eq_ix2 idx⟩
  refine (Cert.RefSide.out_apply m' c b i).trans (Eq.trans ?_ (Cert.KerSide.kerVal m ρ c b i).symm)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  have e := Cert.Spec.kerOut_eq_refOut (Cert.KerSide.aX m c) (Cert.KerSide.aW1 m c) (Cert.KerSide.aG1 m c)
    (Cert.KerSide.aB1 m c) (Cert.KerSide.aW2 m c) (Cert.KerSide.aG2 m c) (Cert.KerSide.aB2 m c) (Cert.KerSide.aTW m c)
    (Cert.KerSide.aTB m c) (Cert.KerSide.real_arg2 m hpre c) (Cert.KerSide.real_arg3 m hpre c)
    (Cert.KerSide.real_arg5 m hpre c) (Cert.KerSide.real_arg6 m hpre c) (Cert.KerSide.real_arg7 m hpre c)
    (Cert.KerSide.real_arg8 m hpre c)
  exact (congrFun (congrFun e b) i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
